-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S16384x1024 : Shape := ⟨2, ![16384, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S4096x1024 .f32) (main_arg1 : FVec F S16384x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Kernel.lean ====
abbrev S4096x1024 : Shape := ⟨2, ![4096, 1024]⟩
abbrev S16384x1024 : Shape := ⟨2, ![16384, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩
abbrev S2x1x128 : Shape := ⟨3, ![2, 1, 128]⟩
abbrev S256x1024 : Shape := ⟨2, ![256, 1024]⟩
abbrev S1x1x128 : Shape := ⟨3, ![1, 1, 128]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 16
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | .hbm, ⟨2, _⟩ => ⟨S2x1x1024, .f32⟩
  | .hbm, ⟨3, _⟩ => ⟨S1x1x1024, .f32⟩
  | .hbm, ⟨4, _⟩ => ⟨S1x1024, .f32⟩
  | .hbm, ⟨5, _⟩ => ⟨S1x1x1024, .f32⟩
  | .hbm, ⟨6, _⟩ => ⟨S1x1024, .f32⟩
  | .hbm, ⟨7, _⟩ => ⟨S1x1024, .f32⟩
  | .hbm, ⟨8, _⟩ => ⟨S2x1x128, .f32⟩
  | .hbm, ⟨9, _⟩ => ⟨S2x1x1, .f32⟩
  | .hbm, ⟨10, _⟩ => ⟨S2, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1x128, .f32⟩
  | .local _ .vmem, ⟨10, _⟩ => ⟨S1x1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.addi c8_i32 v0
  let v2 : BitVec 32 := Scalar.addi v1 arg1
  let c0_i32 : BitVec 32 := 0#32
  let c0_i32_0 : BitVec 32 := 0#32
  ![v2.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1x1x1024_S1x1x1024_0_0_0 : ∀ a, (![0, 0, 0] : Fin 3 → Nat) a + S1x1x1024.size a ≤ S1x1x1024.size a
  h_S1x1x1024 : 0 < S1x1x1024.numel
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  reduces_S1024x1024_S1024_2 : S1024x1024.Reduces [0] S1024
  shapeCasts_S1024_S1x1024 : S1024.ShapeCasts S1x1024
  shapeCasts_S1x1x1024_S1x1x1024 : S1x1x1024.ShapeCasts S1x1x1024
  shapeCasts_S1x1024_S1x1x1024 : S1x1024.ShapeCasts S1x1x1024
  slices_S2x1x1024_S1x1x1024_0_0_0 : S2x1x1024.Slices ![0, 0, 0] S1x1x1024
  shapeCasts_S1x1x1024_S1x1024 : S1x1x1024.ShapeCasts S1x1024
  slices_S2x1x1024_S1x1x1024_1_0_0 : S2x1x1024.Slices ![1, 0, 0] S1x1x1024
  inb_S1x1x128_S1x1x128_0_0_0 : ∀ a, (![0, 0, 0] : Fin 3 → Nat) a + S1x1x128.size a ≤ S1x1x128.size a
  h_S1x1x128 : 0 < S1x1x128.numel
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  broadcasts_S256x1_S256x1024 : S256x1.Broadcasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1_S1x256x1 : S256x1.ShapeCasts S1x256x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  shapeCasts_S1x1x128_S1x1x128 : S1x1x128.ShapeCasts S1x1x128
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S2x1x1024.size a
  hwx0_1 : ∀ i : grid0.Coords, EltTy.bits .f32 = 32 ∨ (Rect.block (s := S2x1x1024) S1x1x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .f32 = 32 ∨ (Rect.block (s := S4096x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S4096x1024.size a
  hwx1_1 : ∀ i : grid1.Coords, EltTy.bits .f32 = 32 ∨ (Rect.block (s := S4096x1024) S256x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S2x1x128.size a
  hwx1_3 : ∀ i : grid1.Coords, EltTy.bits .f32 = 32 ∨ (Rect.block (s := S2x1x128) S1x1x128.size (cc1_transform_3 i) (hinb1_3 i)).WholeWords (EltTy.packing .f32)

variable [Facts₀]

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S16384x1024 : Shape := ⟨2, ![16384, 1024]⟩
abbrev S_ : Shape := ⟨0, ![]⟩
abbrev S4096 : Shape := ⟨1, ![4096]⟩
abbrev S4096x1 : Shape := ⟨2, ![4096, 1]⟩
abbrev S16384 : Shape := ⟨1, ![16384]⟩
abbrev S16384x1 : Shape := ⟨2, ![16384, 1]⟩
abbrev S2048x1024 : Shape := ⟨2, ![2048, 1024]⟩
abbrev S2048 : Shape := ⟨1, ![2048]⟩
abbrev S4096x16384 : Shape := ⟨2, ![4096, 16384]⟩
abbrev S4096x2 : Shape := ⟨2, ![4096, 2]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S4096, .f32⟩
  | .hbm, ⟨31, _⟩ => ⟨S4096x16384, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096x1, .f32⟩
  | .hbm, ⟨38, _⟩ => ⟨S4096x1, .f32⟩
  | .hbm, ⟨39, _⟩ => ⟨S4096x2, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1, .f32⟩
  | .hbm, ⟨46, _⟩ => ⟨S4096x2, .f32⟩
  | .hbm, ⟨47, _⟩ => ⟨S4096x2, .f32⟩
  | .hbm, ⟨48, _⟩ => ⟨S4096x2, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1, .f32⟩
  | .hbm, ⟨53, _⟩ => ⟨S4096x2, .f32⟩
  | .hbm, ⟨54, _⟩ => ⟨S4096x2, .f32⟩
  | .hbm, ⟨55, _⟩ => ⟨S4096x1, .f32⟩
  | .hbm, ⟨56, _⟩ => ⟨S4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call2_cst : Ref sig .tc := ⟨.hbm, 40, rfl⟩
abbrev main_call2_v0 : Ref sig .tc := ⟨.hbm, 41, rfl⟩
abbrev main_call2_cst_0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_cst_1 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_5 : Ref sig .tc := ⟨.hbm, 57, rfl⟩
abbrev main_v27 : Ref sig .tc := ⟨.hbm, 58, rfl⟩
abbrev main_cst_6 : Ref sig .tc := ⟨.hbm, 59, rfl⟩
abbrev main_v28 : Ref sig .tc := ⟨.hbm, 60, rfl⟩
abbrev main_v29 : Ref sig .tc := ⟨.hbm, 61, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  reducesTo_S16384x1024_S16384_d1 : S16384x1024.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  slices_S4096x1024_S2048x1024_0_0 : S4096x1024.Slices ![0, 0] S2048x1024
  slices_S4096x1024_S2048x1024_2048_0 : S4096x1024.Slices ![2048, 0] S2048x1024
  reducesTo_S2048x1024_S2048_d1 : S2048x1024.ReducesTo [1] S2048
  bcast_S_S2048 : S_.BroadcastsInDim S2048 (![] : Fin 0 → Fin S2048.rank)
  concatenates_S2048_S2048_S4096_d0 : Shape.Concatenates [S2048, S2048] S4096 0
  reducesTo_S4096x16384_S4096_d1 : S4096x16384.ReducesTo [1] S4096
  bcast_S_S4096 : S_.BroadcastsInDim S4096 (![] : Fin 0 → Fin S4096.rank)
  concatenates_S4096x1_S4096x1_S4096x2_d1 : Shape.Concatenates [S4096x1, S4096x1] S4096x2 1
  reducesTo_S4096x2_S4096_d1 : S4096x2.ReducesTo [1] S4096
  bcast_S4096x1_S4096x2_0_1 : S4096x1.BroadcastsInDim S4096x2 (![0, 1] : Fin 2 → Fin S4096x2.rank)
  slices_S4096x2_S4096x1_0_0 : S4096x2.Slices ![0, 0] S4096x1
  shapeCasts_S4096x1_S4096 : S4096x1.ShapeCasts S4096
  reducesTo_S4096_S_d0 : S4096.ReducesTo [0] S_
  dot_S4096x1024_S16384x1024_S4096x16384_1_1_0_0_n_n_wf : DotDims.WF S4096x1024 S16384x1024 S4096x16384 [1] [1] [0] [0] [] []

variable [Facts₀]

def dot_S4096x1024_S16384x1024_S4096x16384_1_1_0_0_n_n : DotDims S4096x1024 S16384x1024 S4096x16384 where
  lhsContracting := [1]
  rhsContracting := [1]
  lhsNonContracting := [0]
  rhsNonContracting := [0]
  lhsBatch := []
  rhsBatch := []
  wf := dot_S4096x1024_S16384x1024_S4096x16384_1_1_0_0_n_n_wf

class Facts : Prop extends Facts₀ where

variable [Facts]
-- ==== Proof.KRegion0.lean ====
import proofs.«155385_j62319975465315_2_alg».proof.Proof.Gen.Kernel.Launch
import proofs.«155385_j62319975465315_2_alg».proof.Proof.Gen.Kernel.Skeleton
import proofs.«155385_j62319975465315_2_alg».proof.Proof.Gen.Kernel.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

/-!
# The first grid of the kernel: column sums of the row-normalised memory bank

The grid has 2 × 8 points; point `t = 8·c + i` reads rows `[1024·t, 1024·t + 1024)` of the memory bank and
works on row `c` of a `2 × 1 × 1024` result.  At the first point of a sweep (`i = 0`) the row is set to
zero; at every point the block's rows are divided by `max (‖row‖, eps)`, summed over the rows, and the sum
is added to the row.  The row is written back once, after the last point of its sweep (`i = 7`).

This file states what the row's buffer holds after each point (by recursion on the point: zero plus the
first block's contribution at `i = 0`, the previous contents plus the block's contribution otherwise),
proves that the body does exactly that at every point, and reads off what the result array holds when
the grid is done.  Everything is stated for the buffer contents `V` found when the grid is entered, and
for any float type `F`.
-/

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The reset condition -/

/-- The body's test "is this the first point of a sweep", as it computes it from the second grid coordinate. -/
abbrev isFirst (i : grid0.Coords) : Prop :=
  (Scalar.cmpi .ne (Scalar.extui (Scalar.cmpi .eq (BitVec.ofNat 32 (i 1).val) 0#32)) 0#32) = 1#1

/-- It holds exactly at the points `0` and `8`: the multiples of the sweep length. -/
theorem isFirst_iff : ∀ t : Fin cfg0.N, isFirst (grid0.coords t) ↔ t.val % 8 = 0 :=
  (by decide +kernel : ∀ t : Fin grid0.N, isFirst (grid0.coords t) ↔ t.val % 8 = 0)

/-! ## The buffers the body is handed at a point -/

/-- A fixed buffer of the row's shape, through which contents of the row are written down (which one is
    immaterial: only the function read back matters). -/
abbrev rowView : View sig .tc .vmem S1x1x1024 .f32 := (Memref.whole cc0_stg1_0 : Memref sig .tc .vmem S1x1x1024 .f32).view

/-- The block's buffer and the row's buffer at point `t`, and that each is a whole buffer. -/
abbrev inBuf (t : Fin cfg0.N) : Memref sig .tc .vmem S1024x1024 .f32 := win0_0.stage (cfg0.slots t 0)
abbrev inBuf_whole (t : Fin cfg0.N) : (inBuf t).IsWhole := hstage0_0 ((cfg0.slots t 0).cast nbuf0_0)
abbrev rowBuf (t : Fin cfg0.N) : Memref sig .tc .vmem S1x1x1024 .f32 := win0_1.stage (cfg0.slots t 1)
abbrev rowBuf_whole (t : Fin cfg0.N) : (rowBuf t).IsWhole := hstage0_1 ((cfg0.slots t 1).cast nbuf0_1)

/-! ## The body, run symbolically, in its two cases -/

set_option maxHeartbeats 1000000 in
/-- AT THE FIRST POINT OF A SWEEP.  On whole buffers, the block's at contents `x` and the row's at
    anything, the body ends with the block's buffer unchanged and the row's buffer written by the listed
    stores (latest first); the list is found by running the body. -/
noncomputable def runFirst (c : Dev nD) (i : grid0.Coords) (a : Memref sig .tc .vmem S1024x1024 .f32) (ha : a.IsWhole)
    (r : Memref sig .tc .vmem S1x1x1024 .f32) (hr : r.IsWhole) (hc : isFirst i) (x : Vec F S1024x1024 .f32) :
    { L : List (View.Piece (Elt F) S1x1x1024 .f32) //
      ∀ (E : Set ℕ) (K : PUnit → sProp 𝕄),
        iprop(owns (c : Thread nD τ) a fullShare x ∗ (∃ d, owns (c : Thread nD τ) r fullShare d)
            ∗ (iprop(owns (c : Thread nD τ) a fullShare x ∗ (∃ f, r.view.loc (c : Thread nD τ) ↦[r.view.set]{fullShare} r.view.writes (Elt F) f L)) -∗ K ⟨⟩))
          ⊢ wp frame (wpE (defs₀ (F := F)) Variants.none c none) E (cc0__msum_kernel i a ha r hr) K } := by
  refine ⟨?_, fun E K => ?run⟩
  case run =>
    simp only [cc0__msum_kernel_eq_skeleton]; unfold cc0__msum_kernel_skel
    unfold owns
    iintro ⟨⟨%f0, %hf0, H0⟩, ⟨%d1, %f1, -, H1⟩, Hk⟩
    obtain rfl := ha.eq_unread hf0
    sl_exec (disch := first | exact hc)
    sl_step
    iapply Hk
    isplitl [H0]
    · iexists _; isplitr; · ipureintro; exact ha.read_unread _
      iexact H0
    iexists _; iexact H1

set_option maxHeartbeats 1000000 in
/-- AT ANY OTHER POINT.  On whole buffers, the block's at contents `x` and the row's at contents `acc`,
    the body ends with the block's buffer unchanged and the row's buffer written by the listed stores. -/
noncomputable def runLater (c : Dev nD) (i : grid0.Coords) (a : Memref sig .tc .vmem S1024x1024 .f32) (ha : a.IsWhole)
    (r : Memref sig .tc .vmem S1x1x1024 .f32) (hr : r.IsWhole) (hc : ¬isFirst i) (x : Vec F S1024x1024 .f32)
    (acc : Vec F S1x1x1024 .f32) :
    { L : List (View.Piece (Elt F) S1x1x1024 .f32) //
      ∀ (E : Set ℕ) (K : PUnit → sProp 𝕄),
        iprop(owns (c : Thread nD τ) a fullShare x ∗ owns (c : Thread nD τ) r fullShare acc
            ∗ (iprop(owns (c : Thread nD τ) a fullShare x ∗ (∃ f, r.view.loc (c : Thread nD τ) ↦[r.view.set]{fullShare} r.view.writes (Elt F) f L)) -∗ K ⟨⟩))
          ⊢ wp frame (wpE (defs₀ (F := F)) Variants.none c none) E (cc0__msum_kernel i a ha r hr) K } := by
  refine ⟨?_, fun E K => ?run⟩
  case run =>
    simp only [cc0__msum_kernel_eq_skeleton]; unfold cc0__msum_kernel_skel
    unfold owns
    iintro ⟨⟨%f0, %hf0, H0⟩, ⟨%f1, %hf1, H1⟩, Hk⟩
    obtain rfl := ha.eq_unread hf0; obtain rfl := hr.eq_unread hf1
    sl_exec (disch := first | exact hc)
    sl_step
    iapply Hk
    isplitl [H0]
    · iexists _; isplitr; · ipureintro; exact ha.read_unread _
      iexact H0
    iexists _; iexact H1

/-! ## What each case leaves in the row's buffer -/

/-- At a first point the stores tile the row, so every index of the row is under one of them. -/
theorem coverFirst (c : Dev nD) (i : grid0.Coords) (a : Memref sig .tc .vmem S1024x1024 .f32) (ha : a.IsWhole)
    (r : Memref sig .tc .vmem S1x1x1024 .f32) (hr : r.IsWhole) (hc : isFirst i) (x : Vec F S1024x1024 .f32)
    (y : S1x1x1024.Idx) : ∃ pc ∈ (runFirst c i a ha r hr hc x).1, y ∈ pc.1.set :=
  View.cover_of_tiledL (runFirst c i a ha r hr hc x).1 S1x1x1024.size (by sl_kernel_rfl) y

/-- The row after a first point: the stores read back (over contents that do not matter, the row being covered). -/
def rowFirst (c : Dev nD) (i : grid0.Coords) (a : Memref sig .tc .vmem S1024x1024 .f32) (ha : a.IsWhole)
    (r : Memref sig .tc .vmem S1x1x1024 .f32) (hr : r.IsWhole) (hc : isFirst i) (x : Vec F S1024x1024 .f32) :
    Vec F S1x1x1024 .f32 :=
  rowView.read (Elt F) (rowView.writes (Elt F) rowView.junk (runFirst c i a ha r hr hc x).1)

/-- At a later point the one store covers the row. -/
theorem coverLater (c : Dev nD) (i : grid0.Coords) (a : Memref sig .tc .vmem S1024x1024 .f32) (ha : a.IsWhole)
    (r : Memref sig .tc .vmem S1x1x1024 .f32) (hr : r.IsWhole) (hc : ¬isFirst i) (x : Vec F S1024x1024 .f32)
    (acc : Vec F S1x1x1024 .f32) (y : S1x1x1024.Idx) : ∃ pc ∈ (runLater c i a ha r hr hc x acc).1, y ∈ pc.1.set :=
  View.cover_of_tiledL (runLater c i a ha r hr hc x acc).1 S1x1x1024.size (by sl_kernel_rfl) y

/-- The row after a later point, from the block `x` and the row's contents `acc` before it. -/
def rowLater (c : Dev nD) (i : grid0.Coords) (a : Memref sig .tc .vmem S1024x1024 .f32) (ha : a.IsWhole)
    (r : Memref sig .tc .vmem S1x1x1024 .f32) (hr : r.IsWhole) (hc : ¬isFirst i) (x : Vec F S1024x1024 .f32)
    (acc : Vec F S1x1x1024 .f32) : Vec F S1x1x1024 .f32 :=
  rowView.read (Elt F) (rowView.writes (Elt F) rowView.junk (runLater c i a ha r hr hc x acc).1)

section Entered
/-! ## At the contents `V` found when the grid is entered -/

variable (V : (c : Dev nD) → (b : Ref sig .tc) → Buf (Elt F) ((c : Thread nD τ).loc b))

/-- Window `w`'s block at point `t`, read off the window's array as found. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The memory bank's buffer holds the point's block whenever the body runs: the block is fetched at every
    point, and for any proof data over `V` whose body leaves the block alone. -/
theorem before_in_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- THE RUNNING ROW.  What the row's buffer holds after the body at point `n`: at a first point of a sweep
    what `rowFirst` says of the point's block; otherwise what `rowLater` says of the point's block and of the
    row after point `n - 1` (the buffer is not written back in between, nor changed). -/
def rowAt (c : Dev nD) : (n : ℕ) → n < cfg0.N → Vec F S1x1x1024 .f32
  | 0, hn => rowFirst c (grid0.coords ⟨0, hn⟩) (inBuf ⟨0, hn⟩) (inBuf_whole ⟨0, hn⟩) (rowBuf ⟨0, hn⟩) (rowBuf_whole ⟨0, hn⟩)
      ((isFirst_iff ⟨0, hn⟩).mpr (Nat.zero_mod _)) (blk0 V c 0 ⟨0, hn⟩)
  | n + 1, hn =>
    if h0 : (n + 1) % 8 = 0 then
      rowFirst c (grid0.coords ⟨n + 1, hn⟩) (inBuf ⟨n + 1, hn⟩) (inBuf_whole ⟨n + 1, hn⟩) (rowBuf ⟨n + 1, hn⟩) (rowBuf_whole ⟨n + 1, hn⟩)
        ((isFirst_iff ⟨n + 1, hn⟩).mpr h0) (blk0 V c 0 ⟨n + 1, hn⟩)
    else
      rowLater c (grid0.coords ⟨n + 1, hn⟩) (inBuf ⟨n + 1, hn⟩) (inBuf_whole ⟨n + 1, hn⟩) (rowBuf ⟨n + 1, hn⟩) (rowBuf_whole ⟨n + 1, hn⟩)
        (fun h => h0 ((isFirst_iff ⟨n + 1, hn⟩).mp h)) (blk0 V c 0 ⟨n + 1, hn⟩) (rowAt c n (Nat.lt_of_succ_lt hn))

/-- `rowAt` at a first point. -/
theorem rowAt_first (c : Dev nD) (t : Fin cfg0.N) (h0 : t.val % 8 = 0) :
    rowAt V c t.val t.isLt = rowFirst c (grid0.coords t) (inBuf t) (inBuf_whole t) (rowBuf t) (rowBuf_whole t)
      ((isFirst_iff t).mpr h0) (blk0 V c 0 t) := by
  obtain ⟨n, hn⟩ := t
  cases n with
  | zero => exact rfl
  | succ n => exact (dif_pos h0).trans rfl

/-- `rowAt` at a later point. -/
theorem rowAt_later (c : Dev nD) (t : Fin cfg0.N) (h0 : ¬t.val % 8 = 0) :
    rowAt V c t.val t.isLt = rowLater c (grid0.coords t) (inBuf t) (inBuf_whole t) (rowBuf t) (rowBuf_whole t)
      (fun h => h0 ((isFirst_iff t).mp h)) (blk0 V c 0 t)
      (rowAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data of the grid -/

/-- The arrays are as found; after the body at point `t` the memory bank's buffer holds the point's block
    and the row's buffer the running row; the invariant is the part of the core the body does not name;
    nothing is owed and every share is full. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => (rowAt V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = rowAt V c t.val t.isLt := by dsimp only [dat0]

/-- The memory bank's buffer holds the point's block when the body starts. -/
theorem before0_0 (c : Dev nD) (t : Fin cfg0.N) (d) : (dat0 V c).before 0 t d = blk0 V c 0 t :=
  before_in_of V (dat0 V c) (A_eq0 V c 0) (after0_0 V c) t d

/-- At a later point of a sweep the row's buffer still holds the running row of the point before: the row
    is written back only after the last point of a sweep, and the next point is then a first point. -/
theorem before0_1_later (c : Dev nD) (t : Fin cfg0.N) (h0 : ¬t.val % 8 = 0) (d) :
    (dat0 V c).before 1 t d = rowAt V c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body does what the proof data say, at every point -/

/-- What the body is handed at point `t`, -/
def bodyPre0 (c : Dev nD) (t : Fin cfg0.N) : sProp 𝕄 :=
  iprop((dat0 V c).Φ t.castSucc ∗ (dat0 V c).owesAt () t.castSucc
    ∗ (∃ d, owns (c : Thread nD τ) (inBuf t) fullShare ((dat0 V c).before 0 t d))
    ∗ (∃ d, owns (c : Thread nD τ) (rowBuf t) fullShare ((dat0 V c).before 1 t d)))

/-- and what it hands back. -/
def bodyPost0 (c : Dev nD) (t : Fin cfg0.N) : sProp 𝕄 :=
  iprop((dat0 V c).Φ t.succ ∗ (dat0 V c).owesAt () t.succ
    ∗ owns (c : Thread nD τ) (inBuf t) fullShare ((dat0 V c).after 0 t)
    ∗ owns (c : Thread nD τ) (rowBuf t) fullShare ((dat0 V c).after 1 t))

set_option maxHeartbeats 800000 in
/-- The body at any point: the memory bank's buffer holds the block; the point is a first point of a sweep
    or not, and in the second case the row's buffer holds the running row; so the matching run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 16 := lt_of_lt_of_eq t.isLt (show cfg0.N = 16 from N_0)
  by_cases h0 : t.val % 8 = 0
  · rw [rowAt_first V c t h0]
    unfold rowFirst
    iintro ⟨HΦ, Ho, ⟨%d0, H0⟩, ⟨%d1, H1⟩⟩
    iapply ((runFirst c (grid0.coords t) _ _ _ _ ((isFirst_iff t).mpr h0) (blk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverFirst c _ _ _ _ _ _ _)
  · rw [rowAt_later V c t h0]
    simp only [before0_1_later V c t h0]
    unfold rowLater
    iintro ⟨HΦ, Ho, ⟨%d0, H0⟩, ⟨%d1, H1⟩⟩
    iapply ((runLater c (grid0.coords t) _ _ _ _ (fun h => h0 ((isFirst_iff t).mp h)) (blk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverLater c _ _ _ _ _ _ _ _)

/-- The obligation the launch asks of the body, at every point. -/
theorem body_obligation0 (c : Dev nD) : BodyObligation (dat0 (F := F) V c) (defs₀ (F := F)) Variants.none () Set.univ := fun t => by
  rw [bigSep_W0, bigSep_W0]
  exact sound_body0 V c t

end Entered

/-! ## The two cases as values -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- At a later point the row becomes the body's sum payload of the block and of the row before: the one
    store covers the row, and both loads read whole buffers. -/
theorem rowLater_eq (c : Dev nD) (i : grid0.Coords) (a : Memref sig .tc .vmem S1024x1024 .f32) (ha : a.IsWhole)
    (r : Memref sig .tc .vmem S1x1x1024 .f32) (hr : r.IsWhole) (hc : ¬isFirst i) (x : Vec F S1024x1024 .f32)
    (acc : Vec F S1x1x1024 .f32) : rowLater c i a ha r hr hc x acc = k0_pay2 x acc := by
  unfold rowLater
  rw [View.read_writes_eq_canon _ _ _ (coverLater c i a ha r hr hc x acc)]
  unfold runLater
  dsimp only
  rw [View.canon_unit_zero zeros3]
  simp only [View.readAt_eq_ld, ha.read_unread, hr.read_unread, View.ld_unit_zero (S := S1024x1024) zeros2,
    View.ld_unit_zero (S := S1x1x1024) zeros3]

/-- At a first point the row becomes the same payload of the block and of the zero row just stored. -/
theorem rowFirst_eq (c : Dev nD) (i : grid0.Coords) (a : Memref sig .tc .vmem S1024x1024 .f32) (ha : a.IsWhole)
    (r : Memref sig .tc .vmem S1x1x1024 .f32) (hr : r.IsWhole) (hc : isFirst i) (x : Vec F S1024x1024 .f32) :
    rowFirst c i a ha r hr hc x = k0_pay2 x (k0_pay1 (F := F)) := by
  unfold rowFirst
  rw [View.read_writes_eq_canon _ _ _ (coverFirst c i a ha r hr hc x)]
  unfold runFirst
  dsimp only
  sl_unfold_words
  rw [View.canon_cons_unit_zero (S := S1x1x1024) zeros3, View.readCov_unit_zero (S := S1x1x1024) _ zeros3]
  simp only [View.readAt_eq_ld, ha.read_unread, View.ld_unit_zero (S := S1024x1024) zeros2]

section Result

variable (V : (c : Dev nD) → (b : Ref sig .tc) → Buf (Elt F) ((c : Thread nD τ).loc b))

/-! ## The running row as a fold over a sweep, from the memory bank alone -/

/-- Block `t` of a memory bank `M` (rows `[1024·t, 1024·t + 1024)`). -/
def bankBlock (c : Dev nD) (M : Buf (Elt F) ((c : Thread nD τ).loc main_arg1)) (t : Fin cfg0.N) : Vec F S1024x1024 .f32 :=
  ((cfg0.win 0).blk t).view.read (Elt F) M

theorem blk0_eq (c : Dev nD) (t : Fin cfg0.N) : blk0 V c 0 t = bankBlock c (V c main_arg1) t := rfl

/-- The row after the first point `n` of a sweep: the zero row plus the block's contribution, -/
def firstRow (c : Dev nD) (M : Buf (Elt F) ((c : Thread nD τ).loc main_arg1)) (n : ℕ) (h : n < cfg0.N) : Vec F S1x1x1024 .f32 :=
  k0_pay2 (bankBlock c M ⟨n, h⟩) (k0_pay1 (F := F))

/-- and after a later point `n`: the row before plus the block's contribution. -/
def nextRow (c : Dev nD) (M : Buf (Elt F) ((c : Thread nD τ).loc main_arg1)) (n : ℕ) (h : n < cfg0.N)
    (acc : Vec F S1x1x1024 .f32) : Vec F S1x1x1024 .f32 :=
  k0_pay2 (bankBlock c M ⟨n, h⟩) acc

/-- The running row at point `8·q + j` (`j < 8`) is the fold over the points `8·q, …, 8·q + j`: by induction on
    `j` from the two case values, never by listing the points. -/
theorem rowAt_eq_fold (c : Dev nD) (q j : ℕ) (hj : j < 8) (h : 8 * q + j < cfg0.N) :
    rowAt V c (8 * q + j) h
      = Pipeline.accAt (firstRow c (V c main_arg1)) (nextRow c (V c main_arg1)) (8 * q) j h :=
  Pipeline.eq_accAt (rowAt V c) 8 (firstRow c (V c main_arg1)) (nextRow c (V c main_arg1))
    (fun n hn h0 => (rowAt_first V c ⟨n, hn⟩ h0).trans (rowFirst_eq ..))
    (fun n hn hne => by
      rw [rowAt_later V c ⟨n + 1, hn⟩ hne, rowLater_eq]
      rfl)
    q j hj h

/-! ## What the result array holds when the grid is done -/

/-- THE RESULT of the grid as one function of the memory bank: row `c'` is the fold over the whole sweep
    `8·c', …, 8·c' + 7`. -/
def result0 (c : Dev nD) (M : Buf (Elt F) ((c : Thread nD τ).loc main_arg1)) : Vec F S2x1x1024 .f32 :=
  fun i => Pipeline.accAt (firstRow c M) (nextRow c M) (8 * (i 0).val) 7
    (by have h2 : (i 0).val < 2 := (i 0).isLt
        have hN : cfg0.N = 16 := N_0
        omega)
    (ValueIdx.ix3 (0 : Fin 1) (0 : Fin 1) (i 2))

/-- Reading the result at row `q`, column `d`. -/
theorem result0_apply (c : Dev nD) (M : Buf (Elt F) ((c : Thread nD τ).loc main_arg1)) (q : ℕ) (hq : 8 * q + 7 < cfg0.N)
    (i : S2x1x1024.Idx) (hi : (i 0).val = q) (d : Fin 1024) (hd : (i 2).val = d.val) :
    result0 c M i = Pipeline.accAt (firstRow c M) (nextRow c M) (8 * q) 7 hq (ValueIdx.ix3 (0 : Fin 1) (0 : Fin 1) d) := by
  subst hi
  have e : (i 2 : Fin 1024) = d := Fin.ext hd
  subst e
  rfl

/-- The row is written back at the last point of each sweep only. -/
theorem flush_points (t : Fin cfg0.N) (hf : (cfg0.win 1).flush t = true) : t = t0_7 ∨ t = t0_15 := by
  have hN : cfg0.N = 16 := N_0
  have h7 : t.val % 8 = 7 := (flush0_1 t).mp hf
  have hlt := t.isLt
  rcases (by omega : t.val = 7 ∨ t.val = 15) with h | h
  · exact .inl (Fin.ext h)
  · exact .inr (Fin.ext h)

/-- A row's index has zero first and second coordinates. -/
theorem rowIdx_eq (y : S1x1x1024.Idx) : y = ValueIdx.ix3 (0 : Fin 1) (0 : Fin 1) (y 2) := by
  funext a
  apply Fin.ext
  have h0 : (y 0).val < 1 := (y 0).isLt
  have h1 : (y 1).val < 1 := (y 1).isLt
  match a with
  | ⟨0, _⟩ => show (y 0).val = 0; omega
  | ⟨1, _⟩ => show (y 1).val = 0; omega
  | ⟨2, _⟩ => rfl

/-- What the last point of sweep `c'` writes back is row `c'` of `result0`: the running row there is the fold
    over the whole sweep, and the block written is row `c'`, columns as they are. -/
theorem flushed_eq (c : Dev nD) (t : Fin cfg0.N) (hf : (cfg0.win 1).flush t = true) :
    (dat0 V c).flushed 1 t = ((cfg0.win 1).blk t).view.read (Elt F) (result0 c (V c main_arg1)) := by
  have hN : cfg0.N = 16 := N_0
  rcases flush_points t hf with rfl | rfl
  · show (cfg0.win 1).cut (grid0.coords t0_7) ((dat0 V c).after 1 t0_7) = _
    rw [after0_1]
    funext y
    rw [View.read_apply]
    show rowAt V c 7 _ y = result0 c (V c main_arg1) _
    have h1 : (y 0).val < 1 := (y 0).isLt
    rw [result0_apply c _ 0 (by omega) _
      (show win0_1.index t0_7 0 * 1 + 1 * (y 0).val = 0 by
        rw [show win0_1.index t0_7 0 = 0 from by decide +kernel]; omega)
      (y 2)
      (show win0_1.index t0_7 2 * 1024 + 1 * (y 2).val = (y 2).val by
        rw [show win0_1.index t0_7 2 = 0 from by decide +kernel]; omega)]
    exact (congrFun (rowAt_eq_fold V c 0 7 (by omega) (by omega)) y).trans (congrArg _ (rowIdx_eq y))
  · show (cfg0.win 1).cut (grid0.coords t0_15) ((dat0 V c).after 1 t0_15) = _
    rw [after0_1]
    funext y
    rw [View.read_apply]
    show rowAt V c 15 _ y = result0 c (V c main_arg1) _
    have h1 : (y 0).val < 1 := (y 0).isLt
    rw [result0_apply c _ 1 (by omega) _
      (show win0_1.index t0_15 0 * 1 + 1 * (y 0).val = 1 by
        rw [show win0_1.index t0_15 0 = 1 from by decide +kernel]; omega)
      (y 2)
      (show win0_1.index t0_15 2 * 1024 + 1 * (y 2).val = (y 2).val by
        rw [show win0_1.index t0_15 2 = 0 from by decide +kernel]; omega)]
    exact (congrFun (rowAt_eq_fold V c 1 7 (by omega) (by omega)) y).trans (congrArg _ (rowIdx_eq y))

/-- Every index of the result array lies in the block one of the two write-backs writes: row 0 in point
    7's, row 1 in point 15's. -/
theorem cover0 (c : Dev nD) (i : ((cfg0.win 1).arr.view.loc (c.tc : Thread nD τ)).2.ty.Idx) :
    ∃ t : Fin cfg0.N, (cfg0.win 1).flush t = true ∧ i ∈ ((cfg0.win 1).blk t).view.set := by
  have h0 : (i 0 : Nat) < 2 := (i 0).isLt
  have h1 : (i 1 : Nat) < 1 := (i 1).isLt
  have h2 : (i 2 : Nat) < 1024 := (i 2).isLt
  by_cases hz : (i 0 : Nat) = 0
  · refine ⟨t0_7, (flush0_1 t0_7).mpr rfl, ?_⟩
    show i ∈ ((View.whole main_v0).slice (win0_1.rect t0_7)).set
    rw [View.set_slice_whole, Rect.mem_set_unit]
    intro a
    match a with
    | ⟨0, _⟩ =>
      show win0_1.index t0_7 0 * win0_1.size 0 ≤ (i 0 : Nat) ∧ (i 0 : Nat) < win0_1.index t0_7 0 * win0_1.size 0 + win0_1.xsize (grid0.coords t0_7) 0
      rw [show win0_1.index t0_7 0 * win0_1.size 0 = 0 from by decide +kernel, show win0_1.xsize (grid0.coords t0_7) 0 = 1 from by decide +kernel]; omega
    | ⟨1, _⟩ =>
      show win0_1.index t0_7 1 * win0_1.size 1 ≤ (i 1 : Nat) ∧ (i 1 : Nat) < win0_1.index t0_7 1 * win0_1.size 1 + win0_1.xsize (grid0.coords t0_7) 1
      rw [show win0_1.index t0_7 1 * win0_1.size 1 = 0 from by decide +kernel, show win0_1.xsize (grid0.coords t0_7) 1 = 1 from by decide +kernel]; omega
    | ⟨2, _⟩ =>
      show win0_1.index t0_7 2 * win0_1.size 2 ≤ (i 2 : Nat) ∧ (i 2 : Nat) < win0_1.index t0_7 2 * win0_1.size 2 + win0_1.xsize (grid0.coords t0_7) 2
      rw [show win0_1.index t0_7 2 * win0_1.size 2 = 0 from by decide +kernel, show win0_1.xsize (grid0.coords t0_7) 2 = 1024 from by decide +kernel]; omega
  · refine ⟨t0_15, (flush0_1 t0_15).mpr rfl, ?_⟩
    show i ∈ ((View.whole main_v0).slice (win0_1.rect t0_15)).set
    rw [View.set_slice_whole, Rect.mem_set_unit]
    intro a
    match a with
    | ⟨0, _⟩ =>
      show win0_1.index t0_15 0 * win0_1.size 0 ≤ (i 0 : Nat) ∧ (i 0 : Nat) < win0_1.index t0_15 0 * win0_1.size 0 + win0_1.xsize (grid0.coords t0_15) 0
      rw [show win0_1.index t0_15 0 * win0_1.size 0 = 1 from by decide +kernel, show win0_1.xsize (grid0.coords t0_15) 0 = 1 from by decide +kernel]; omega
    | ⟨1, _⟩ =>
      show win0_1.index t0_15 1 * win0_1.size 1 ≤ (i 1 : Nat) ∧ (i 1 : Nat) < win0_1.index t0_15 1 * win0_1.size 1 + win0_1.xsize (grid0.coords t0_15) 1
      rw [show win0_1.index t0_15 1 * win0_1.size 1 = 0 from by decide +kernel, show win0_1.xsize (grid0.coords t0_15) 1 = 1 from by decide +kernel]; omega
    | ⟨2, _⟩ =>
      show win0_1.index t0_15 2 * win0_1.size 2 ≤ (i 2 : Nat) ∧ (i 2 : Nat) < win0_1.index t0_15 2 * win0_1.size 2 + win0_1.xsize (grid0.coords t0_15) 2
      rw [show win0_1.index t0_15 2 * win0_1.size 2 = 0 from by decide +kernel, show win0_1.xsize (grid0.coords t0_15) 2 = 1024 from by decide +kernel]; omega

/-- THE RESULT ARRAY when the grid is done: `result0` of the memory bank as found. -/
theorem arr0_1 (c : Dev nD) : (dat0 V c).arrAt 1 cfg0.N = result0 c (V c main_arg1) :=
  (dat0 V c).arrAt_eq_of_cover 1 (result0 c (V c main_arg1)) (flushed_eq V c) (cover0 c)

end Result

end Cert.Kernel.R0

end
-- ==== Proof.KR1Runs.lean ====
/-
  The second kernel region (the positive / negative similarity kernel), first part: what its body does on any four
  whole staging buffers. The grid is 2 × 4; the body zeroes its one-word-per-lane accumulator when the second grid
  coordinate is 0 and otherwise adds to what the point before left, so there are two control cases: the points
  0 and 4 (reset, then add) and the other six (add to the running contents). In each case the body runs to the end
  with the three input buffers unchanged and the accumulator buffer overwritten by the stores the run meets.
-/
import proofs.«155385_j62319975465315_2_alg».proof.Proof.Gen.Kernel.Launch
import proofs.«155385_j62319975465315_2_alg».proof.Proof.Gen.Kernel.Skeleton
import proofs.«155385_j62319975465315_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition from the grid coordinates: "the second coordinate is 0". -/
abbrev cond1_0 (i : grid1.Coords) : Prop := (Scalar.cmpi .ne (Scalar.extui (Scalar.cmpi .eq (BitVec.ofNat 32 (i 1).val) 0#32)) 0#32) = 1#1
/-- It holds exactly at the points 0 and 4 of the eight. -/
theorem hcond1_0 : ∀ t : Fin cfg1.N, cond1_0 (grid1.coords t) ↔ t.val % 4 = 0 :=
  (by decide +kernel : ∀ t : Fin grid1.N, cond1_0 (grid1.coords t) ↔ t.val % 4 = 0)

/-- One staging buffer of the accumulator window, through which its contents are stated. -/
abbrev VO1_3 : View sig .tc .vmem S1x1x128 .f32 := (Memref.whole cc1_stg3_0 : Memref sig .tc .vmem S1x1x128 .f32).view
/-- Each window's current staging buffer at point `t`, as the pipeline passes it to the body, and its wholeness. -/
abbrev ms1_0 (t : Fin cfg1.N) : Memref sig .tc .vmem S256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)

set_option maxHeartbeats 2000000 in
/-- The reset case (second coordinate 0): from the three inputs at `x0 x1 x2` and the accumulator at anything the body
    runs to the end, the inputs as they were and the accumulator with the run's stores written (the list is found by the run). -/
noncomputable def kernelRun1_A (c : Dev nD) (i : grid1.Coords)
    (arg2 : Memref sig .tc .vmem S256x1024 .f32) (harg2 : arg2.IsWhole) (arg3 : Memref sig .tc .vmem S256x1024 .f32) (harg3 : arg3.IsWhole)
    (arg4 : Memref sig .tc .vmem S1x1024 .f32) (harg4 : arg4.IsWhole) (arg5 : Memref sig .tc .vmem S1x1x128 .f32) (harg5 : arg5.IsWhole)
    (hc0 : cond1_0 i) (x0 : Vec F S256x1024 .f32) (x1 : Vec F S256x1024 .f32) (x2 : Vec F S1x1024 .f32) :
    { L3 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__posneg_kernel i arg2 harg2 arg3 harg3 arg4 harg4 arg5 harg5) K } := by
  refine ⟨?_, fun E K => ?run⟩
  case run =>
    simp only [cc1__posneg_kernel_eq_skeleton]; unfold cc1__posneg_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 2000000 in
/-- The accumulating case (second coordinate not 0): the same, the accumulator entering at its running contents `xo3`. -/
noncomputable def kernelRun1_B (c : Dev nD) (i : grid1.Coords)
    (arg2 : Memref sig .tc .vmem S256x1024 .f32) (harg2 : arg2.IsWhole) (arg3 : Memref sig .tc .vmem S256x1024 .f32) (harg3 : arg3.IsWhole)
    (arg4 : Memref sig .tc .vmem S1x1024 .f32) (harg4 : arg4.IsWhole) (arg5 : Memref sig .tc .vmem S1x1x128 .f32) (harg5 : arg5.IsWhole)
    (hc0 : ¬cond1_0 i) (x0 : Vec F S256x1024 .f32) (x1 : Vec F S256x1024 .f32) (x2 : Vec F S1x1024 .f32) (xo3 : Vec F S1x1x128 .f32) :
    { L3 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__posneg_kernel i arg2 harg2 arg3 harg3 arg4 harg4 arg5 harg5) K } := by
  refine ⟨?_, fun E K => ?run⟩
  case run =>
    simp only [cc1__posneg_kernel_eq_skeleton]; unfold cc1__posneg_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.R1

end
-- ==== Proof.KRegion1.lean ====
/-
  The second kernel region, second part: what its accumulator holds after every grid point, the proof data of its
  pipeline at any contents `V` of the TensorCore's buffers at the region's entry, and the body obligation at every point.
  The three input windows always hold their blocks of the arrays as entered (rows 256·t … of the first array through
  window 0, rows 256·(8+t) … of the same array through window 1, the whole 1 × 1024 row through window 2); the
  accumulator window holds, after point `t`, the reset case's result at the points 0 and 4 and otherwise the adding
  case's result over what the point before left.
-/
import proofs.«155385_j62319975465315_2_alg».proof.Proof.KR1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The reset case's stores tile the accumulator's block, so they cover it. -/
theorem cover1_A_3 (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1x128 .f32) (harg5 : arg5.IsWhole) (hc0 : cond1_0 i) (x0 : Vec F S256x1024 .f32) (x1 : Vec F S256x1024 .f32) (x2 : Vec F S1x1024 .f32) (y : S1x1x128.Idx) :
    ∃ pc ∈ (kernelRun1_A c i arg2 harg2 arg3 harg3 arg4 harg4 arg5 harg5 hc0 x0 x1 x2).1, y ∈ pc.1.set :=
  View.cover_of_tiledL (kernelRun1_A c i arg2 harg2 arg3 harg3 arg4 harg4 arg5 harg5 hc0 x0 x1 x2).1 S1x1x128.size (by sl_kernel_rfl) y

/-- What the reset case leaves in the accumulator's buffer: its stores read back. -/
def out1_A_3 (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1x128 .f32) (harg5 : arg5.IsWhole) (hc0 : cond1_0 i) (x0 : Vec F S256x1024 .f32) (x1 : Vec F S256x1024 .f32) (x2 : Vec F S1x1024 .f32) : Vec F S1x1x128 .f32 :=
  VO1_3.read (Elt F) (VO1_3.writes (Elt F) VO1_3.junk (kernelRun1_A c i arg2 harg2 arg3 harg3 arg4 harg4 arg5 harg5 hc0 x0 x1 x2).1)

/-- The adding case's store covers the accumulator's block. -/
theorem cover1_B_3 (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1x128 .f32) (harg5 : arg5.IsWhole) (hc0 : ¬cond1_0 i) (x0 : Vec F S256x1024 .f32) (x1 : Vec F S256x1024 .f32) (x2 : Vec F S1x1024 .f32) (xo3 : Vec F S1x1x128 .f32) (y : S1x1x128.Idx) :
    ∃ pc ∈ (kernelRun1_B c i arg2 harg2 arg3 harg3 arg4 harg4 arg5 harg5 hc0 x0 x1 x2 xo3).1, y ∈ pc.1.set :=
  View.cover_of_tiledL (kernelRun1_B c i arg2 harg2 arg3 harg3 arg4 harg4 arg5 harg5 hc0 x0 x1 x2 xo3).1 S1x1x128.size (by sl_kernel_rfl) y

/-- What the adding case leaves in the accumulator's buffer. -/
def out1_B_3 (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1x128 .f32) (harg5 : arg5.IsWhole) (hc0 : ¬cond1_0 i) (x0 : Vec F S256x1024 .f32) (x1 : Vec F S256x1024 .f32) (x2 : Vec F S1x1024 .f32) (xo3 : Vec F S1x1x128 .f32) : Vec F S1x1x128 .f32 :=
  VO1_3.read (Elt F) (VO1_3.writes (Elt F) VO1_3.junk (kernelRun1_B c i arg2 harg2 arg3 harg3 arg4 harg4 arg5 harg5 hc0 x0 x1 x2 xo3).1)

/-- The accumulation: what the accumulator's staging buffer holds after the body at position `n`. -/
def outsAt1 (c : Dev nD) : (n : ℕ) → n < cfg1.N → Vec F S1x1x128 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 4 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 4 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 4 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of this pipeline on core `c`: the arrays as the region finds them; after the body each input's
    buffer at its block and the accumulator's at `outsAt1`. The first array is read through two windows: each holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At an adding point the accumulator's buffer holds what the body left at the point before: the point is not the
    first and the buffer was not written back in between. -/
theorem before1_3_B (c : Dev nD) (t : Fin cfg1.N) (h0 : ¬t.val % 4 = 0) (d) :
    (dat1 V c).before 3 t d = (outsAt1 V c (t.val - 1) (Nat.lt_of_le_of_lt (Nat.sub_le _ _) t.isLt)) := by
  have hN : t.val < 8 := lt_of_lt_of_eq t.isLt (show cfg1.N = 8 from N_1)
  rw [Dat.before_out_kept _ 3 rfl t (by omega) (Bool.eq_false_iff.mpr fun h => by have := (flush1_3 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
/-- The body at any point: the inputs' buffers hold their blocks; the point's case is decided by its position; at an
    adding point the accumulator holds what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 8 := lt_of_lt_of_eq t.isLt (show cfg1.N = 8 from N_1)
  by_cases h0 : t.val % 4 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.KRun.lean ====
/-
  The run of the whole program: @main is four items — the first kernel region, five host operations (the two rows of
  the first region's result added), the second kernel region, seven host operations (the two lane-0 entries of the second
  region's result added, negated, divided by 4096). Between the items every unscoped buffer of a TensorCore is held at a
  named valuation: the launch memory; the same with the first region's result array at what its write-backs leave; the
  host operations applied; the same with the second region's result array at what its write-backs leave; the host
  operations applied. Each region is entered from and left at those states: its arrays are taken out of the held
  buffers and put back at their final contents. The second region reads ONE array through two windows: each window
  holds half of that array while the region runs, and the halves are joined again at its exit. The run ends with the
  result buffer at the last valuation and both argument arrays as launched.
-/
import proofs.«155385_j62319975465315_2_alg».proof.Proof.Gen.Kernel.Regions
import proofs.«155385_j62319975465315_2_alg».proof.Proof.KRegion0
import proofs.«155385_j62319975465315_2_alg».proof.Proof.KRegion1
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg Seg HostSeg)
open Idealize.SL.BI (bigSepL bigSep_eq_bigSepL_of_eq)

variable (m : (ℓ : Loc nD τ sig) → Buf (Elt F) ℓ) (ρ : Dev nD → PrngReg)

/-! ## The buffers' contents at each boundary -/

/-- At launch. -/
abbrev W0 (c : Dev nD) : Valuation τ sig (Elt F) := fun b => m (c, b)
/-- The same read at the TensorCore's references: what the first region's proof data take. -/
abbrev E0 : (c : Dev nD) → (b : Ref sig .tc) → Buf (Elt F) ((c : Thread nD τ).loc b) := fun c b => W0 m c b
/-- What the first region leaves in its result array: its write-backs folded. -/
def res0 (c : Dev nD) : Buf (Elt F) ((c : Thread nD τ).loc main_v0) := (R0.dat0 (E0 m) c).arrAt 1 cfg0.N
/-- After the first region. -/
def W1 (c : Dev nD) : Valuation τ sig (Elt F) := Function.update (W0 m c) main_v0 (res0 m c)
abbrev E1 : (c : Dev nD) → (b : Ref sig .tc) → Buf (Elt F) ((c : Thread nD τ).loc b) := fun c b => W1 m c b
/-- After the host operations between the regions. -/
abbrev W2 (c : Dev nD) : Valuation τ sig (Elt F) := StableHlo.after hostOps1 (W1 m c)
abbrev E2 : (c : Dev nD) → (b : Ref sig .tc) → Buf (Elt F) ((c : Thread nD τ).loc b) := fun c b => W2 m c b
/-- What the second region leaves in its result array. -/
def res1 (c : Dev nD) : Buf (Elt F) ((c : Thread nD τ).loc main_v6) := (R1.dat1 (E2 m) c).arrAt 3 cfg1.N
/-- After the second region. -/
def W3 (c : Dev nD) : Valuation τ sig (Elt F) := Function.update (W2 m c) main_v6 (res1 m c)
abbrev E3 : (c : Dev nD) → (b : Ref sig .tc) → Buf (Elt F) ((c : Thread nD τ).loc b) := fun c b => W3 m c b
/-- At the end. -/
abbrev W4 (c : Dev nD) : Valuation τ sig (Elt F) := StableHlo.after hostOps2 (W3 m c)

theorem W1_v0 (c : Dev nD) : W1 m c main_v0 = res0 m c := by unfold W1; exact Function.update_self _ _ _
theorem W1_of (c : Dev nD) (r : Ref sig .tc) (h : r ≠ main_v0) : W1 m c r = W0 m c r := by
  unfold W1; exact Function.update_of_ne (StableHlo.devRef_ne_of_ne h) _ _
theorem W3_v6 (c : Dev nD) : W3 m c main_v6 = res1 m c := by unfold W3; exact Function.update_self _ _ _
theorem W3_of (c : Dev nD) (r : Ref sig .tc) (h : r ≠ main_v6) : W3 m c r = W2 m c r := by
  unfold W3; exact Function.update_of_ne (StableHlo.devRef_ne_of_ne h) _ _
theorem W2_of (c : Dev nD) (r : Ref sig .tc) (h : r ∉ hostOps1_W) : W2 m c r = W1 m c r :=
  StableHlo.after_of_writes_sub hostOps1 _ hostOps1_writes h
theorem W4_of (c : Dev nD) (r : Ref sig .tc) (h : r ∉ hostOps2_W) : W4 m c r = W3 m c r :=
  StableHlo.after_of_writes_sub hostOps2 _ hostOps2_writes h

/-- No item writes an argument array. -/
theorem W4_arg0 (c : Dev nD) : W4 m c main_arg0 = m ((c : Thread nD τ).loc main_arg0) :=
  (W4_of m c main_arg0 (by decide)).trans <| (W3_of m c main_arg0 (by decide)).trans <| (W2_of m c main_arg0 (by decide)).trans <| (W1_of m c main_arg0 (by decide)).trans rfl
theorem W4_arg1 (c : Dev nD) : W4 m c main_arg1 = m ((c : Thread nD τ).loc main_arg1) :=
  (W4_of m c main_arg1 (by decide)).trans <| (W3_of m c main_arg1 (by decide)).trans <| (W2_of m c main_arg1 (by decide)).trans <| (W1_of m c main_arg1 (by decide)).trans rfl

/-! ## The proof data of both pipelines, and what rides beside the buffers -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => R0.dat0 (E0 m) c
  | ⟨1, _⟩ => fun c => R1.dat1 (E2 m) c

/-- No core owes another anything: no level is assigned. -/
abbrev Lz : GSem nD τ sig → Finset Unit := fun _ => ∅
abbrev lvz : GSem nD τ sig → Unit → ℕ := fun _ _ => 0
/-- Beside the buffers: the generator register at some state, and the core owing nothing. -/
abbrev Rr (c : Dev nD) : sProp 𝕄 := iprop((∃ r, prngReg c r) ∗ ∃ W, owes (c : Thread nD τ) (0 : CellTallies nD τ sig Unit) W)
/-- The thread state at a boundary: every unscoped buffer at the boundary's contents, and `Rr`. -/
abbrev St (W : Dev nD → Valuation τ sig (Elt F)) (c : Dev nD) : sProp 𝕄 :=
  iprop(StableHlo.held (c : Thread nD τ) (Pipeline.ucRefs τ sig) (W c) ∗ Rr c)

/-! ## The first region as a segment -/

theorem hF0 (c : Dev nD) (w : Fin cfg0.W) : (pdats m 0 c).arrAt w cfg0.N = E1 m c (Pipeline.arrRef spec0 w) := by
  match w with
  | ⟨0, _⟩ => exact ((R0.dat0 (E0 m) c).arrAt_in 0 rfl _).trans ((R0.A_eq0 (E0 m) c 0).trans (W1_of m c main_arg1 (by decide)).symm)
  | ⟨1, _⟩ => exact (W1_v0 m c).symm
theorem hrest0 (c : Dev nD) : ∀ b, b ∉ Finset.univ.image (Pipeline.arrRef spec0) → E1 m c b = E0 m c b :=
  fun b hb => W1_of m c b fun e => hb (Finset.mem_image.mpr ⟨1, Finset.mem_univ _, e.symm⟩)

set_option backward.isDefEq.respectTransparency.types false in
def reg0 : RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (R0.body_obligation0 (E0 m) c).loose
  hwaits := Pipeline.hwaits_of_owed_zero _ _ _ _ Lz lvz 0 fun _ _ => rfl
  pre := St (W0 m)
  post := St (W1 m)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hs := Pipeline.arrays_of_unscopedBufs (p := 0) (pcfgs (F := F)) adm (pdats m) launch0.win launch0.arr_whole c
      ((pdats m 0 c).share_full fun _ => rfl) (E0 m c) fun _ => rfl
    rw [Pipeline.unscopedBufs_held] at hs
    iintro ⟨⟨Hb, Hg, Hw⟩, -, -⟩
    ihave Hs := hs $$ Hb
    icases Hs with ⟨Ha, Hz⟩
    imodintro
    isplitl [Ha]; · iexact Ha
    isplitr; · unfold Pipeline.prefHeld; rw [show (Finset.univ : Finset (Fin 0)) = ∅ from rfl, BI.bigSep_empty]; iempintro
    isplitl [Hw]
    · unfold Pipeline.Dat.owesAt Pipeline.owesWithin
      icases Hw with ⟨%W, Hw⟩; iexists W; isplitr; · ipureintro; exact fun _ _ => Or.inl trivial
      iexact Hw
    isplitl [Hg]; · iexact Hg
    iexact Hz
  hin c := by
    rw [show (pdats m 0 c).Φ 0 = Pipeline.ΦA spec0 c from rfl]; unfold Pipeline.ΦA
    iintro ⟨Hg, -, Hs⟩
    isplitl [Hs]; · iexact Hs
    iexact Hg
  hout c := by
    rw [Pipeline.ownSems0_none, show (pdats m 0 c).Φ (Fin.last _) = Pipeline.ΦA spec0 c from rfl]; unfold Pipeline.ΦA
    iintro ⟨Hs, Hg⟩
    isplitl [Hg]; · iexact Hg
    isplitr; · iempintro
    iexact Hs
  hexit c := by
    have hj := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hj
    iintro ⟨Ha, Hw, Hg, Hz⟩
    imodintro
    isplitl [Ha Hz]
    · iapply hj; isplitl [Ha] <;> iassumption
    isplitl [Hg]; · iexact Hg
    unfold Pipeline.Dat.owesAt Pipeline.owesWithin
    icases Hw with ⟨%W, -, Hw⟩; iexists W; iexact Hw

/-! ## The second region as a segment: one array behind two windows -/

/-- At entry the three buffers behind the second region's four windows make its arrays: the first argument array,
    read through windows 0 and 1, is split in two halves, one per window. -/
theorem split1 (c : Dev nD) :
    (Pipeline.arrBufs (Ix := Unit) (Name := ℕ) (U := UR sig nD τ) (Lvl := ℕ) spec1 c (E2 m c) : sProp 𝕄)
      ⊢ (pdats m 1 c).arrays ((pdats m 1 c).arrAt · 0) := by
  unfold Pipeline.arrBufs Pipeline.Dat.arrays
  rw [bigSep_eq_bigSepL_of_eq [main_arg0, main_v5, main_v6] (by decide) (by decide), bigSep_W1]
  show (iprop((((c : Thread nD τ).loc main_arg0) ↦{fullShare} E2 m c main_arg0) ∗ (((c : Thread nD τ).loc main_v5) ↦{fullShare} E2 m c main_v5) ∗ (((c : Thread nD τ).loc main_v6) ↦{fullShare} E2 m c main_v6)) : sProp 𝕄)
    ⊢ iprop((((c : Thread nD τ).loc main_arg0) ↦[(spec1 0).arr.view.set]{fullShare.left} E2 m c main_arg0) ∗ (((c : Thread nD τ).loc main_arg0) ↦[(spec1 1).arr.view.set]{fullShare.right} E2 m c main_arg0)
        ∗ (((c : Thread nD τ).loc main_v5) ↦[(spec1 2).arr.view.set]{fullShare} E2 m c main_v5) ∗ (((c : Thread nD τ).loc main_v6) ↦[(spec1 3).arr.view.set]{fullShare} E2 m c main_v6))
  rw [(arr_whole1 0).set_eq_univ, (arr_whole1 2).set_eq_univ, (arr_whole1 3).set_eq_univ]
  iintro ⟨Ha, H5, H6⟩
  have hhalf : (((c : Thread nD τ).loc main_arg0) ↦{fullShare} E2 m c main_arg0 : sProp 𝕄)
      ⊢ iprop((((c : Thread nD τ).loc main_arg0) ↦{fullShare.left} E2 m c main_arg0) ∗ (((c : Thread nD τ).loc main_arg0) ↦{fullShare.right} E2 m c main_arg0)) :=
    (pointsTo_share (PosShare.mem_left_op_right fullShare)).1
  ihave Hs := hhalf $$ Ha
  icases Hs with ⟨Hl, Hr⟩
  isplitl [Hl]; · iexact Hl
  isplitl [Hr]; · iexact Hr
  isplitl [H5]; · iexact H5
  iexact H6

/-- At exit the halves are joined again, and the result array sits at what the write-backs left. -/
theorem join1 (c : Dev nD) :
    (pdats m 1 c).arrays ((pdats m 1 c).arrAt · cfg1.N)
      ⊢ (Pipeline.arrBufs (Ix := Unit) (Name := ℕ) (U := UR sig nD τ) (Lvl := ℕ) spec1 c (E3 m c) : sProp 𝕄) := by
  have e0 : (pdats m 1 c).arrAt 0 cfg1.N = E3 m c main_arg0 :=
    ((R1.dat1 (E2 m) c).arrAt_in 0 rfl _).trans ((R1.A_eq1 (E2 m) c 0).trans (W3_of m c main_arg0 (by decide)).symm)
  have e1 : (pdats m 1 c).arrAt 1 cfg1.N = E3 m c main_arg0 :=
    ((R1.dat1 (E2 m) c).arrAt_in 1 rfl _).trans ((R1.A_eq1 (E2 m) c 1).trans (W3_of m c main_arg0 (by decide)).symm)
  have e2 : (pdats m 1 c).arrAt 2 cfg1.N = E3 m c main_v5 :=
    ((R1.dat1 (E2 m) c).arrAt_in 2 rfl _).trans ((R1.A_eq1 (E2 m) c 2).trans (W3_of m c main_v5 (by decide)).symm)
  have e3 : (pdats m 1 c).arrAt 3 cfg1.N = E3 m c main_v6 := (W3_v6 m c).symm
  unfold Pipeline.arrBufs Pipeline.Dat.arrays
  rw [bigSep_eq_bigSepL_of_eq [main_arg0, main_v5, main_v6] (by decide) (by decide), bigSep_W1]
  show (iprop((((c : Thread nD τ).loc main_arg0) ↦[(spec1 0).arr.view.set]{fullShare.left} (pdats m 1 c).arrAt 0 cfg1.N) ∗ (((c : Thread nD τ).loc main_arg0) ↦[(spec1 1).arr.view.set]{fullShare.right} (pdats m 1 c).arrAt 1 cfg1.N)
        ∗ (((c : Thread nD τ).loc main_v5) ↦[(spec1 2).arr.view.set]{fullShare} (pdats m 1 c).arrAt 2 cfg1.N) ∗ (((c : Thread nD τ).loc main_v6) ↦[(spec1 3).arr.view.set]{fullShare} (pdats m 1 c).arrAt 3 cfg1.N)) : sProp 𝕄)
    ⊢ iprop((((c : Thread nD τ).loc main_arg0) ↦{fullShare} E3 m c main_arg0) ∗ (((c : Thread nD τ).loc main_v5) ↦{fullShare} E3 m c main_v5) ∗ (((c : Thread nD τ).loc main_v6) ↦{fullShare} E3 m c main_v6))
  rw [(arr_whole1 0).set_eq_univ, (arr_whole1 2).set_eq_univ, (arr_whole1 3).set_eq_univ]
  rw [e0, e1, e2, e3]
  iintro ⟨Hl, Hr, H5, H6⟩
  isplitl [Hl Hr]
  · iapply (pointsTo_share (PosShare.mem_left_op_right fullShare)).2
    isplitl [Hl]; · iexact Hl
    iexact Hr
  isplitl [H5]; · iexact H5
  iexact H6

theorem hrest1 (c : Dev nD) (b : Ref sig .tc) (hb : b ∉ Finset.univ.image (Pipeline.arrRef spec1)) : E3 m c b = E2 m c b :=
  W3_of m c b fun e => hb (Finset.mem_image.mpr ⟨3, Finset.mem_univ _, e.symm⟩)

set_option backward.isDefEq.respectTransparency.types false in
def reg1 : RegionSeg (pcfgs (F := F)) adm (pdats m) () defs₀ Variants.none Lz lvz 1 where
  win := winFacts₀1
  block_pos := block_pos1
  stage_whole := stage_whole1
  K := PEmpty
  osem k := k.elim
  ho := Pipeline.OwnSemFacts.none _
  hbody c := (R1.body_obligation1 (E2 m) c).loose
  hwaits := Pipeline.hwaits_of_owed_zero _ _ _ _ Lz lvz 1 fun _ _ => rfl
  pre := St (W2 m)
  post := St (W3 m)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hs : StableHlo.held (c : Thread nD τ) (Pipeline.ucRefs τ sig) (W2 m c)
        ⊢ iprop((Pipeline.arrBufs (Ix := Unit) (Name := ℕ) (U := UR sig nD τ) (Lvl := ℕ) spec1 c (E2 m c) : sProp 𝕄)
            ∗ Pipeline.unscopedRest spec1 c (E2 m c)) := by
      rw [← Pipeline.unscopedBufs_held]
      exact Entails.of_eq (Pipeline.unscopedBufs_split₀ (cfgs) 1 winFacts₀1.arr_unscoped c (E2 m c))
    iintro ⟨⟨Hh, Hg, Hw⟩, -, -⟩
    ihave Hs := hs $$ Hh
    icases Hs with ⟨Hb, Hz⟩
    ihave Ha := split1 m c $$ Hb
    imodintro
    isplitl [Ha]; · iexact Ha
    isplitr; · unfold Pipeline.prefHeld; rw [show (Finset.univ : Finset (Fin 0)) = ∅ from rfl, BI.bigSep_empty]; iempintro
    isplitl [Hw]
    · unfold Pipeline.Dat.owesAt Pipeline.owesWithin
      icases Hw with ⟨%W, Hw⟩; iexists W; isplitr; · ipureintro; exact fun _ _ => Or.inl trivial
      iexact Hw
    isplitl [Hg]; · iexact Hg
    iexact Hz
  hin c := by
    rw [show (pdats m 1 c).Φ 0 = Pipeline.ΦA spec1 c from rfl]; unfold Pipeline.ΦA
    iintro ⟨Hg, -, Hs⟩
    isplitl [Hs]; · iexact Hs
    iexact Hg
  hout c := by
    rw [Pipeline.ownSems0_none, show (pdats m 1 c).Φ (Fin.last _) = Pipeline.ΦA spec1 c from rfl]; unfold Pipeline.ΦA
    iintro ⟨Hs, Hg⟩
    isplitl [Hg]; · iexact Hg
    isplitr; · iempintro
    iexact Hs
  hexit c := by
    have hs : iprop((Pipeline.arrBufs (Ix := Unit) (Name := ℕ) (U := UR sig nD τ) (Lvl := ℕ) spec1 c (E3 m c) : sProp 𝕄)
            ∗ Pipeline.unscopedRest spec1 c (E3 m c))
        ⊢ StableHlo.held (c : Thread nD τ) (Pipeline.ucRefs τ sig) (W3 m c) := by
      rw [← Pipeline.unscopedBufs_held]
      exact Entails.of_eq (Pipeline.unscopedBufs_split₀ (cfgs) 1 winFacts₀1.arr_unscoped c (E3 m c)).symm
    have hz : (Pipeline.unscopedRest (Ix := Unit) (Name := ℕ) (U := UR sig nD τ) (Lvl := ℕ) spec1 c (E2 m c) : sProp 𝕄)
        ⊢ Pipeline.unscopedRest spec1 c (E3 m c) := by
      unfold Pipeline.unscopedRest
      exact Entails.of_eq (BI.bigSep_congr fun b hb => by rw [hrest1 m c b (Finset.mem_sdiff.mp hb).2])
    iintro ⟨Ha, Hw, Hg, Hz⟩
    ihave Hb := join1 m c $$ Ha
    ihave Hz' := hz $$ Hz
    imodintro
    isplitl [Hb Hz']
    · iapply hs
      isplitl [Hb]; · iexact Hb
      iexact Hz'
    isplitl [Hg]; · iexact Hg
    unfold Pipeline.Dat.owesAt Pipeline.owesWithin
    icases Hw with ⟨%W, -, Hw⟩; iexists W; iexact Hw

/-! ## @main as segments, and the launch -/

/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ Variants.none Lz lvz :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

abbrev segs : List (Seg (pcfgs (F := F)) adm (pdats m) () defs₀ Variants.none Lz lvz) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, at any float instance: every weakly fair execution of @main from memory `m` with zero counters terminates,
    nothing faulting, with the result buffer at the last valuation and both argument arrays as launched. -/
theorem run : θ_run defs (onTc (τ := τ) (main (F := F))) ⟨m, fun _ => 0, ρ⟩ (fun r => ∀ c : Dev nD,
      r.2.mem ((c.tc : Thread nD τ).loc main_v11) = W4 m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ Variants.none Lz lvz m ρ main (segs m)
    (fun c Q => by rw [main_run m c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show (iprop(StableHlo.held (c : Thread nD τ) (Pipeline.ucRefs τ sig) (W4 m c) ∗ Rr c) : sProp 𝕄) ⊢ _
      iintro ⟨Hh, Hg, Hw⟩
      isplitl [Hh Hg]
      · isplitl [Hh]; · iexact Hh
        iexact Hg
      iexact Hw⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Hw, -, Hg, -⟩, -⟩
      imodintro
      isplitl [Hh]; · iexact Hh
      isplitl [Hg]; · iexists _; iexact Hg
      iexists ∅; iexact Hw)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v11 (by decide)),
       (h c _ (mem_uc main_arg0 (by decide))).trans (W4_arg0 m c),
       (h c _ (mem_uc main_arg1 (by decide))).trans (W4_arg1 m c)⟩)

end Cert.Kernel.Run

end
-- ==== Proof.Region0.lean ====
import proofs.«155385_j62319975465315_2_alg».proof.Proof.Gen.KernelIdeal.Launch
import proofs.«155385_j62319975465315_2_alg».proof.Proof.Gen.KernelIdeal.Skeleton
import proofs.«155385_j62319975465315_2_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

/-!
# The first grid of the kernel: column sums of the row-normalised memory bank

The grid has 2 × 8 points; point `t = 8·c + i` reads rows `[1024·t, 1024·t + 1024)` of the memory bank and
works on row `c` of a `2 × 1 × 1024` result.  At the first point of a sweep (`i = 0`) the row is set to
zero; at every point the block's rows are divided by `max (‖row‖, eps)`, summed over the rows, and the sum
is added to the row.  The row is written back once, after the last point of its sweep (`i = 7`).

This file states what the row's buffer holds after each point (by recursion on the point: zero plus the
first block's contribution at `i = 0`, the previous contents plus the block's contribution otherwise),
proves that the body does exactly that at every point, and reads off what the result array holds when
the grid is done.  Everything is stated for the buffer contents `V` found when the grid is entered, and
for any float type `F`.
-/

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The reset condition -/

/-- The body's test "is this the first point of a sweep", as it computes it from the second grid coordinate. -/
abbrev isFirst (i : grid0.Coords) : Prop :=
  (Scalar.cmpi .ne (Scalar.extui (Scalar.cmpi .eq (BitVec.ofNat 32 (i 1).val) 0#32)) 0#32) = 1#1

/-- It holds exactly at the points `0` and `8`: the multiples of the sweep length. -/
theorem isFirst_iff : ∀ t : Fin cfg0.N, isFirst (grid0.coords t) ↔ t.val % 8 = 0 :=
  (by decide +kernel : ∀ t : Fin grid0.N, isFirst (grid0.coords t) ↔ t.val % 8 = 0)

/-! ## The buffers the body is handed at a point -/

/-- A fixed buffer of the row's shape, through which contents of the row are written down (which one is
    immaterial: only the function read back matters). -/
abbrev rowView : View sig .tc .vmem S1x1x1024 .f32 := (Memref.whole cc0_stg1_0 : Memref sig .tc .vmem S1x1x1024 .f32).view

/-- The block's buffer and the row's buffer at point `t`, and that each is a whole buffer. -/
abbrev inBuf (t : Fin cfg0.N) : Memref sig .tc .vmem S1024x1024 .f32 := win0_0.stage (cfg0.slots t 0)
abbrev inBuf_whole (t : Fin cfg0.N) : (inBuf t).IsWhole := hstage0_0 ((cfg0.slots t 0).cast nbuf0_0)
abbrev rowBuf (t : Fin cfg0.N) : Memref sig .tc .vmem S1x1x1024 .f32 := win0_1.stage (cfg0.slots t 1)
abbrev rowBuf_whole (t : Fin cfg0.N) : (rowBuf t).IsWhole := hstage0_1 ((cfg0.slots t 1).cast nbuf0_1)

/-! ## The body, run symbolically, in its two cases -/

set_option maxHeartbeats 1000000 in
/-- AT THE FIRST POINT OF A SWEEP.  On whole buffers, the block's at contents `x` and the row's at
    anything, the body ends with the block's buffer unchanged and the row's buffer written by the listed
    stores (latest first); the list is found by running the body. -/
noncomputable def runFirst (c : Dev nD) (i : grid0.Coords) (a : Memref sig .tc .vmem S1024x1024 .f32) (ha : a.IsWhole)
    (r : Memref sig .tc .vmem S1x1x1024 .f32) (hr : r.IsWhole) (hc : isFirst i) (x : Vec F S1024x1024 .f32) :
    { L : List (View.Piece (Elt F) S1x1x1024 .f32) //
      ∀ (E : Set ℕ) (K : PUnit → sProp 𝕄),
        iprop(owns (c : Thread nD τ) a fullShare x ∗ (∃ d, owns (c : Thread nD τ) r fullShare d)
            ∗ (iprop(owns (c : Thread nD τ) a fullShare x ∗ (∃ f, r.view.loc (c : Thread nD τ) ↦[r.view.set]{fullShare} r.view.writes (Elt F) f L)) -∗ K ⟨⟩))
          ⊢ wp frame (wpE (defs₀ (F := F)) Variants.none c none) E (cc0__msum_kernel i a ha r hr) K } := by
  refine ⟨?_, fun E K => ?run⟩
  case run =>
    simp only [cc0__msum_kernel_eq_skeleton]; unfold cc0__msum_kernel_skel
    unfold owns
    iintro ⟨⟨%f0, %hf0, H0⟩, ⟨%d1, %f1, -, H1⟩, Hk⟩
    obtain rfl := ha.eq_unread hf0
    sl_exec (disch := first | exact hc)
    sl_step
    iapply Hk
    isplitl [H0]
    · iexists _; isplitr; · ipureintro; exact ha.read_unread _
      iexact H0
    iexists _; iexact H1

set_option maxHeartbeats 1000000 in
/-- AT ANY OTHER POINT.  On whole buffers, the block's at contents `x` and the row's at contents `acc`,
    the body ends with the block's buffer unchanged and the row's buffer written by the listed stores. -/
noncomputable def runLater (c : Dev nD) (i : grid0.Coords) (a : Memref sig .tc .vmem S1024x1024 .f32) (ha : a.IsWhole)
    (r : Memref sig .tc .vmem S1x1x1024 .f32) (hr : r.IsWhole) (hc : ¬isFirst i) (x : Vec F S1024x1024 .f32)
    (acc : Vec F S1x1x1024 .f32) :
    { L : List (View.Piece (Elt F) S1x1x1024 .f32) //
      ∀ (E : Set ℕ) (K : PUnit → sProp 𝕄),
        iprop(owns (c : Thread nD τ) a fullShare x ∗ owns (c : Thread nD τ) r fullShare acc
            ∗ (iprop(owns (c : Thread nD τ) a fullShare x ∗ (∃ f, r.view.loc (c : Thread nD τ) ↦[r.view.set]{fullShare} r.view.writes (Elt F) f L)) -∗ K ⟨⟩))
          ⊢ wp frame (wpE (defs₀ (F := F)) Variants.none c none) E (cc0__msum_kernel i a ha r hr) K } := by
  refine ⟨?_, fun E K => ?run⟩
  case run =>
    simp only [cc0__msum_kernel_eq_skeleton]; unfold cc0__msum_kernel_skel
    unfold owns
    iintro ⟨⟨%f0, %hf0, H0⟩, ⟨%f1, %hf1, H1⟩, Hk⟩
    obtain rfl := ha.eq_unread hf0; obtain rfl := hr.eq_unread hf1
    sl_exec (disch := first | exact hc)
    sl_step
    iapply Hk
    isplitl [H0]
    · iexists _; isplitr; · ipureintro; exact ha.read_unread _
      iexact H0
    iexists _; iexact H1

/-! ## What each case leaves in the row's buffer -/

/-- At a first point the stores tile the row, so every index of the row is under one of them. -/
theorem coverFirst (c : Dev nD) (i : grid0.Coords) (a : Memref sig .tc .vmem S1024x1024 .f32) (ha : a.IsWhole)
    (r : Memref sig .tc .vmem S1x1x1024 .f32) (hr : r.IsWhole) (hc : isFirst i) (x : Vec F S1024x1024 .f32)
    (y : S1x1x1024.Idx) : ∃ pc ∈ (runFirst c i a ha r hr hc x).1, y ∈ pc.1.set :=
  View.cover_of_tiledL (runFirst c i a ha r hr hc x).1 S1x1x1024.size (by sl_kernel_rfl) y

/-- The row after a first point: the stores read back (over contents that do not matter, the row being covered). -/
def rowFirst (c : Dev nD) (i : grid0.Coords) (a : Memref sig .tc .vmem S1024x1024 .f32) (ha : a.IsWhole)
    (r : Memref sig .tc .vmem S1x1x1024 .f32) (hr : r.IsWhole) (hc : isFirst i) (x : Vec F S1024x1024 .f32) :
    Vec F S1x1x1024 .f32 :=
  rowView.read (Elt F) (rowView.writes (Elt F) rowView.junk (runFirst c i a ha r hr hc x).1)

/-- At a later point the one store covers the row. -/
theorem coverLater (c : Dev nD) (i : grid0.Coords) (a : Memref sig .tc .vmem S1024x1024 .f32) (ha : a.IsWhole)
    (r : Memref sig .tc .vmem S1x1x1024 .f32) (hr : r.IsWhole) (hc : ¬isFirst i) (x : Vec F S1024x1024 .f32)
    (acc : Vec F S1x1x1024 .f32) (y : S1x1x1024.Idx) : ∃ pc ∈ (runLater c i a ha r hr hc x acc).1, y ∈ pc.1.set :=
  View.cover_of_tiledL (runLater c i a ha r hr hc x acc).1 S1x1x1024.size (by sl_kernel_rfl) y

/-- The row after a later point, from the block `x` and the row's contents `acc` before it. -/
def rowLater (c : Dev nD) (i : grid0.Coords) (a : Memref sig .tc .vmem S1024x1024 .f32) (ha : a.IsWhole)
    (r : Memref sig .tc .vmem S1x1x1024 .f32) (hr : r.IsWhole) (hc : ¬isFirst i) (x : Vec F S1024x1024 .f32)
    (acc : Vec F S1x1x1024 .f32) : Vec F S1x1x1024 .f32 :=
  rowView.read (Elt F) (rowView.writes (Elt F) rowView.junk (runLater c i a ha r hr hc x acc).1)

section Entered
/-! ## At the contents `V` found when the grid is entered -/

variable (V : (c : Dev nD) → (b : Ref sig .tc) → Buf (Elt F) ((c : Thread nD τ).loc b))

/-- Window `w`'s block at point `t`, read off the window's array as found. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The memory bank's buffer holds the point's block whenever the body runs: the block is fetched at every
    point, and for any proof data over `V` whose body leaves the block alone. -/
theorem before_in_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- THE RUNNING ROW.  What the row's buffer holds after the body at point `n`: at a first point of a sweep
    what `rowFirst` says of the point's block; otherwise what `rowLater` says of the point's block and of the
    row after point `n - 1` (the buffer is not written back in between, nor changed). -/
def rowAt (c : Dev nD) : (n : ℕ) → n < cfg0.N → Vec F S1x1x1024 .f32
  | 0, hn => rowFirst c (grid0.coords ⟨0, hn⟩) (inBuf ⟨0, hn⟩) (inBuf_whole ⟨0, hn⟩) (rowBuf ⟨0, hn⟩) (rowBuf_whole ⟨0, hn⟩)
      ((isFirst_iff ⟨0, hn⟩).mpr (Nat.zero_mod _)) (blk0 V c 0 ⟨0, hn⟩)
  | n + 1, hn =>
    if h0 : (n + 1) % 8 = 0 then
      rowFirst c (grid0.coords ⟨n + 1, hn⟩) (inBuf ⟨n + 1, hn⟩) (inBuf_whole ⟨n + 1, hn⟩) (rowBuf ⟨n + 1, hn⟩) (rowBuf_whole ⟨n + 1, hn⟩)
        ((isFirst_iff ⟨n + 1, hn⟩).mpr h0) (blk0 V c 0 ⟨n + 1, hn⟩)
    else
      rowLater c (grid0.coords ⟨n + 1, hn⟩) (inBuf ⟨n + 1, hn⟩) (inBuf_whole ⟨n + 1, hn⟩) (rowBuf ⟨n + 1, hn⟩) (rowBuf_whole ⟨n + 1, hn⟩)
        (fun h => h0 ((isFirst_iff ⟨n + 1, hn⟩).mp h)) (blk0 V c 0 ⟨n + 1, hn⟩) (rowAt c n (Nat.lt_of_succ_lt hn))

/-- `rowAt` at a first point. -/
theorem rowAt_first (c : Dev nD) (t : Fin cfg0.N) (h0 : t.val % 8 = 0) :
    rowAt V c t.val t.isLt = rowFirst c (grid0.coords t) (inBuf t) (inBuf_whole t) (rowBuf t) (rowBuf_whole t)
      ((isFirst_iff t).mpr h0) (blk0 V c 0 t) := by
  obtain ⟨n, hn⟩ := t
  cases n with
  | zero => exact rfl
  | succ n => exact (dif_pos h0).trans rfl

/-- `rowAt` at a later point. -/
theorem rowAt_later (c : Dev nD) (t : Fin cfg0.N) (h0 : ¬t.val % 8 = 0) :
    rowAt V c t.val t.isLt = rowLater c (grid0.coords t) (inBuf t) (inBuf_whole t) (rowBuf t) (rowBuf_whole t)
      (fun h => h0 ((isFirst_iff t).mp h)) (blk0 V c 0 t)
      (rowAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data of the grid -/

/-- The arrays are as found; after the body at point `t` the memory bank's buffer holds the point's block
    and the row's buffer the running row; the invariant is the part of the core the body does not name;
    nothing is owed and every share is full. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => (rowAt V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = rowAt V c t.val t.isLt := by dsimp only [dat0]

/-- The memory bank's buffer holds the point's block when the body starts. -/
theorem before0_0 (c : Dev nD) (t : Fin cfg0.N) (d) : (dat0 V c).before 0 t d = blk0 V c 0 t :=
  before_in_of V (dat0 V c) (A_eq0 V c 0) (after0_0 V c) t d

/-- At a later point of a sweep the row's buffer still holds the running row of the point before: the row
    is written back only after the last point of a sweep, and the next point is then a first point. -/
theorem before0_1_later (c : Dev nD) (t : Fin cfg0.N) (h0 : ¬t.val % 8 = 0) (d) :
    (dat0 V c).before 1 t d = rowAt V c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body does what the proof data say, at every point -/

/-- What the body is handed at point `t`, -/
def bodyPre0 (c : Dev nD) (t : Fin cfg0.N) : sProp 𝕄 :=
  iprop((dat0 V c).Φ t.castSucc ∗ (dat0 V c).owesAt () t.castSucc
    ∗ (∃ d, owns (c : Thread nD τ) (inBuf t) fullShare ((dat0 V c).before 0 t d))
    ∗ (∃ d, owns (c : Thread nD τ) (rowBuf t) fullShare ((dat0 V c).before 1 t d)))

/-- and what it hands back. -/
def bodyPost0 (c : Dev nD) (t : Fin cfg0.N) : sProp 𝕄 :=
  iprop((dat0 V c).Φ t.succ ∗ (dat0 V c).owesAt () t.succ
    ∗ owns (c : Thread nD τ) (inBuf t) fullShare ((dat0 V c).after 0 t)
    ∗ owns (c : Thread nD τ) (rowBuf t) fullShare ((dat0 V c).after 1 t))

set_option maxHeartbeats 800000 in
/-- The body at any point: the memory bank's buffer holds the block; the point is a first point of a sweep
    or not, and in the second case the row's buffer holds the running row; so the matching run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 16 := lt_of_lt_of_eq t.isLt (show cfg0.N = 16 from N_0)
  by_cases h0 : t.val % 8 = 0
  · rw [rowAt_first V c t h0]
    unfold rowFirst
    iintro ⟨HΦ, Ho, ⟨%d0, H0⟩, ⟨%d1, H1⟩⟩
    iapply ((runFirst c (grid0.coords t) _ _ _ _ ((isFirst_iff t).mpr h0) (blk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverFirst c _ _ _ _ _ _ _)
  · rw [rowAt_later V c t h0]
    simp only [before0_1_later V c t h0]
    unfold rowLater
    iintro ⟨HΦ, Ho, ⟨%d0, H0⟩, ⟨%d1, H1⟩⟩
    iapply ((runLater c (grid0.coords t) _ _ _ _ (fun h => h0 ((isFirst_iff t).mp h)) (blk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverLater c _ _ _ _ _ _ _ _)

/-- The obligation the launch asks of the body, at every point. -/
theorem body_obligation0 (c : Dev nD) : BodyObligation (dat0 (F := F) V c) (defs₀ (F := F)) Variants.none () Set.univ := fun t => by
  rw [bigSep_W0, bigSep_W0]
  exact sound_body0 V c t

end Entered

/-! ## The two cases as values -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- At a later point the row becomes the body's sum payload of the block and of the row before: the one
    store covers the row, and both loads read whole buffers. -/
theorem rowLater_eq (c : Dev nD) (i : grid0.Coords) (a : Memref sig .tc .vmem S1024x1024 .f32) (ha : a.IsWhole)
    (r : Memref sig .tc .vmem S1x1x1024 .f32) (hr : r.IsWhole) (hc : ¬isFirst i) (x : Vec F S1024x1024 .f32)
    (acc : Vec F S1x1x1024 .f32) : rowLater c i a ha r hr hc x acc = k0_pay2 x acc := by
  unfold rowLater
  rw [View.read_writes_eq_canon _ _ _ (coverLater c i a ha r hr hc x acc)]
  unfold runLater
  dsimp only
  rw [View.canon_unit_zero zeros3]
  simp only [View.readAt_eq_ld, ha.read_unread, hr.read_unread, View.ld_unit_zero (S := S1024x1024) zeros2,
    View.ld_unit_zero (S := S1x1x1024) zeros3]

/-- At a first point the row becomes the same payload of the block and of the zero row just stored. -/
theorem rowFirst_eq (c : Dev nD) (i : grid0.Coords) (a : Memref sig .tc .vmem S1024x1024 .f32) (ha : a.IsWhole)
    (r : Memref sig .tc .vmem S1x1x1024 .f32) (hr : r.IsWhole) (hc : isFirst i) (x : Vec F S1024x1024 .f32) :
    rowFirst c i a ha r hr hc x = k0_pay2 x (k0_pay1 (F := F)) := by
  unfold rowFirst
  rw [View.read_writes_eq_canon _ _ _ (coverFirst c i a ha r hr hc x)]
  unfold runFirst
  dsimp only
  sl_unfold_words
  rw [View.canon_cons_unit_zero (S := S1x1x1024) zeros3, View.readCov_unit_zero (S := S1x1x1024) _ zeros3]
  simp only [View.readAt_eq_ld, ha.read_unread, View.ld_unit_zero (S := S1024x1024) zeros2]

section Result

variable (V : (c : Dev nD) → (b : Ref sig .tc) → Buf (Elt F) ((c : Thread nD τ).loc b))

/-! ## The running row as a fold over a sweep, from the memory bank alone -/

/-- Block `t` of a memory bank `M` (rows `[1024·t, 1024·t + 1024)`). -/
def bankBlock (c : Dev nD) (M : Buf (Elt F) ((c : Thread nD τ).loc main_arg1)) (t : Fin cfg0.N) : Vec F S1024x1024 .f32 :=
  ((cfg0.win 0).blk t).view.read (Elt F) M

theorem blk0_eq (c : Dev nD) (t : Fin cfg0.N) : blk0 V c 0 t = bankBlock c (V c main_arg1) t := rfl

/-- The row after the first point `n` of a sweep: the zero row plus the block's contribution, -/
def firstRow (c : Dev nD) (M : Buf (Elt F) ((c : Thread nD τ).loc main_arg1)) (n : ℕ) (h : n < cfg0.N) : Vec F S1x1x1024 .f32 :=
  k0_pay2 (bankBlock c M ⟨n, h⟩) (k0_pay1 (F := F))

/-- and after a later point `n`: the row before plus the block's contribution. -/
def nextRow (c : Dev nD) (M : Buf (Elt F) ((c : Thread nD τ).loc main_arg1)) (n : ℕ) (h : n < cfg0.N)
    (acc : Vec F S1x1x1024 .f32) : Vec F S1x1x1024 .f32 :=
  k0_pay2 (bankBlock c M ⟨n, h⟩) acc

/-- The running row at point `8·q + j` (`j < 8`) is the fold over the points `8·q, …, 8·q + j`: by induction on
    `j` from the two case values, never by listing the points. -/
theorem rowAt_eq_fold (c : Dev nD) (q j : ℕ) (hj : j < 8) (h : 8 * q + j < cfg0.N) :
    rowAt V c (8 * q + j) h
      = Pipeline.accAt (firstRow c (V c main_arg1)) (nextRow c (V c main_arg1)) (8 * q) j h :=
  Pipeline.eq_accAt (rowAt V c) 8 (firstRow c (V c main_arg1)) (nextRow c (V c main_arg1))
    (fun n hn h0 => (rowAt_first V c ⟨n, hn⟩ h0).trans (rowFirst_eq ..))
    (fun n hn hne => by
      rw [rowAt_later V c ⟨n + 1, hn⟩ hne, rowLater_eq]
      rfl)
    q j hj h

/-! ## What the result array holds when the grid is done -/

/-- THE RESULT of the grid as one function of the memory bank: row `c'` is the fold over the whole sweep
    `8·c', …, 8·c' + 7`. -/
def result0 (c : Dev nD) (M : Buf (Elt F) ((c : Thread nD τ).loc main_arg1)) : Vec F S2x1x1024 .f32 :=
  fun i => Pipeline.accAt (firstRow c M) (nextRow c M) (8 * (i 0).val) 7
    (by have h2 : (i 0).val < 2 := (i 0).isLt
        have hN : cfg0.N = 16 := N_0
        omega)
    (ValueIdx.ix3 (0 : Fin 1) (0 : Fin 1) (i 2))

/-- Reading the result at row `q`, column `d`. -/
theorem result0_apply (c : Dev nD) (M : Buf (Elt F) ((c : Thread nD τ).loc main_arg1)) (q : ℕ) (hq : 8 * q + 7 < cfg0.N)
    (i : S2x1x1024.Idx) (hi : (i 0).val = q) (d : Fin 1024) (hd : (i 2).val = d.val) :
    result0 c M i = Pipeline.accAt (firstRow c M) (nextRow c M) (8 * q) 7 hq (ValueIdx.ix3 (0 : Fin 1) (0 : Fin 1) d) := by
  subst hi
  have e : (i 2 : Fin 1024) = d := Fin.ext hd
  subst e
  rfl

/-- The row is written back at the last point of each sweep only. -/
theorem flush_points (t : Fin cfg0.N) (hf : (cfg0.win 1).flush t = true) : t = t0_7 ∨ t = t0_15 := by
  have hN : cfg0.N = 16 := N_0
  have h7 : t.val % 8 = 7 := (flush0_1 t).mp hf
  have hlt := t.isLt
  rcases (by omega : t.val = 7 ∨ t.val = 15) with h | h
  · exact .inl (Fin.ext h)
  · exact .inr (Fin.ext h)

/-- A row's index has zero first and second coordinates. -/
theorem rowIdx_eq (y : S1x1x1024.Idx) : y = ValueIdx.ix3 (0 : Fin 1) (0 : Fin 1) (y 2) := by
  funext a
  apply Fin.ext
  have h0 : (y 0).val < 1 := (y 0).isLt
  have h1 : (y 1).val < 1 := (y 1).isLt
  match a with
  | ⟨0, _⟩ => show (y 0).val = 0; omega
  | ⟨1, _⟩ => show (y 1).val = 0; omega
  | ⟨2, _⟩ => rfl

/-- What the last point of sweep `c'` writes back is row `c'` of `result0`: the running row there is the fold
    over the whole sweep, and the block written is row `c'`, columns as they are. -/
theorem flushed_eq (c : Dev nD) (t : Fin cfg0.N) (hf : (cfg0.win 1).flush t = true) :
    (dat0 V c).flushed 1 t = ((cfg0.win 1).blk t).view.read (Elt F) (result0 c (V c main_arg1)) := by
  have hN : cfg0.N = 16 := N_0
  rcases flush_points t hf with rfl | rfl
  · show (cfg0.win 1).cut (grid0.coords t0_7) ((dat0 V c).after 1 t0_7) = _
    rw [after0_1]
    funext y
    rw [View.read_apply]
    show rowAt V c 7 _ y = result0 c (V c main_arg1) _
    have h1 : (y 0).val < 1 := (y 0).isLt
    rw [result0_apply c _ 0 (by omega) _
      (show win0_1.index t0_7 0 * 1 + 1 * (y 0).val = 0 by
        rw [show win0_1.index t0_7 0 = 0 from by decide +kernel]; omega)
      (y 2)
      (show win0_1.index t0_7 2 * 1024 + 1 * (y 2).val = (y 2).val by
        rw [show win0_1.index t0_7 2 = 0 from by decide +kernel]; omega)]
    exact (congrFun (rowAt_eq_fold V c 0 7 (by omega) (by omega)) y).trans (congrArg _ (rowIdx_eq y))
  · show (cfg0.win 1).cut (grid0.coords t0_15) ((dat0 V c).after 1 t0_15) = _
    rw [after0_1]
    funext y
    rw [View.read_apply]
    show rowAt V c 15 _ y = result0 c (V c main_arg1) _
    have h1 : (y 0).val < 1 := (y 0).isLt
    rw [result0_apply c _ 1 (by omega) _
      (show win0_1.index t0_15 0 * 1 + 1 * (y 0).val = 1 by
        rw [show win0_1.index t0_15 0 = 1 from by decide +kernel]; omega)
      (y 2)
      (show win0_1.index t0_15 2 * 1024 + 1 * (y 2).val = (y 2).val by
        rw [show win0_1.index t0_15 2 = 0 from by decide +kernel]; omega)]
    exact (congrFun (rowAt_eq_fold V c 1 7 (by omega) (by omega)) y).trans (congrArg _ (rowIdx_eq y))

/-- Every index of the result array lies in the block one of the two write-backs writes: row 0 in point
    7's, row 1 in point 15's. -/
theorem cover0 (c : Dev nD) (i : ((cfg0.win 1).arr.view.loc (c.tc : Thread nD τ)).2.ty.Idx) :
    ∃ t : Fin cfg0.N, (cfg0.win 1).flush t = true ∧ i ∈ ((cfg0.win 1).blk t).view.set := by
  have h0 : (i 0 : Nat) < 2 := (i 0).isLt
  have h1 : (i 1 : Nat) < 1 := (i 1).isLt
  have h2 : (i 2 : Nat) < 1024 := (i 2).isLt
  by_cases hz : (i 0 : Nat) = 0
  · refine ⟨t0_7, (flush0_1 t0_7).mpr rfl, ?_⟩
    show i ∈ ((View.whole main_v0).slice (win0_1.rect t0_7)).set
    rw [View.set_slice_whole, Rect.mem_set_unit]
    intro a
    match a with
    | ⟨0, _⟩ =>
      show win0_1.index t0_7 0 * win0_1.size 0 ≤ (i 0 : Nat) ∧ (i 0 : Nat) < win0_1.index t0_7 0 * win0_1.size 0 + win0_1.xsize (grid0.coords t0_7) 0
      rw [show win0_1.index t0_7 0 * win0_1.size 0 = 0 from by decide +kernel, show win0_1.xsize (grid0.coords t0_7) 0 = 1 from by decide +kernel]; omega
    | ⟨1, _⟩ =>
      show win0_1.index t0_7 1 * win0_1.size 1 ≤ (i 1 : Nat) ∧ (i 1 : Nat) < win0_1.index t0_7 1 * win0_1.size 1 + win0_1.xsize (grid0.coords t0_7) 1
      rw [show win0_1.index t0_7 1 * win0_1.size 1 = 0 from by decide +kernel, show win0_1.xsize (grid0.coords t0_7) 1 = 1 from by decide +kernel]; omega
    | ⟨2, _⟩ =>
      show win0_1.index t0_7 2 * win0_1.size 2 ≤ (i 2 : Nat) ∧ (i 2 : Nat) < win0_1.index t0_7 2 * win0_1.size 2 + win0_1.xsize (grid0.coords t0_7) 2
      rw [show win0_1.index t0_7 2 * win0_1.size 2 = 0 from by decide +kernel, show win0_1.xsize (grid0.coords t0_7) 2 = 1024 from by decide +kernel]; omega
  · refine ⟨t0_15, (flush0_1 t0_15).mpr rfl, ?_⟩
    show i ∈ ((View.whole main_v0).slice (win0_1.rect t0_15)).set
    rw [View.set_slice_whole, Rect.mem_set_unit]
    intro a
    match a with
    | ⟨0, _⟩ =>
      show win0_1.index t0_15 0 * win0_1.size 0 ≤ (i 0 : Nat) ∧ (i 0 : Nat) < win0_1.index t0_15 0 * win0_1.size 0 + win0_1.xsize (grid0.coords t0_15) 0
      rw [show win0_1.index t0_15 0 * win0_1.size 0 = 1 from by decide +kernel, show win0_1.xsize (grid0.coords t0_15) 0 = 1 from by decide +kernel]; omega
    | ⟨1, _⟩ =>
      show win0_1.index t0_15 1 * win0_1.size 1 ≤ (i 1 : Nat) ∧ (i 1 : Nat) < win0_1.index t0_15 1 * win0_1.size 1 + win0_1.xsize (grid0.coords t0_15) 1
      rw [show win0_1.index t0_15 1 * win0_1.size 1 = 0 from by decide +kernel, show win0_1.xsize (grid0.coords t0_15) 1 = 1 from by decide +kernel]; omega
    | ⟨2, _⟩ =>
      show win0_1.index t0_15 2 * win0_1.size 2 ≤ (i 2 : Nat) ∧ (i 2 : Nat) < win0_1.index t0_15 2 * win0_1.size 2 + win0_1.xsize (grid0.coords t0_15) 2
      rw [show win0_1.index t0_15 2 * win0_1.size 2 = 0 from by decide +kernel, show win0_1.xsize (grid0.coords t0_15) 2 = 1024 from by decide +kernel]; omega

/-- THE RESULT ARRAY when the grid is done: `result0` of the memory bank as found. -/
theorem arr0_1 (c : Dev nD) : (dat0 V c).arrAt 1 cfg0.N = result0 c (V c main_arg1) :=
  (dat0 V c).arrAt_eq_of_cover 1 (result0 c (V c main_arg1)) (flushed_eq V c) (cover0 c)

end Result

end Cert.KernelIdeal.R0

end
-- ==== Proof.R1Runs.lean ====
/-
  The second kernel region (the positive / negative similarity kernel), first part: what its body does on any four
  whole staging buffers. The grid is 2 × 4; the body zeroes its one-word-per-lane accumulator when the second grid
  coordinate is 0 and otherwise adds to what the point before left, so there are two control cases: the points
  0 and 4 (reset, then add) and the other six (add to the running contents). In each case the body runs to the end
  with the three input buffers unchanged and the accumulator buffer overwritten by the stores the run meets.
-/
import proofs.«155385_j62319975465315_2_alg».proof.Proof.Gen.KernelIdeal.Launch
import proofs.«155385_j62319975465315_2_alg».proof.Proof.Gen.KernelIdeal.Skeleton
import proofs.«155385_j62319975465315_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition from the grid coordinates: "the second coordinate is 0". -/
abbrev cond1_0 (i : grid1.Coords) : Prop := (Scalar.cmpi .ne (Scalar.extui (Scalar.cmpi .eq (BitVec.ofNat 32 (i 1).val) 0#32)) 0#32) = 1#1
/-- It holds exactly at the points 0 and 4 of the eight. -/
theorem hcond1_0 : ∀ t : Fin cfg1.N, cond1_0 (grid1.coords t) ↔ t.val % 4 = 0 :=
  (by decide +kernel : ∀ t : Fin grid1.N, cond1_0 (grid1.coords t) ↔ t.val % 4 = 0)

/-- One staging buffer of the accumulator window, through which its contents are stated. -/
abbrev VO1_3 : View sig .tc .vmem S1x1x128 .f32 := (Memref.whole cc1_stg3_0 : Memref sig .tc .vmem S1x1x128 .f32).view
/-- Each window's current staging buffer at point `t`, as the pipeline passes it to the body, and its wholeness. -/
abbrev ms1_0 (t : Fin cfg1.N) : Memref sig .tc .vmem S256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)

set_option maxHeartbeats 2000000 in
/-- The reset case (second coordinate 0): from the three inputs at `x0 x1 x2` and the accumulator at anything the body
    runs to the end, the inputs as they were and the accumulator with the run's stores written (the list is found by the run). -/
noncomputable def kernelRun1_A (c : Dev nD) (i : grid1.Coords)
    (arg2 : Memref sig .tc .vmem S256x1024 .f32) (harg2 : arg2.IsWhole) (arg3 : Memref sig .tc .vmem S256x1024 .f32) (harg3 : arg3.IsWhole)
    (arg4 : Memref sig .tc .vmem S1x1024 .f32) (harg4 : arg4.IsWhole) (arg5 : Memref sig .tc .vmem S1x1x128 .f32) (harg5 : arg5.IsWhole)
    (hc0 : cond1_0 i) (x0 : Vec F S256x1024 .f32) (x1 : Vec F S256x1024 .f32) (x2 : Vec F S1x1024 .f32) :
    { L3 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__posneg_kernel i arg2 harg2 arg3 harg3 arg4 harg4 arg5 harg5) K } := by
  refine ⟨?_, fun E K => ?run⟩
  case run =>
    simp only [cc1__posneg_kernel_eq_skeleton]; unfold cc1__posneg_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 2000000 in
/-- The accumulating case (second coordinate not 0): the same, the accumulator entering at its running contents `xo3`. -/
noncomputable def kernelRun1_B (c : Dev nD) (i : grid1.Coords)
    (arg2 : Memref sig .tc .vmem S256x1024 .f32) (harg2 : arg2.IsWhole) (arg3 : Memref sig .tc .vmem S256x1024 .f32) (harg3 : arg3.IsWhole)
    (arg4 : Memref sig .tc .vmem S1x1024 .f32) (harg4 : arg4.IsWhole) (arg5 : Memref sig .tc .vmem S1x1x128 .f32) (harg5 : arg5.IsWhole)
    (hc0 : ¬cond1_0 i) (x0 : Vec F S256x1024 .f32) (x1 : Vec F S256x1024 .f32) (x2 : Vec F S1x1024 .f32) (xo3 : Vec F S1x1x128 .f32) :
    { L3 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__posneg_kernel i arg2 harg2 arg3 harg3 arg4 harg4 arg5 harg5) K } := by
  refine ⟨?_, fun E K => ?run⟩
  case run =>
    simp only [cc1__posneg_kernel_eq_skeleton]; unfold cc1__posneg_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.R1

end
-- ==== Proof.Region1.lean ====
/-
  The second kernel region, second part: what its accumulator holds after every grid point, the proof data of its
  pipeline at any contents `V` of the TensorCore's buffers at the region's entry, and the body obligation at every point.
  The three input windows always hold their blocks of the arrays as entered (rows 256·t … of the first array through
  window 0, rows 256·(8+t) … of the same array through window 1, the whole 1 × 1024 row through window 2); the
  accumulator window holds, after point `t`, the reset case's result at the points 0 and 4 and otherwise the adding
  case's result over what the point before left.
-/
import proofs.«155385_j62319975465315_2_alg».proof.Proof.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The reset case's stores tile the accumulator's block, so they cover it. -/
theorem cover1_A_3 (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1x128 .f32) (harg5 : arg5.IsWhole) (hc0 : cond1_0 i) (x0 : Vec F S256x1024 .f32) (x1 : Vec F S256x1024 .f32) (x2 : Vec F S1x1024 .f32) (y : S1x1x128.Idx) :
    ∃ pc ∈ (kernelRun1_A c i arg2 harg2 arg3 harg3 arg4 harg4 arg5 harg5 hc0 x0 x1 x2).1, y ∈ pc.1.set :=
  View.cover_of_tiledL (kernelRun1_A c i arg2 harg2 arg3 harg3 arg4 harg4 arg5 harg5 hc0 x0 x1 x2).1 S1x1x128.size (by sl_kernel_rfl) y

/-- What the reset case leaves in the accumulator's buffer: its stores read back. -/
def out1_A_3 (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1x128 .f32) (harg5 : arg5.IsWhole) (hc0 : cond1_0 i) (x0 : Vec F S256x1024 .f32) (x1 : Vec F S256x1024 .f32) (x2 : Vec F S1x1024 .f32) : Vec F S1x1x128 .f32 :=
  VO1_3.read (Elt F) (VO1_3.writes (Elt F) VO1_3.junk (kernelRun1_A c i arg2 harg2 arg3 harg3 arg4 harg4 arg5 harg5 hc0 x0 x1 x2).1)

/-- The adding case's store covers the accumulator's block. -/
theorem cover1_B_3 (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1x128 .f32) (harg5 : arg5.IsWhole) (hc0 : ¬cond1_0 i) (x0 : Vec F S256x1024 .f32) (x1 : Vec F S256x1024 .f32) (x2 : Vec F S1x1024 .f32) (xo3 : Vec F S1x1x128 .f32) (y : S1x1x128.Idx) :
    ∃ pc ∈ (kernelRun1_B c i arg2 harg2 arg3 harg3 arg4 harg4 arg5 harg5 hc0 x0 x1 x2 xo3).1, y ∈ pc.1.set :=
  View.cover_of_tiledL (kernelRun1_B c i arg2 harg2 arg3 harg3 arg4 harg4 arg5 harg5 hc0 x0 x1 x2 xo3).1 S1x1x128.size (by sl_kernel_rfl) y

/-- What the adding case leaves in the accumulator's buffer. -/
def out1_B_3 (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1x128 .f32) (harg5 : arg5.IsWhole) (hc0 : ¬cond1_0 i) (x0 : Vec F S256x1024 .f32) (x1 : Vec F S256x1024 .f32) (x2 : Vec F S1x1024 .f32) (xo3 : Vec F S1x1x128 .f32) : Vec F S1x1x128 .f32 :=
  VO1_3.read (Elt F) (VO1_3.writes (Elt F) VO1_3.junk (kernelRun1_B c i arg2 harg2 arg3 harg3 arg4 harg4 arg5 harg5 hc0 x0 x1 x2 xo3).1)

/-- The accumulation: what the accumulator's staging buffer holds after the body at position `n`. -/
def outsAt1 (c : Dev nD) : (n : ℕ) → n < cfg1.N → Vec F S1x1x128 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 4 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 4 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 4 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of this pipeline on core `c`: the arrays as the region finds them; after the body each input's
    buffer at its block and the accumulator's at `outsAt1`. The first array is read through two windows: each holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At an adding point the accumulator's buffer holds what the body left at the point before: the point is not the
    first and the buffer was not written back in between. -/
theorem before1_3_B (c : Dev nD) (t : Fin cfg1.N) (h0 : ¬t.val % 4 = 0) (d) :
    (dat1 V c).before 3 t d = (outsAt1 V c (t.val - 1) (Nat.lt_of_le_of_lt (Nat.sub_le _ _) t.isLt)) := by
  have hN : t.val < 8 := lt_of_lt_of_eq t.isLt (show cfg1.N = 8 from N_1)
  rw [Dat.before_out_kept _ 3 rfl t (by omega) (Bool.eq_false_iff.mpr fun h => by have := (flush1_3 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
/-- The body at any point: the inputs' buffers hold their blocks; the point's case is decided by its position; at an
    adding point the accumulator holds what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 8 := lt_of_lt_of_eq t.isLt (show cfg1.N = 8 from N_1)
  by_cases h0 : t.val % 4 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.Run.lean ====
/-
  The run of the whole program: @main is four items — the first kernel region, five host operations (the two rows of
  the first region's result added), the second kernel region, seven host operations (the two lane-0 entries of the second
  region's result added, negated, divided by 4096). Between the items every unscoped buffer of a TensorCore is held at a
  named valuation: the launch memory; the same with the first region's result array at what its write-backs leave; the
  host operations applied; the same with the second region's result array at what its write-backs leave; the host
  operations applied. Each region is entered from and left at those states: its arrays are taken out of the held
  buffers and put back at their final contents. The second region reads ONE array through two windows: each window
  holds half of that array while the region runs, and the halves are joined again at its exit. The run ends with the
  result buffer at the last valuation and both argument arrays as launched.
-/
import proofs.«155385_j62319975465315_2_alg».proof.Proof.Gen.KernelIdeal.Regions
import proofs.«155385_j62319975465315_2_alg».proof.Proof.Region0
import proofs.«155385_j62319975465315_2_alg».proof.Proof.Region1
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg Seg HostSeg)
open Idealize.SL.BI (bigSepL bigSep_eq_bigSepL_of_eq)

variable (m : (ℓ : Loc nD τ sig) → Buf (Elt F) ℓ) (ρ : Dev nD → PrngReg)

/-! ## The buffers' contents at each boundary -/

/-- At launch. -/
abbrev W0 (c : Dev nD) : Valuation τ sig (Elt F) := fun b => m (c, b)
/-- The same read at the TensorCore's references: what the first region's proof data take. -/
abbrev E0 : (c : Dev nD) → (b : Ref sig .tc) → Buf (Elt F) ((c : Thread nD τ).loc b) := fun c b => W0 m c b
/-- What the first region leaves in its result array: its write-backs folded. -/
def res0 (c : Dev nD) : Buf (Elt F) ((c : Thread nD τ).loc main_v0) := (R0.dat0 (E0 m) c).arrAt 1 cfg0.N
/-- After the first region. -/
def W1 (c : Dev nD) : Valuation τ sig (Elt F) := Function.update (W0 m c) main_v0 (res0 m c)
abbrev E1 : (c : Dev nD) → (b : Ref sig .tc) → Buf (Elt F) ((c : Thread nD τ).loc b) := fun c b => W1 m c b
/-- After the host operations between the regions. -/
abbrev W2 (c : Dev nD) : Valuation τ sig (Elt F) := StableHlo.after hostOps1 (W1 m c)
abbrev E2 : (c : Dev nD) → (b : Ref sig .tc) → Buf (Elt F) ((c : Thread nD τ).loc b) := fun c b => W2 m c b
/-- What the second region leaves in its result array. -/
def res1 (c : Dev nD) : Buf (Elt F) ((c : Thread nD τ).loc main_v6) := (R1.dat1 (E2 m) c).arrAt 3 cfg1.N
/-- After the second region. -/
def W3 (c : Dev nD) : Valuation τ sig (Elt F) := Function.update (W2 m c) main_v6 (res1 m c)
abbrev E3 : (c : Dev nD) → (b : Ref sig .tc) → Buf (Elt F) ((c : Thread nD τ).loc b) := fun c b => W3 m c b
/-- At the end. -/
abbrev W4 (c : Dev nD) : Valuation τ sig (Elt F) := StableHlo.after hostOps2 (W3 m c)

theorem W1_v0 (c : Dev nD) : W1 m c main_v0 = res0 m c := by unfold W1; exact Function.update_self _ _ _
theorem W1_of (c : Dev nD) (r : Ref sig .tc) (h : r ≠ main_v0) : W1 m c r = W0 m c r := by
  unfold W1; exact Function.update_of_ne (StableHlo.devRef_ne_of_ne h) _ _
theorem W3_v6 (c : Dev nD) : W3 m c main_v6 = res1 m c := by unfold W3; exact Function.update_self _ _ _
theorem W3_of (c : Dev nD) (r : Ref sig .tc) (h : r ≠ main_v6) : W3 m c r = W2 m c r := by
  unfold W3; exact Function.update_of_ne (StableHlo.devRef_ne_of_ne h) _ _
theorem W2_of (c : Dev nD) (r : Ref sig .tc) (h : r ∉ hostOps1_W) : W2 m c r = W1 m c r :=
  StableHlo.after_of_writes_sub hostOps1 _ hostOps1_writes h
theorem W4_of (c : Dev nD) (r : Ref sig .tc) (h : r ∉ hostOps2_W) : W4 m c r = W3 m c r :=
  StableHlo.after_of_writes_sub hostOps2 _ hostOps2_writes h

/-- No item writes an argument array. -/
theorem W4_arg0 (c : Dev nD) : W4 m c main_arg0 = m ((c : Thread nD τ).loc main_arg0) :=
  (W4_of m c main_arg0 (by decide)).trans <| (W3_of m c main_arg0 (by decide)).trans <| (W2_of m c main_arg0 (by decide)).trans <| (W1_of m c main_arg0 (by decide)).trans rfl
theorem W4_arg1 (c : Dev nD) : W4 m c main_arg1 = m ((c : Thread nD τ).loc main_arg1) :=
  (W4_of m c main_arg1 (by decide)).trans <| (W3_of m c main_arg1 (by decide)).trans <| (W2_of m c main_arg1 (by decide)).trans <| (W1_of m c main_arg1 (by decide)).trans rfl

/-! ## The proof data of both pipelines, and what rides beside the buffers -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => R0.dat0 (E0 m) c
  | ⟨1, _⟩ => fun c => R1.dat1 (E2 m) c

/-- No core owes another anything: no level is assigned. -/
abbrev Lz : GSem nD τ sig → Finset Unit := fun _ => ∅
abbrev lvz : GSem nD τ sig → Unit → ℕ := fun _ _ => 0
/-- Beside the buffers: the generator register at some state, and the core owing nothing. -/
abbrev Rr (c : Dev nD) : sProp 𝕄 := iprop((∃ r, prngReg c r) ∗ ∃ W, owes (c : Thread nD τ) (0 : CellTallies nD τ sig Unit) W)
/-- The thread state at a boundary: every unscoped buffer at the boundary's contents, and `Rr`. -/
abbrev St (W : Dev nD → Valuation τ sig (Elt F)) (c : Dev nD) : sProp 𝕄 :=
  iprop(StableHlo.held (c : Thread nD τ) (Pipeline.ucRefs τ sig) (W c) ∗ Rr c)

/-! ## The first region as a segment -/

theorem hF0 (c : Dev nD) (w : Fin cfg0.W) : (pdats m 0 c).arrAt w cfg0.N = E1 m c (Pipeline.arrRef spec0 w) := by
  match w with
  | ⟨0, _⟩ => exact ((R0.dat0 (E0 m) c).arrAt_in 0 rfl _).trans ((R0.A_eq0 (E0 m) c 0).trans (W1_of m c main_arg1 (by decide)).symm)
  | ⟨1, _⟩ => exact (W1_v0 m c).symm
theorem hrest0 (c : Dev nD) : ∀ b, b ∉ Finset.univ.image (Pipeline.arrRef spec0) → E1 m c b = E0 m c b :=
  fun b hb => W1_of m c b fun e => hb (Finset.mem_image.mpr ⟨1, Finset.mem_univ _, e.symm⟩)

set_option backward.isDefEq.respectTransparency.types false in
def reg0 : RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (R0.body_obligation0 (E0 m) c).loose
  hwaits := Pipeline.hwaits_of_owed_zero _ _ _ _ Lz lvz 0 fun _ _ => rfl
  pre := St (W0 m)
  post := St (W1 m)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hs := Pipeline.arrays_of_unscopedBufs (p := 0) (pcfgs (F := F)) adm (pdats m) launch0.win launch0.arr_whole c
      ((pdats m 0 c).share_full fun _ => rfl) (E0 m c) fun _ => rfl
    rw [Pipeline.unscopedBufs_held] at hs
    iintro ⟨⟨Hb, Hg, Hw⟩, -, -⟩
    ihave Hs := hs $$ Hb
    icases Hs with ⟨Ha, Hz⟩
    imodintro
    isplitl [Ha]; · iexact Ha
    isplitr; · unfold Pipeline.prefHeld; rw [show (Finset.univ : Finset (Fin 0)) = ∅ from rfl, BI.bigSep_empty]; iempintro
    isplitl [Hw]
    · unfold Pipeline.Dat.owesAt Pipeline.owesWithin
      icases Hw with ⟨%W, Hw⟩; iexists W; isplitr; · ipureintro; exact fun _ _ => Or.inl trivial
      iexact Hw
    isplitl [Hg]; · iexact Hg
    iexact Hz
  hin c := by
    rw [show (pdats m 0 c).Φ 0 = Pipeline.ΦA spec0 c from rfl]; unfold Pipeline.ΦA
    iintro ⟨Hg, -, Hs⟩
    isplitl [Hs]; · iexact Hs
    iexact Hg
  hout c := by
    rw [Pipeline.ownSems0_none, show (pdats m 0 c).Φ (Fin.last _) = Pipeline.ΦA spec0 c from rfl]; unfold Pipeline.ΦA
    iintro ⟨Hs, Hg⟩
    isplitl [Hg]; · iexact Hg
    isplitr; · iempintro
    iexact Hs
  hexit c := by
    have hj := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hj
    iintro ⟨Ha, Hw, Hg, Hz⟩
    imodintro
    isplitl [Ha Hz]
    · iapply hj; isplitl [Ha] <;> iassumption
    isplitl [Hg]; · iexact Hg
    unfold Pipeline.Dat.owesAt Pipeline.owesWithin
    icases Hw with ⟨%W, -, Hw⟩; iexists W; iexact Hw

/-! ## The second region as a segment: one array behind two windows -/

/-- At entry the three buffers behind the second region's four windows make its arrays: the first argument array,
    read through windows 0 and 1, is split in two halves, one per window. -/
theorem split1 (c : Dev nD) :
    (Pipeline.arrBufs (Ix := Unit) (Name := ℕ) (U := UR sig nD τ) (Lvl := ℕ) spec1 c (E2 m c) : sProp 𝕄)
      ⊢ (pdats m 1 c).arrays ((pdats m 1 c).arrAt · 0) := by
  unfold Pipeline.arrBufs Pipeline.Dat.arrays
  rw [bigSep_eq_bigSepL_of_eq [main_arg0, main_v5, main_v6] (by decide) (by decide), bigSep_W1]
  show (iprop((((c : Thread nD τ).loc main_arg0) ↦{fullShare} E2 m c main_arg0) ∗ (((c : Thread nD τ).loc main_v5) ↦{fullShare} E2 m c main_v5) ∗ (((c : Thread nD τ).loc main_v6) ↦{fullShare} E2 m c main_v6)) : sProp 𝕄)
    ⊢ iprop((((c : Thread nD τ).loc main_arg0) ↦[(spec1 0).arr.view.set]{fullShare.left} E2 m c main_arg0) ∗ (((c : Thread nD τ).loc main_arg0) ↦[(spec1 1).arr.view.set]{fullShare.right} E2 m c main_arg0)
        ∗ (((c : Thread nD τ).loc main_v5) ↦[(spec1 2).arr.view.set]{fullShare} E2 m c main_v5) ∗ (((c : Thread nD τ).loc main_v6) ↦[(spec1 3).arr.view.set]{fullShare} E2 m c main_v6))
  rw [(arr_whole1 0).set_eq_univ, (arr_whole1 2).set_eq_univ, (arr_whole1 3).set_eq_univ]
  iintro ⟨Ha, H5, H6⟩
  have hhalf : (((c : Thread nD τ).loc main_arg0) ↦{fullShare} E2 m c main_arg0 : sProp 𝕄)
      ⊢ iprop((((c : Thread nD τ).loc main_arg0) ↦{fullShare.left} E2 m c main_arg0) ∗ (((c : Thread nD τ).loc main_arg0) ↦{fullShare.right} E2 m c main_arg0)) :=
    (pointsTo_share (PosShare.mem_left_op_right fullShare)).1
  ihave Hs := hhalf $$ Ha
  icases Hs with ⟨Hl, Hr⟩
  isplitl [Hl]; · iexact Hl
  isplitl [Hr]; · iexact Hr
  isplitl [H5]; · iexact H5
  iexact H6

/-- At exit the halves are joined again, and the result array sits at what the write-backs left. -/
theorem join1 (c : Dev nD) :
    (pdats m 1 c).arrays ((pdats m 1 c).arrAt · cfg1.N)
      ⊢ (Pipeline.arrBufs (Ix := Unit) (Name := ℕ) (U := UR sig nD τ) (Lvl := ℕ) spec1 c (E3 m c) : sProp 𝕄) := by
  have e0 : (pdats m 1 c).arrAt 0 cfg1.N = E3 m c main_arg0 :=
    ((R1.dat1 (E2 m) c).arrAt_in 0 rfl _).trans ((R1.A_eq1 (E2 m) c 0).trans (W3_of m c main_arg0 (by decide)).symm)
  have e1 : (pdats m 1 c).arrAt 1 cfg1.N = E3 m c main_arg0 :=
    ((R1.dat1 (E2 m) c).arrAt_in 1 rfl _).trans ((R1.A_eq1 (E2 m) c 1).trans (W3_of m c main_arg0 (by decide)).symm)
  have e2 : (pdats m 1 c).arrAt 2 cfg1.N = E3 m c main_v5 :=
    ((R1.dat1 (E2 m) c).arrAt_in 2 rfl _).trans ((R1.A_eq1 (E2 m) c 2).trans (W3_of m c main_v5 (by decide)).symm)
  have e3 : (pdats m 1 c).arrAt 3 cfg1.N = E3 m c main_v6 := (W3_v6 m c).symm
  unfold Pipeline.arrBufs Pipeline.Dat.arrays
  rw [bigSep_eq_bigSepL_of_eq [main_arg0, main_v5, main_v6] (by decide) (by decide), bigSep_W1]
  show (iprop((((c : Thread nD τ).loc main_arg0) ↦[(spec1 0).arr.view.set]{fullShare.left} (pdats m 1 c).arrAt 0 cfg1.N) ∗ (((c : Thread nD τ).loc main_arg0) ↦[(spec1 1).arr.view.set]{fullShare.right} (pdats m 1 c).arrAt 1 cfg1.N)
        ∗ (((c : Thread nD τ).loc main_v5) ↦[(spec1 2).arr.view.set]{fullShare} (pdats m 1 c).arrAt 2 cfg1.N) ∗ (((c : Thread nD τ).loc main_v6) ↦[(spec1 3).arr.view.set]{fullShare} (pdats m 1 c).arrAt 3 cfg1.N)) : sProp 𝕄)
    ⊢ iprop((((c : Thread nD τ).loc main_arg0) ↦{fullShare} E3 m c main_arg0) ∗ (((c : Thread nD τ).loc main_v5) ↦{fullShare} E3 m c main_v5) ∗ (((c : Thread nD τ).loc main_v6) ↦{fullShare} E3 m c main_v6))
  rw [(arr_whole1 0).set_eq_univ, (arr_whole1 2).set_eq_univ, (arr_whole1 3).set_eq_univ]
  rw [e0, e1, e2, e3]
  iintro ⟨Hl, Hr, H5, H6⟩
  isplitl [Hl Hr]
  · iapply (pointsTo_share (PosShare.mem_left_op_right fullShare)).2
    isplitl [Hl]; · iexact Hl
    iexact Hr
  isplitl [H5]; · iexact H5
  iexact H6

theorem hrest1 (c : Dev nD) (b : Ref sig .tc) (hb : b ∉ Finset.univ.image (Pipeline.arrRef spec1)) : E3 m c b = E2 m c b :=
  W3_of m c b fun e => hb (Finset.mem_image.mpr ⟨3, Finset.mem_univ _, e.symm⟩)

set_option backward.isDefEq.respectTransparency.types false in
def reg1 : RegionSeg (pcfgs (F := F)) adm (pdats m) () defs₀ Variants.none Lz lvz 1 where
  win := winFacts₀1
  block_pos := block_pos1
  stage_whole := stage_whole1
  K := PEmpty
  osem k := k.elim
  ho := Pipeline.OwnSemFacts.none _
  hbody c := (R1.body_obligation1 (E2 m) c).loose
  hwaits := Pipeline.hwaits_of_owed_zero _ _ _ _ Lz lvz 1 fun _ _ => rfl
  pre := St (W2 m)
  post := St (W3 m)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hs : StableHlo.held (c : Thread nD τ) (Pipeline.ucRefs τ sig) (W2 m c)
        ⊢ iprop((Pipeline.arrBufs (Ix := Unit) (Name := ℕ) (U := UR sig nD τ) (Lvl := ℕ) spec1 c (E2 m c) : sProp 𝕄)
            ∗ Pipeline.unscopedRest spec1 c (E2 m c)) := by
      rw [← Pipeline.unscopedBufs_held]
      exact Entails.of_eq (Pipeline.unscopedBufs_split₀ (cfgs) 1 winFacts₀1.arr_unscoped c (E2 m c))
    iintro ⟨⟨Hh, Hg, Hw⟩, -, -⟩
    ihave Hs := hs $$ Hh
    icases Hs with ⟨Hb, Hz⟩
    ihave Ha := split1 m c $$ Hb
    imodintro
    isplitl [Ha]; · iexact Ha
    isplitr; · unfold Pipeline.prefHeld; rw [show (Finset.univ : Finset (Fin 0)) = ∅ from rfl, BI.bigSep_empty]; iempintro
    isplitl [Hw]
    · unfold Pipeline.Dat.owesAt Pipeline.owesWithin
      icases Hw with ⟨%W, Hw⟩; iexists W; isplitr; · ipureintro; exact fun _ _ => Or.inl trivial
      iexact Hw
    isplitl [Hg]; · iexact Hg
    iexact Hz
  hin c := by
    rw [show (pdats m 1 c).Φ 0 = Pipeline.ΦA spec1 c from rfl]; unfold Pipeline.ΦA
    iintro ⟨Hg, -, Hs⟩
    isplitl [Hs]; · iexact Hs
    iexact Hg
  hout c := by
    rw [Pipeline.ownSems0_none, show (pdats m 1 c).Φ (Fin.last _) = Pipeline.ΦA spec1 c from rfl]; unfold Pipeline.ΦA
    iintro ⟨Hs, Hg⟩
    isplitl [Hg]; · iexact Hg
    isplitr; · iempintro
    iexact Hs
  hexit c := by
    have hs : iprop((Pipeline.arrBufs (Ix := Unit) (Name := ℕ) (U := UR sig nD τ) (Lvl := ℕ) spec1 c (E3 m c) : sProp 𝕄)
            ∗ Pipeline.unscopedRest spec1 c (E3 m c))
        ⊢ StableHlo.held (c : Thread nD τ) (Pipeline.ucRefs τ sig) (W3 m c) := by
      rw [← Pipeline.unscopedBufs_held]
      exact Entails.of_eq (Pipeline.unscopedBufs_split₀ (cfgs) 1 winFacts₀1.arr_unscoped c (E3 m c)).symm
    have hz : (Pipeline.unscopedRest (Ix := Unit) (Name := ℕ) (U := UR sig nD τ) (Lvl := ℕ) spec1 c (E2 m c) : sProp 𝕄)
        ⊢ Pipeline.unscopedRest spec1 c (E3 m c) := by
      unfold Pipeline.unscopedRest
      exact Entails.of_eq (BI.bigSep_congr fun b hb => by rw [hrest1 m c b (Finset.mem_sdiff.mp hb).2])
    iintro ⟨Ha, Hw, Hg, Hz⟩
    ihave Hb := join1 m c $$ Ha
    ihave Hz' := hz $$ Hz
    imodintro
    isplitl [Hb Hz']
    · iapply hs
      isplitl [Hb]; · iexact Hb
      iexact Hz'
    isplitl [Hg]; · iexact Hg
    unfold Pipeline.Dat.owesAt Pipeline.owesWithin
    icases Hw with ⟨%W, -, Hw⟩; iexists W; iexact Hw

/-! ## @main as segments, and the launch -/

/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ Variants.none Lz lvz :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

abbrev segs : List (Seg (pcfgs (F := F)) adm (pdats m) () defs₀ Variants.none Lz lvz) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, at any float instance: every weakly fair execution of @main from memory `m` with zero counters terminates,
    nothing faulting, with the result buffer at the last valuation and both argument arrays as launched. -/
theorem run : θ_run defs (onTc (τ := τ) (main (F := F))) ⟨m, fun _ => 0, ρ⟩ (fun r => ∀ c : Dev nD,
      r.2.mem ((c.tc : Thread nD τ).loc main_v11) = W4 m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ Variants.none Lz lvz m ρ main (segs m)
    (fun c Q => by rw [main_run m c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show (iprop(StableHlo.held (c : Thread nD τ) (Pipeline.ucRefs τ sig) (W4 m c) ∗ Rr c) : sProp 𝕄) ⊢ _
      iintro ⟨Hh, Hg, Hw⟩
      isplitl [Hh Hg]
      · isplitl [Hh]; · iexact Hh
        iexact Hg
      iexact Hw⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Hw, -, Hg, -⟩, -⟩
      imodintro
      isplitl [Hh]; · iexact Hh
      isplitl [Hg]; · iexists _; iexact Hg
      iexists ∅; iexact Hw)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v11 (by decide)),
       (h c _ (mem_uc main_arg0 (by decide))).trans (W4_arg0 m c),
       (h c _ (mem_uc main_arg1 (by decide))).trans (W4_arg1 m c)⟩)

end Cert.KernelIdeal.Run

end
-- ==== Proof.Region1Arr.lean ====
import proofs.«155385_j62319975465315_2_alg».proof.Proof.Region1
import Idealize.ShloMosaic.Lib.Pipeline.Value
import Idealize.ShloMosaic.Lib.ValueIdx

/-!
# The second grid of the kernel: what its result array holds when the grid is done

The grid has 2 × 4 points; point `t = 4·c + i` works on row `c` of a `2 × 1 × 128` result, an accumulator
whose 128 lanes all hold the same number.  At the first point of a sweep (`i = 0`) the row is set to zero and
the point's term is added; at the three later points the point's term is added to what the point before
left; the row is written back after the last point of its sweep.  The point's term is a function of three
blocks: rows `[256·t, 256·t + 256)` of the first argument, rows `[256·(8 + t), …)` of the same argument, and
the whole `1 × 1024` row of column sums.

Here the two cases of the body are read as values (the body's own payload functions applied to the three
blocks and to the row before), the running row is shown to be the fold of these steps over a sweep, and
the result array after the grid is the fold over each whole sweep, as one function of the two arrays read.
-/

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two cases as values -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- At a later point of a sweep the row becomes the body's final payload of the three blocks' partial
    results and of the row before: the one store covers the row, every load reads a whole buffer. -/
theorem out1_B_3_eq (c : Dev nD) (i : grid1.Coords) (a2 : Memref sig .tc .vmem S256x1024 .f32) (h2 : a2.IsWhole)
    (a3 : Memref sig .tc .vmem S256x1024 .f32) (h3 : a3.IsWhole) (a4 : Memref sig .tc .vmem S1x1024 .f32) (h4 : a4.IsWhole)
    (a5 : Memref sig .tc .vmem S1x1x128 .f32) (h5 : a5.IsWhole) (hc : ¬cond1_0 i)
    (x0 x1 : Vec F S256x1024 .f32) (x2 : Vec F S1x1024 .f32) (xo3 : Vec F S1x1x128 .f32) :
    out1_B_3 c i a2 h2 a3 h3 a4 h4 a5 h5 hc x0 x1 x2 xo3
      = k1_pay1 (k1_pay6 x0 x1) (k1_pay7 x0 x2) (k1_pay8 x1 x2) (k1_pay9 (F := F)) xo3 := by
  unfold out1_B_3
  rw [View.read_writes_eq_canon _ _ _ (cover1_B_3 c i a2 h2 a3 h3 a4 h4 a5 h5 hc x0 x1 x2 xo3)]
  unfold kernelRun1_B
  dsimp only
  sl_unfold_words
  rw [View.canon_unit_zero zeros3]
  simp only [View.readAt_eq_ld, h2.read_unread, h3.read_unread, h4.read_unread, h5.read_unread,
    View.ld_unit_zero (S := S256x1024) zeros2, View.ld_unit_zero (S := S1x1024) zeros2,
    View.ld_unit_zero (S := S1x1x128) zeros3]

/-- At the first point of a sweep the row becomes the same payload of the three blocks' partial results
    and of the zero row just stored. -/
theorem out1_A_3_eq (c : Dev nD) (i : grid1.Coords) (a2 : Memref sig .tc .vmem S256x1024 .f32) (h2 : a2.IsWhole)
    (a3 : Memref sig .tc .vmem S256x1024 .f32) (h3 : a3.IsWhole) (a4 : Memref sig .tc .vmem S1x1024 .f32) (h4 : a4.IsWhole)
    (a5 : Memref sig .tc .vmem S1x1x128 .f32) (h5 : a5.IsWhole) (hc : cond1_0 i)
    (x0 x1 : Vec F S256x1024 .f32) (x2 : Vec F S1x1024 .f32) :
    out1_A_3 c i a2 h2 a3 h3 a4 h4 a5 h5 hc x0 x1 x2
      = k1_pay1 (k1_pay6 x0 x1) (k1_pay7 x0 x2) (k1_pay8 x1 x2) (k1_pay9 (F := F)) (k1_pay2 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x128) zeros3, View.readCov_unit_zero (S := S1x1x128) _ zeros3]
  simp only [View.readAt_eq_ld, h2.read_unread, h3.read_unread, h4.read_unread,
    View.ld_unit_zero (S := S256x1024) zeros2, View.ld_unit_zero (S := S1x1024) zeros2]

section Result

variable (V : (c : Dev nD) → (b : Ref sig .tc) → Buf (Elt F) ((c : Thread nD τ).loc b))

/-! ## The running row as a fold over a sweep, from the two arrays read -/

/-- Block `t` of the first argument `X` through the first window (rows `[256·t, 256·t + 256)`), -/
def blockLo (c : Dev nD) (X : Buf (Elt F) ((c : Thread nD τ).loc main_arg0)) (t : Fin cfg1.N) : Vec F S256x1024 .f32 :=
  ((cfg1.win 0).blk t).view.read (Elt F) X

/-- through the second window (rows `[256·(8 + t), …)`), -/
def blockHi (c : Dev nD) (X : Buf (Elt F) ((c : Thread nD τ).loc main_arg0)) (t : Fin cfg1.N) : Vec F S256x1024 .f32 :=
  ((cfg1.win 1).blk t).view.read (Elt F) X

/-- and the row of column sums `Ms` through the third (the whole row, at every point). -/
def sumsRow (c : Dev nD) (Ms : Buf (Elt F) ((c : Thread nD τ).loc main_v5)) (t : Fin cfg1.N) : Vec F S1x1024 .f32 :=
  ((cfg1.win 2).blk t).view.read (Elt F) Ms

theorem iblk1_0_eq (c : Dev nD) (t : Fin cfg1.N) : iblk1 V c 0 t = blockLo c (V c main_arg0) t := rfl
theorem iblk1_1_eq (c : Dev nD) (t : Fin cfg1.N) : iblk1 V c 1 t = blockHi c (V c main_arg0) t := rfl
theorem iblk1_2_eq (c : Dev nD) (t : Fin cfg1.N) : iblk1 V c 2 t = sumsRow c (V c main_v5) t := rfl

/-- The row after a later point `n`, from the row `acc` before it, -/
def nextAcc (c : Dev nD) (X : Buf (Elt F) ((c : Thread nD τ).loc main_arg0)) (Ms : Buf (Elt F) ((c : Thread nD τ).loc main_v5))
    (n : ℕ) (h : n < cfg1.N) (acc : Vec F S1x1x128 .f32) : Vec F S1x1x128 .f32 :=
  k1_pay1 (k1_pay6 (blockLo c X ⟨n, h⟩) (blockHi c X ⟨n, h⟩)) (k1_pay7 (blockLo c X ⟨n, h⟩) (sumsRow c Ms ⟨n, h⟩))
    (k1_pay8 (blockHi c X ⟨n, h⟩) (sumsRow c Ms ⟨n, h⟩)) (k1_pay9 (F := F)) acc

/-- and after the first point `n` of a sweep: the same step from the zero row. -/
def firstAcc (c : Dev nD) (X : Buf (Elt F) ((c : Thread nD τ).loc main_arg0)) (Ms : Buf (Elt F) ((c : Thread nD τ).loc main_v5))
    (n : ℕ) (h : n < cfg1.N) : Vec F S1x1x128 .f32 :=
  nextAcc c X Ms n h (k1_pay2 (F := F))

/-- The running row at point `4·q + j` (`j < 4`) is the fold over the points `4·q, …, 4·q + j`. -/
theorem outsAt1_eq_fold (c : Dev nD) (q j : ℕ) (hj : j < 4) (h : 4 * q + j < cfg1.N) :
    outsAt1 V c (4 * q + j) h
      = Pipeline.accAt (firstAcc c (V c main_arg0) (V c main_v5)) (nextAcc c (V c main_arg0) (V c main_v5)) (4 * q) j h :=
  Pipeline.eq_accAt (outsAt1 V c) 4 (firstAcc c (V c main_arg0) (V c main_v5)) (nextAcc c (V c main_arg0) (V c main_v5))
    (fun n hn h0 => (outsAt1_A V c ⟨n, hn⟩ h0).trans (out1_A_3_eq ..))
    (fun n hn hne => by
      rw [outsAt1_B V c ⟨n + 1, hn⟩ hne, out1_B_3_eq]
      rfl)
    q j hj h

/-! ## What the result array holds when the grid is done -/

/-- THE RESULT of the grid as one function of the two arrays read: row `c'` is the fold over the whole sweep
    `4·c', …, 4·c' + 3`. -/
def result1 (c : Dev nD) (X : Buf (Elt F) ((c : Thread nD τ).loc main_arg0)) (Ms : Buf (Elt F) ((c : Thread nD τ).loc main_v5)) :
    Vec F S2x1x128 .f32 :=
  fun i => Pipeline.accAt (firstAcc c X Ms) (nextAcc c X Ms) (4 * (i 0).val) 3
    (by have h2 : (i 0).val < 2 := (i 0).isLt
        have hN : cfg1.N = 8 := N_1
        omega)
    (ValueIdx.ix3 (0 : Fin 1) (0 : Fin 1) (i 2))

/-- Reading the result at row `q`, lane `l`. -/
theorem result1_apply (c : Dev nD) (X : Buf (Elt F) ((c : Thread nD τ).loc main_arg0)) (Ms : Buf (Elt F) ((c : Thread nD τ).loc main_v5))
    (q : ℕ) (hq : 4 * q + 3 < cfg1.N) (i : S2x1x128.Idx) (hi : (i 0).val = q) (l : Fin 128) (hl : (i 2).val = l.val) :
    result1 c X Ms i = Pipeline.accAt (firstAcc c X Ms) (nextAcc c X Ms) (4 * q) 3 hq (ValueIdx.ix3 (0 : Fin 1) (0 : Fin 1) l) := by
  subst hi
  have e : (i 2 : Fin 128) = l := Fin.ext hl
  subst e
  rfl

/-- The row is written back at the last point of each sweep only. -/
theorem flush_points1 (t : Fin cfg1.N) (hf : (cfg1.win 3).flush t = true) : t = t1_3 ∨ t = t1_7 := by
  have hN : cfg1.N = 8 := N_1
  have h3 : t.val % 4 = 3 := (flush1_3 t).mp hf
  have hlt := t.isLt
  rcases (by omega : t.val = 3 ∨ t.val = 7) with h | h
  · exact .inl (Fin.ext h)
  · exact .inr (Fin.ext h)

/-- A row's index has zero first and second coordinates. -/
theorem accIdx_eq (y : S1x1x128.Idx) : y = ValueIdx.ix3 (0 : Fin 1) (0 : Fin 1) (y 2) := by
  funext a
  apply Fin.ext
  have h0 : (y 0).val < 1 := (y 0).isLt
  have h1 : (y 1).val < 1 := (y 1).isLt
  match a with
  | ⟨0, _⟩ => show (y 0).val = 0; omega
  | ⟨1, _⟩ => show (y 1).val = 0; omega
  | ⟨2, _⟩ => rfl

/-- What the last point of sweep `c'` writes back is row `c'` of `result1`. -/
theorem flushed1_eq (c : Dev nD) (t : Fin cfg1.N) (hf : (cfg1.win 3).flush t = true) :
    (dat1 V c).flushed 3 t = ((cfg1.win 3).blk t).view.read (Elt F) (result1 c (V c main_arg0) (V c main_v5)) := by
  have hN : cfg1.N = 8 := N_1
  rcases flush_points1 t hf with rfl | rfl
  · show (cfg1.win 3).cut (grid1.coords t1_3) ((dat1 V c).after 3 t1_3) = _
    rw [after1_3]
    funext y
    rw [View.read_apply]
    show outsAt1 V c 3 _ y = result1 c (V c main_arg0) (V c main_v5) _
    have h1 : (y 0).val < 1 := (y 0).isLt
    rw [result1_apply c _ _ 0 (by omega) _
      (show win1_3.index t1_3 0 * 1 + 1 * (y 0).val = 0 by
        rw [show win1_3.index t1_3 0 = 0 from by decide +kernel]; omega)
      (y 2)
      (show win1_3.index t1_3 2 * 128 + 1 * (y 2).val = (y 2).val by
        rw [show win1_3.index t1_3 2 = 0 from by decide +kernel]; omega)]
    exact (congrFun (outsAt1_eq_fold V c 0 3 (by omega) (by omega)) y).trans (congrArg _ (accIdx_eq y))
  · show (cfg1.win 3).cut (grid1.coords t1_7) ((dat1 V c).after 3 t1_7) = _
    rw [after1_3]
    funext y
    rw [View.read_apply]
    show outsAt1 V c 7 _ y = result1 c (V c main_arg0) (V c main_v5) _
    have h1 : (y 0).val < 1 := (y 0).isLt
    rw [result1_apply c _ _ 1 (by omega) _
      (show win1_3.index t1_7 0 * 1 + 1 * (y 0).val = 1 by
        rw [show win1_3.index t1_7 0 = 1 from by decide +kernel]; omega)
      (y 2)
      (show win1_3.index t1_7 2 * 128 + 1 * (y 2).val = (y 2).val by
        rw [show win1_3.index t1_7 2 = 0 from by decide +kernel]; omega)]
    exact (congrFun (outsAt1_eq_fold V c 1 3 (by omega) (by omega)) y).trans (congrArg _ (accIdx_eq y))

/-- Every index of the result array lies in the block one of the two write-backs writes: row 0 in point
    3's, row 1 in point 7's. -/
theorem cover1 (c : Dev nD) (i : ((cfg1.win 3).arr.view.loc (c.tc : Thread nD τ)).2.ty.Idx) :
    ∃ t : Fin cfg1.N, (cfg1.win 3).flush t = true ∧ i ∈ ((cfg1.win 3).blk t).view.set := by
  have h0 : (i 0 : Nat) < 2 := (i 0).isLt
  have h1 : (i 1 : Nat) < 1 := (i 1).isLt
  have h2 : (i 2 : Nat) < 128 := (i 2).isLt
  by_cases hz : (i 0 : Nat) = 0
  · refine ⟨t1_3, (flush1_3 t1_3).mpr rfl, ?_⟩
    show i ∈ ((View.whole main_v6).slice (win1_3.rect t1_3)).set
    rw [View.set_slice_whole, Rect.mem_set_unit]
    intro a
    match a with
    | ⟨0, _⟩ =>
      show win1_3.index t1_3 0 * win1_3.size 0 ≤ (i 0 : Nat) ∧ (i 0 : Nat) < win1_3.index t1_3 0 * win1_3.size 0 + win1_3.xsize (grid1.coords t1_3) 0
      rw [show win1_3.index t1_3 0 * win1_3.size 0 = 0 from by decide +kernel, show win1_3.xsize (grid1.coords t1_3) 0 = 1 from by decide +kernel]; omega
    | ⟨1, _⟩ =>
      show win1_3.index t1_3 1 * win1_3.size 1 ≤ (i 1 : Nat) ∧ (i 1 : Nat) < win1_3.index t1_3 1 * win1_3.size 1 + win1_3.xsize (grid1.coords t1_3) 1
      rw [show win1_3.index t1_3 1 * win1_3.size 1 = 0 from by decide +kernel, show win1_3.xsize (grid1.coords t1_3) 1 = 1 from by decide +kernel]; omega
    | ⟨2, _⟩ =>
      show win1_3.index t1_3 2 * win1_3.size 2 ≤ (i 2 : Nat) ∧ (i 2 : Nat) < win1_3.index t1_3 2 * win1_3.size 2 + win1_3.xsize (grid1.coords t1_3) 2
      rw [show win1_3.index t1_3 2 * win1_3.size 2 = 0 from by decide +kernel, show win1_3.xsize (grid1.coords t1_3) 2 = 128 from by decide +kernel]; omega
  · refine ⟨t1_7, (flush1_3 t1_7).mpr rfl, ?_⟩
    show i ∈ ((View.whole main_v6).slice (win1_3.rect t1_7)).set
    rw [View.set_slice_whole, Rect.mem_set_unit]
    intro a
    match a with
    | ⟨0, _⟩ =>
      show win1_3.index t1_7 0 * win1_3.size 0 ≤ (i 0 : Nat) ∧ (i 0 : Nat) < win1_3.index t1_7 0 * win1_3.size 0 + win1_3.xsize (grid1.coords t1_7) 0
      rw [show win1_3.index t1_7 0 * win1_3.size 0 = 1 from by decide +kernel, show win1_3.xsize (grid1.coords t1_7) 0 = 1 from by decide +kernel]; omega
    | ⟨1, _⟩ =>
      show win1_3.index t1_7 1 * win1_3.size 1 ≤ (i 1 : Nat) ∧ (i 1 : Nat) < win1_3.index t1_7 1 * win1_3.size 1 + win1_3.xsize (grid1.coords t1_7) 1
      rw [show win1_3.index t1_7 1 * win1_3.size 1 = 0 from by decide +kernel, show win1_3.xsize (grid1.coords t1_7) 1 = 1 from by decide +kernel]; omega
    | ⟨2, _⟩ =>
      show win1_3.index t1_7 2 * win1_3.size 2 ≤ (i 2 : Nat) ∧ (i 2 : Nat) < win1_3.index t1_7 2 * win1_3.size 2 + win1_3.xsize (grid1.coords t1_7) 2
      rw [show win1_3.index t1_7 2 * win1_3.size 2 = 0 from by decide +kernel, show win1_3.xsize (grid1.coords t1_7) 2 = 128 from by decide +kernel]; omega

/-- THE RESULT ARRAY when the grid is done: `result1` of the two arrays as found. -/
theorem arr1_3 (c : Dev nD) : (dat1 V c).arrAt 3 cfg1.N = result1 c (V c main_arg0) (V c main_v5) :=
  (dat1 V c).arrAt_eq_of_cover 3 (result1 c (V c main_arg0) (V c main_v5)) (flushed1_eq V c) (cover1 c)

end Result

end Cert.KernelIdeal.R1

end
-- ==== Proof.Spec.lean ====
import Idealize.ShloMosaic.PureOps.Ideal
import Idealize.ShloMosaic.PureOps.Ideal.Laws

/-!
# The two totals as plain functions of the input rows

Both programs compute a contrastive loss from 4096 feature rows `x` and 16384 memory-bank
rows `mb`, every row having 1024 entries.  Each row is first scaled to unit length,
`nrm a = a / max (‖a‖₂) eps`.

* The first total (`kernelTotal`) sums the scaled memory-bank rows once (`msum`), takes the
  inner products of each scaled feature row with that sum and with its partner row
  (row `n` and row `n + 2048` are partners), and adds up `sp (neg - pos)`, where
  `sp d = -(max d 0 + log (1 + exp (-|d|)))` is minus the softplus.
* The second total (`refTotal`) takes, for each feature row, the sum over ALL memory-bank rows
  of the inner products, and the first component of the two-entry log-softmax of
  `(pos, neg)`.

Every scalar operation is written with the extended-real operation of the ideal
reading (`Ideal.div`, `Ideal.sqrt`, `Ideal.exp`, `Ideal.log`, `Ideal.log1p`, `max`, `+`, `-`, `*`),
and the three float constants are kept as their bit patterns.
-/

namespace Cert.Spec

open Idealize.ShloMosaic
open scoped BigOperators

noncomputable section

/-- A row of 1024 extended reals. -/
abbrev Row := Fin 1024 → EReal

/-- The lower bound of the norm, `1e-8` as a binary32 word. -/
def eps : EReal := Ideal.ofBits .f32 0x322BCC77#32
/-- The temperature, `0.1` as a binary32 word. -/
def temp : EReal := Ideal.ofBits .f32 0x3DCCCCCD#32
/-- The number of rows, `4096.0` as a binary32 word. -/
def c4096 : EReal := Ideal.ofBits .f32 0x45800000#32

/-- A row divided by its Euclidean length, the length bounded below by `eps`. -/
def nrm (a : Row) : Row := fun d => Ideal.div (a d) (max (Ideal.sqrt (∑ k : Fin 1024, a k * a k)) eps)

/-! ### Row numbers -/

/-- Memory-bank row `1024 * (8 * c + i) + r`. -/
def mrow (c : Fin 2) (i : Fin 8) (r : Fin 1024) : Fin 16384 := ⟨1024 * (8 * c.val + i.val) + r.val, by omega⟩
/-- Row `256 * (4 * c + i) + r` of the first half of the feature rows, as a number below 2048. -/
def hrow (c : Fin 2) (i : Fin 4) (r : Fin 256) : Fin 2048 := ⟨256 * (4 * c.val + i.val) + r.val, by omega⟩
/-- The same row as a feature row. -/
def arow (c : Fin 2) (i : Fin 4) (r : Fin 256) : Fin 4096 := ⟨256 * (4 * c.val + i.val) + r.val, by omega⟩
/-- Its partner, 2048 rows further. -/
def brow (c : Fin 2) (i : Fin 4) (r : Fin 256) : Fin 4096 := ⟨2048 + (256 * (4 * c.val + i.val) + r.val), by omega⟩
/-- Row `n` of the first half as a feature row. -/
def lo (n : Fin 2048) : Fin 4096 := ⟨n.val, by omega⟩
/-- Its partner `n + 2048`. -/
def hi (n : Fin 2048) : Fin 4096 := ⟨n.val + 2048, by omega⟩
/-- A feature row's number modulo 2048. -/
def half (n : Fin 4096) : Fin 2048 := ⟨n.val % 2048, Nat.mod_lt _ (by norm_num)⟩

/-! ### The first total -/

/-- The sum of all scaled memory-bank rows, as two partial sums, each over eight groups of 1024 rows. -/
def msum (mb : Fin 16384 → Row) : Row := fun d =>
  (∑ i : Fin 8, ∑ r : Fin 1024, nrm (mb (mrow 0 i r)) d) + (∑ i : Fin 8, ∑ r : Fin 1024, nrm (mb (mrow 1 i r)) d)

/-- The inner product of scaled row `n` with its scaled partner, over the temperature. -/
def posK (x : Fin 4096 → Row) (n : Fin 2048) : EReal :=
  Ideal.div (∑ k : Fin 1024, nrm (x (lo n)) k * nrm (x (hi n)) k) temp

/-- The inner product of scaled row `n` with the summed memory bank, over the temperature. -/
def negK (x : Fin 4096 → Row) (mb : Fin 16384 → Row) (n : Fin 4096) : EReal :=
  Ideal.div (∑ k : Fin 1024, nrm (x n) k * msum mb k) temp

/-- Minus the softplus, in its overflow-free form. -/
def sp (d : EReal) : EReal := 0 - (max d 0 + Ideal.log1p (Ideal.exp (0 - max d (-d))))

/-- One of the two partial totals: four groups of 256 rows, each row and its partner. -/
def partK (x : Fin 4096 → Row) (mb : Fin 16384 → Row) (c : Fin 2) : EReal :=
  ∑ i : Fin 4, ((∑ r : Fin 256, sp (negK x mb (arow c i r) - posK x (hrow c i r)))
    + (∑ r : Fin 256, sp (negK x mb (brow c i r) - posK x (hrow c i r))))

/-- The first total: minus the sum of the two partial totals, over the number of rows. -/
def kernelTotal (x : Fin 4096 → Row) (mb : Fin 16384 → Row) : EReal :=
  Ideal.div (-(partK x mb 0 + partK x mb 1)) c4096

/-! ### The second total -/

/-- The sum over all memory-bank rows of the inner products with scaled row `n`, over the temperature. -/
def negR (x : Fin 4096 → Row) (mb : Fin 16384 → Row) (n : Fin 4096) : EReal :=
  Ideal.div (∑ m : Fin 16384, ∑ k : Fin 1024, nrm (x n) k * nrm (mb m) k) temp

/-- The positive logit of row `n`: that of row `n mod 2048`. -/
def posR (x : Fin 4096 → Row) (n : Fin 4096) : EReal := posK x (half n)

/-- The first component of the log-softmax of the pair `(p, q)`. -/
def lsm0 (p q : EReal) : EReal :=
  (p - max p q) - Ideal.log (Ideal.exp (p - max p q) + Ideal.exp (q - max p q))

/-- The second total: minus the mean of the first log-softmax components. -/
def refTotal (x : Fin 4096 → Row) (mb : Fin 16384 → Row) : EReal :=
  -(Ideal.div (∑ n : Fin 4096, lsm0 (posR x n) (negR x mb n)) c4096)

end

end Cert.Spec
-- ==== Proof.LibLayout3.lean ====
/-
  Layout operations and one-axis reductions read at an index written by coordinates (a general lemma file: it imports
  only the library and is generic in the extents).

  A tile of the kernel works with three index sets: (row, column) pairs, (row, column, coordinate) triples for the
  distances, and (row, positive, negative) triples for the mining step. The programs move between them by inserting a
  unit axis and broadcasting along it, and come back by reducing over the last axis. Each lemma here says which entry of
  the operand one entry of the result reads, with every index spelt by its coordinates.
-/
import Idealize.ShloMosaic.Lib.ValueLayout
import Idealize.ShloMosaic.PureOps.Ideal.Laws

open scoped BigOperators

namespace Cert.LibLayout3

open Idealize.ShloMosaic Idealize.ShloMosaic.ValueIdx

section Casts
variable {α : Type}

/-- An [a, c] array viewed as [a, 1, c] reads, at (r, u, d), the operand at (r, d). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (d : Fin c) :
    shapeCast ⟨3, ![a, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- An [a, b] array viewed as [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_three, Shape.rowMajor_val_two]
    show r.val * b + j.val = (r.val * b + j.val) * 1 + u.val
    rw [hu, Nat.mul_one, Nat.add_zero])

/-- A vector [a] viewed as the column [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Casts

section Broadcasts
variable {α : Type}

/-- A column [a, 1] broadcast to [a, b] reads, at (r, j), the column at r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- An [a, 1, c] array broadcast along its middle axis to [a, b, c] reads, at (r, j, d), the operand at (r, 0, d). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (j : Fin b) (d : Fin c) :
    broadcastTo ⟨3, ![a, b, c]⟩ v h (ix3 r j d) = v (ix3 r (0 : Fin 1) d) := by
  refine broadcastTo_apply v h (ix3 r j d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A [1, b, c] array broadcast along its first axis to [a, b, c] reads, at (r, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (j : Fin b) (d : Fin c) :
    broadcastTo ⟨3, ![a, b, c]⟩ v h (ix3 r j d) = v (ix3 (0 : Fin 1) j d) := by
  refine broadcastTo_apply v h (ix3 r j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- An [a, b, 1] array broadcast along its last axis to [a, b, c] reads, at (r, j, k), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (k : Fin c) :
    broadcastTo ⟨3, ![a, b, c]⟩ v h (ix3 r j k) = v (ix3 r j (0 : Fin 1)) := by
  refine broadcastTo_apply v h (ix3 r j k) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Broadcasts

/-! ## The index a one-axis reduction inserts, by coordinates -/

section Lift

/-- Over [a, b, c] reduced along its last axis, the index above (r, j) with coordinate d is (r, j, d). -/
theorem lift_abc_last {a b c : ℕ} (h : Shape.Reduces ⟨3, ![a, b, c]⟩ [2] ⟨2, ![a, b]⟩) (r : Fin a) (j : Fin b) (d : Fin c) :
    h.lift (ix2 r j) d = ix3 r j d := by
  funext x
  match x with
  | ⟨0, _⟩ => exact Fin.ext rfl
  | ⟨1, _⟩ => exact Fin.ext rfl
  | ⟨2, _⟩ => exact Fin.ext rfl

/-- Over [a, b] reduced along its columns, the index above r with coordinate j is (r, j). -/
theorem lift_ab_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- Over the column [a, 1] reduced along its rows, the index above u with coordinate r is (r, u). -/
theorem lift_a1_first {a : ℕ} (h : Shape.Reduces ⟨2, ![a, 1]⟩ [0] ⟨1, ![1]⟩) (u : Fin 1) (r : Fin a) :
    h.lift (ix1 u) r = ix2 r u := by
  funext x
  match x with
  | ⟨0, _⟩ => exact Fin.ext rfl
  | ⟨1, _⟩ => exact Fin.ext rfl

end Lift

/-! ## One-axis reductions over the extended reals

The sum of a lane is a plain finite sum; a maximum or a minimum is the fold of max or min over the lane's
coordinates, started from the value of the accumulator's word. The reduced axis is written as an element of a literal
Fin type (Fin 2 or Fin 3), the rank of the array being reduced. -/

section Reductions

/-- A minimum over one axis is the fold of min over that axis's coordinates, from the accumulator's value. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the last axis of an [a, b, c] array, at (r, j). -/
theorem sum_abc_last {a b c : ℕ} (src : FVec Ideal ⟨3, ![a, b, c]⟩ .f32)
    (h : Shape.Reduces ⟨3, ![a, b, c]⟩ [2] ⟨2, ![a, b]⟩) (hacc : (0x00000000#32 : BitVec 32) = 0x00000000#32)
    (r : Fin a) (j : Fin b) :
    multiReduction (s := ⟨3, ![a, b, c]⟩) .add ([2] : List (Fin 3)) ⟨2, ![a, b]⟩ src 0x00000000#32 h (.inl rfl) hacc (ix2 r j)
      = ∑ d : Fin c, src (ix3 r j d) :=
  (Ideal.multiReduction_add_single src 0x00000000#32 h (.inl rfl) hacc (ix2 r j)).trans
    (Finset.sum_congr rfl fun d _ => congrArg src (lift_abc_last h r j d))

/-- The sum over the columns of an [a, b] array, at r. -/
theorem sum_ab_last {a b : ℕ} (src : FVec Ideal ⟨2, ![a, b]⟩ .f32)
    (h : Shape.Reduces ⟨2, ![a, b]⟩ [1] ⟨1, ![a]⟩) (hacc : (0x00000000#32 : BitVec 32) = 0x00000000#32) (r : Fin a) :
    multiReduction (s := ⟨2, ![a, b]⟩) .add ([1] : List (Fin 2)) ⟨1, ![a]⟩ src 0x00000000#32 h (.inl rfl) hacc (ix1 r)
      = ∑ j : Fin b, src (ix2 r j) :=
  (Ideal.multiReduction_add_single src 0x00000000#32 h (.inl rfl) hacc (ix1 r)).trans
    (Finset.sum_congr rfl fun j _ => congrArg src (lift_ab_last h r j))

/-- The sum over the rows of a column [a, 1], at its one index. -/
theorem sum_a1_first {a : ℕ} (src : FVec Ideal ⟨2, ![a, 1]⟩ .f32)
    (h : Shape.Reduces ⟨2, ![a, 1]⟩ [0] ⟨1, ![1]⟩) (hacc : (0x00000000#32 : BitVec 32) = 0x00000000#32) (u : Fin 1) :
    multiReduction (s := ⟨2, ![a, 1]⟩) .add ([0] : List (Fin 2)) ⟨1, ![1]⟩ src 0x00000000#32 h (.inl rfl) hacc (ix1 u)
      = ∑ r : Fin a, src (ix2 r u) :=
  (Ideal.multiReduction_add_single src 0x00000000#32 h (.inl rfl) hacc (ix1 u)).trans
    (Finset.sum_congr rfl fun r _ => congrArg src (lift_a1_first h u r))

/-- The maximum over the columns of an [a, b] array, at r. -/
theorem max_ab_last {a b : ℕ} (src : FVec Ideal ⟨2, ![a, b]⟩ .f32)
    (h : Shape.Reduces ⟨2, ![a, b]⟩ [1] ⟨1, ![a]⟩) (hacc : (0xFF800000#32 : BitVec 32) = 0xFF800000#32) (r : Fin a) :
    multiReduction (s := ⟨2, ![a, b]⟩) .maximumf ([1] : List (Fin 2)) ⟨1, ![a]⟩ src 0xFF800000#32 h (.inl rfl) hacc (ix1 r)
      = (Finset.univ : Finset (Fin b)).fold max (Ideal.ofBits .f32 0xFF800000#32) (fun j => src (ix2 r j)) :=
  (Ideal.multiReduction_maximumf_single src 0xFF800000#32 h (.inl rfl) hacc (ix1 r)).trans
    (Finset.fold_congr fun j _ => congrArg src (lift_ab_last h r j))

/-- The minimum over the columns of an [a, b] array, at r. -/
theorem min_ab_last {a b : ℕ} (src : FVec Ideal ⟨2, ![a, b]⟩ .f32)
    (h : Shape.Reduces ⟨2, ![a, b]⟩ [1] ⟨1, ![a]⟩) (hacc : (0x7F800000#32 : BitVec 32) = 0x7F800000#32) (r : Fin a) :
    multiReduction (s := ⟨2, ![a, b]⟩) .minimumf ([1] : List (Fin 2)) ⟨1, ![a]⟩ src 0x7F800000#32 h (.inl rfl) hacc (ix1 r)
      = (Finset.univ : Finset (Fin b)).fold min (Ideal.ofBits .f32 0x7F800000#32) (fun j => src (ix2 r j)) :=
  (multiReduction_minimumf_single src 0x7F800000#32 h (.inl rfl) hacc (ix1 r)).trans
    (Finset.fold_congr fun j _ => congrArg src (lift_ab_last h r j))

/-- The minimum over the last axis of an [a, b, c] array, at (r, j). -/
theorem min_abc_last {a b c : ℕ} (src : FVec Ideal ⟨3, ![a, b, c]⟩ .f32)
    (h : Shape.Reduces ⟨3, ![a, b, c]⟩ [2] ⟨2, ![a, b]⟩) (hacc : (0x7F800000#32 : BitVec 32) = 0x7F800000#32)
    (r : Fin a) (j : Fin b) :
    multiReduction (s := ⟨3, ![a, b, c]⟩) .minimumf ([2] : List (Fin 3)) ⟨2, ![a, b]⟩ src 0x7F800000#32 h (.inl rfl) hacc (ix2 r j)
      = (Finset.univ : Finset (Fin c)).fold min (Ideal.ofBits .f32 0x7F800000#32) (fun k => src (ix3 r j k)) :=
  (multiReduction_minimumf_single src 0x7F800000#32 h (.inl rfl) hacc (ix2 r j)).trans
    (Finset.fold_congr fun k _ => congrArg src (lift_abc_last h r j k))

end Reductions

end Cert.LibLayout3
-- ==== Proof.Pay1Value.lean ====
import proofs.«155385_j62319975465315_2_alg».proof.Proof.Gen.KernelIdeal.Skeleton
import proofs.«155385_j62319975465315_2_alg».proof.Proof.Spec
import proofs.«155385_j62319975465315_2_alg».proof.Proof.LibLayout3
import Idealize.ShloMosaic.Lib.ValueIdx
import Idealize.ShloMosaic.Lib.ValueLayout
import Idealize.ShloMosaic.Lib.Pipeline.Value
import Idealize.ShloMosaic.PureOps.Ideal.Laws

/-!
# The second stage's arithmetic, read entry by entry

One step of the second stage takes a block `x0` of 256 feature rows, the block `x1` of their 256
partner rows, the summed memory bank `x2` (one row of 1024 entries) and the running total `prev`
(one number, repeated over 128 lanes). It scales every row of `x0` and `x1` to unit length, takes
per row the three inner products over the temperature

* `pos r`  — scaled row `r` of `x0` with scaled row `r` of `x1`,
* `negA r` — scaled row `r` of `x0` with the summed memory bank,
* `negB r` — scaled row `r` of `x1` with the summed memory bank,

and adds `∑ r, sp (negA r - pos r) + ∑ r, sp (negB r - pos r)` to every lane of `prev`, where
`sp d = 0 - (max d 0 + log1p (exp (0 - |d|)))`.

This file proves exactly that, lane by lane, for the pure terms the step's stores are made of.
The only non-pointwise operations met are: a sum along the 1024 columns of a [256, 1024] array, the
view of a vector of 256 numbers as a column [256, 1], the repetition of a column or of a row over
a [256, 1024] array, the view of a column as [1, 256, 1], and the sum of ALL entries of such an
array (a sum over 256 rows, once the two unit axes are named).
-/

open scoped BigOperators

noncomputable section

namespace Cert.KernelIdeal.Pay1

open Cert.KernelIdeal Cert.KernelIdeal.Gen Idealize.ShloMosaic Idealize.ShloMosaic.ValueIdx Cert.LibLayout3

/-! ## The quantities of one step -/

/-- Row `r` of a block of 256 rows. -/
def rowOf (x : Vec Ideal S256x1024 .f32) (r : Fin 256) : Cert.Spec.Row := fun k => x (ix2 r k)

/-- The one row of the summed memory bank. -/
def msRow (x2 : Vec Ideal S1x1024 .f32) : Cert.Spec.Row := fun k => x2 (ix2 (0 : Fin 1) k)

/-- Scaled row `r` of `x0` against scaled row `r` of `x1`, over the temperature. -/
def pos (x0 x1 : Vec Ideal S256x1024 .f32) (r : Fin 256) : EReal :=
  Ideal.div (∑ k : Fin 1024, Cert.Spec.nrm (rowOf x0 r) k * Cert.Spec.nrm (rowOf x1 r) k) Cert.Spec.temp

/-- Scaled row `r` of `x0` against the summed memory bank, over the temperature. -/
def negA (x0 : Vec Ideal S256x1024 .f32) (x2 : Vec Ideal S1x1024 .f32) (r : Fin 256) : EReal :=
  Ideal.div (∑ k : Fin 1024, Cert.Spec.nrm (rowOf x0 r) k * msRow x2 k) Cert.Spec.temp

/-- Scaled row `r` of `x1` against the summed memory bank, over the temperature. -/
def negB (x1 : Vec Ideal S256x1024 .f32) (x2 : Vec Ideal S1x1024 .f32) (r : Fin 256) : EReal :=
  Ideal.div (∑ k : Fin 1024, Cert.Spec.nrm (rowOf x1 r) k * msRow x2 k) Cert.Spec.temp

/-! ## Scaling a row to unit length -/

/-- Entry `(r, k)` of the block with every row scaled to unit length. The divisor is the sum of
squares along row `r`, viewed as a column, square-rooted, bounded below by `eps` and repeated along the
row: `max (sqrt (∑ k', x r k' * x r k')) eps`. -/
theorem pay3_apply (x : Vec Ideal S256x1024 .f32) (r : Fin 256) (k : Fin 1024) :
    k1_pay3 (F := Ideal) x (ix2 r k) = Cert.Spec.nrm (rowOf x r) k := by
  unfold k1_pay3
  refine congrArg (Ideal.div (x (ix2 r k))) ?_
  refine (broadcastTo_a1_ab_apply _ _ r k).trans ?_
  refine congrArg (fun z => max (Ideal.sqrt z) Cert.Spec.eps) ?_
  refine (shapeCast_a_a1_apply _ _ r 0).trans ?_
  exact sum_ab_last _ _ _ r

/-- The same for the block of partner rows. -/
theorem pay4_apply (x : Vec Ideal S256x1024 .f32) (r : Fin 256) (k : Fin 1024) :
    k1_pay4 (F := Ideal) x (ix2 r k) = Cert.Spec.nrm (rowOf x r) k := by
  unfold k1_pay4
  refine congrArg (Ideal.div (x (ix2 r k))) ?_
  refine (broadcastTo_a1_ab_apply _ _ r k).trans ?_
  refine congrArg (fun z => max (Ideal.sqrt z) Cert.Spec.eps) ?_
  refine (shapeCast_a_a1_apply _ _ r 0).trans ?_
  exact sum_ab_last _ _ _ r

/-! ## The three inner products -/

/-- The summed memory bank passes through a view to its own shape unchanged. -/
theorem pay5_eq (x2 : Vec Ideal S1x1024 .f32) : k1_pay5 (F := Ideal) x2 = x2 := by
  unfold k1_pay5
  exact shapeCast_self _ _

/-- The summed memory bank repeated over the 256 rows reads, at `(r, k)`, its entry `k`. -/
theorem msBroadcast_apply (x2 : Vec Ideal S1x1024 .f32) (r : Fin 256) (k : Fin 1024) :
    broadcastTo S256x1024 (k1_pay5 (F := Ideal) x2) broadcasts_S1x1024_S256x1024 (ix2 r k) = msRow x2 k := by
  rw [pay5_eq]
  exact broadcastTo_1b_ab_apply _ _ r k

/-- The first inner product over the temperature, as a column. -/
theorem pay6_apply (x0 x1 : Vec Ideal S256x1024 .f32) (r : Fin 256) (u : Fin 1) :
    k1_pay6 (F := Ideal) x0 x1 (ix2 r u) = pos x0 x1 r := by
  unfold k1_pay6
  refine congrArg (fun z => Ideal.div z Cert.Spec.temp) ?_
  refine (shapeCast_a_a1_apply _ _ r u).trans ?_
  refine (sum_ab_last _ _ _ r).trans ?_
  refine Finset.sum_congr rfl fun k _ => ?_
  exact congrArg₂ (· * ·) (pay3_apply x0 r k) (pay4_apply x1 r k)

/-- The second inner product over the temperature, as a column. -/
theorem pay7_apply (x0 : Vec Ideal S256x1024 .f32) (x2 : Vec Ideal S1x1024 .f32) (r : Fin 256) (u : Fin 1) :
    k1_pay7 (F := Ideal) x0 x2 (ix2 r u) = negA x0 x2 r := by
  unfold k1_pay7
  refine congrArg (fun z => Ideal.div z Cert.Spec.temp) ?_
  refine (shapeCast_a_a1_apply _ _ r u).trans ?_
  refine (sum_ab_last _ _ _ r).trans ?_
  refine Finset.sum_congr rfl fun k _ => ?_
  exact congrArg₂ (· * ·) (pay3_apply x0 r k) (msBroadcast_apply x2 r k)

/-- The third inner product, not yet divided, as a column. -/
theorem pay8_apply (x1 : Vec Ideal S256x1024 .f32) (x2 : Vec Ideal S1x1024 .f32) (r : Fin 256) (u : Fin 1) :
    k1_pay8 (F := Ideal) x1 x2 (ix2 r u) = ∑ k : Fin 1024, Cert.Spec.nrm (rowOf x1 r) k * msRow x2 k := by
  unfold k1_pay8
  refine (shapeCast_a_a1_apply _ _ r u).trans ?_
  refine (sum_ab_last _ _ _ r).trans ?_
  refine Finset.sum_congr rfl fun k _ => ?_
  exact congrArg₂ (· * ·) (pay4_apply x1 r k) (msBroadcast_apply x2 r k)

/-- The temperature, as a column. -/
theorem pay9_apply (i : S256x1.Idx) : k1_pay9 (F := Ideal) i = Cert.Spec.temp := rfl

/-- The starting total is zero in every lane. -/
theorem pay2_apply (j : S1x1x128.Idx) : k1_pay2 (F := Ideal) j = 0 := by
  unfold k1_pay2
  exact Ideal.ofBits_zero_f32

/-! ## The sum of a column -/

section Column
variable {α : Type}

/-- The entries of a [1, a, 1] array are numbered by the middle coordinate alone. -/
def idxEquiv1a1 {a : ℕ} : Fin a ≃ (⟨3, ![1, a, 1]⟩ : Shape).Idx where
  toFun r := ix3 (0 : Fin 1) r (0 : Fin 1)
  invFun i := i 1
  left_inv _ := rfl
  right_inv i := by
    funext x
    match x with
    | ⟨0, _⟩ =>
      have h : (i 0).val < 1 := (i 0).isLt
      exact Fin.ext (show 0 = (i 0).val by omega)
    | ⟨1, _⟩ => rfl
    | ⟨2, _⟩ =>
      have h : (i 2).val < 1 := (i 2).isLt
      exact Fin.ext (show 0 = (i 2).val by omega)

/-- So a sum over all entries of a [1, a, 1] array is a sum over the middle coordinate. -/
theorem sum_idx1a1 {M : Type*} [AddCommMonoid M] {a : ℕ} (f : (⟨3, ![1, a, 1]⟩ : Shape).Idx → M) :
    ∑ i, f i = ∑ r : Fin a, f (ix3 (0 : Fin 1) r (0 : Fin 1)) :=
  (Equiv.sum_comp idxEquiv1a1 f).symm

/-- A one-entry vector viewed as [1, 1, 1] reads, at its one index, that entry. -/
theorem shapeCast_1_111_apply (x : (⟨1, ![1]⟩ : Shape).Idx → α)
    (h : (⟨1, ![1]⟩ : Shape).ShapeCasts ⟨3, ![1, 1, 1]⟩) (j : (⟨3, ![1, 1, 1]⟩ : Shape).Idx) :
    shapeCast ⟨3, ![1, 1, 1]⟩ x h j = x (ix1 (0 : Fin 1)) :=
  shapeCast_apply x h j _ (by
    have h0 : (j 0).val < 1 := (j 0).isLt
    have h1 : (j 1).val < 1 := (j 1).isLt
    have h2 : (j 2).val < 1 := (j 2).isLt
    rw [Shape.rowMajor_val_three, Shape.rowMajor_val_one]
    show 0 = ((j 0).val * 1 + (j 1).val) * 1 + (j 2).val
    omega)

end Column

/-- A column of 256 numbers, viewed as [1, 256, 1], summed over its two last axes, viewed as
[1, 1, 1] and read at its one index: the sum of the 256 numbers. -/
theorem colTotal (c : FVec Ideal S256x1 .f32) :
    extractAt ![0, 0, 0]
        (shapeCast S1x1x1
          (multiReduction (F := Ideal) .add [1, 2] S1 (shapeCast S1x256x1 c shapeCasts_S256x1_S1x256x1) 0x00000000#32
            reduces_S1x256x1_S1 (.inl rfl) rfl)
          shapeCasts_S1_S1x1x1)
        inpos_S1x1x1_p0_0_0
      = ∑ r : Fin 256, c (ix2 r (0 : Fin 1)) := by
  unfold extractAt
  refine (shapeCast_1_111_apply _ _ _).trans ?_
  refine (Ideal.multiReduction_add_total _ _ _ (fun b => by match b with | ⟨0, _⟩ => rfl) _ _ _).trans ?_
  refine (sum_idx1a1 _).trans ?_
  exact Finset.sum_congr rfl fun r _ => shapeCast_ab_1ab_apply c _ 0 r 0

/-! ## Minus the softplus, as a column -/

/-- The column `0 - (max d 0 + log1p (exp (0 - |d|)))` reads, at every index, `sp` of the entry of `d`. -/
theorem spCol_apply (d : FVec Ideal S256x1 .f32) (i : S256x1.Idx) :
    subf (broadcast S256x1 (Scalar.ofBits (F := Ideal) .f32 0x00000000#32))
        (addf (maximumf d (broadcast S256x1 (Scalar.ofBits (F := Ideal) .f32 0x00000000#32)))
          (log1p (exp (subf (broadcast S256x1 (Scalar.ofBits (F := Ideal) .f32 0x00000000#32)) (absf d))))) i
      = Cert.Spec.sp (d i) := by
  show Ideal.ofBits .f32 0x00000000#32
        - (max (d i) (Ideal.ofBits .f32 0x00000000#32)
            + Ideal.log1p (Ideal.exp (Ideal.ofBits .f32 0x00000000#32 - max (d i) (-(d i))))) = _
  rw [Ideal.ofBits_zero_f32]
  rfl

/-! ## One step's update of the running total -/

/-- The update over any four columns: every lane of the running total gains the two column sums. -/
theorem pay1_cols (v27 v33 v37 v38 : FVec Ideal S256x1 .f32) (prev : Vec Ideal S1x1x128 .f32) (j : S1x1x128.Idx) :
    k1_pay1 (F := Ideal) v27 v33 v37 v38 prev j
      = prev j + ((∑ r : Fin 256, Cert.Spec.sp (v33 (ix2 r (0 : Fin 1)) - v27 (ix2 r (0 : Fin 1))))
          + (∑ r : Fin 256, Cert.Spec.sp
              (Ideal.div (v37 (ix2 r (0 : Fin 1))) (v38 (ix2 r (0 : Fin 1))) - v27 (ix2 r (0 : Fin 1))))) := by
  unfold k1_pay1
  refine (addf_apply _ _ j).trans ?_
  refine congrArg₂ (· + ·) (congrFun (shapeCast_self prev _) j) ?_
  refine (broadcast_apply _ j).trans ?_
  refine congrArg₂ (· + ·) ?_ ?_
  · exact (colTotal _).trans (Finset.sum_congr rfl fun r _ => spCol_apply _ _)
  · exact (colTotal _).trans (Finset.sum_congr rfl fun r _ => spCol_apply _ _)

/-- One step of the second stage: every lane of the running total gains, over the step's 256 rows,
the sum of `sp (negA - pos)` and the sum of `sp (negB - pos)`. -/
theorem pay1_apply (x0 x1 : Vec Ideal S256x1024 .f32) (x2 : Vec Ideal S1x1024 .f32) (prev : Vec Ideal S1x1x128 .f32)
    (j : S1x1x128.Idx) :
    k1_pay1 (k1_pay6 x0 x1) (k1_pay7 x0 x2) (k1_pay8 x1 x2) (k1_pay9 (F := Ideal)) prev j
      = prev j + ((∑ r : Fin 256, Cert.Spec.sp (negA x0 x2 r - pos x0 x1 r))
          + (∑ r : Fin 256, Cert.Spec.sp (negB x1 x2 r - pos x0 x1 r))) := by
  rw [pay1_cols]
  refine congrArg (fun z => prev j + z) (congrArg₂ (· + ·) ?_ ?_)
  · refine Finset.sum_congr rfl fun r _ => ?_
    rw [pay7_apply, pay6_apply]
  · refine Finset.sum_congr rfl fun r _ => ?_
    rw [pay8_apply, pay9_apply, pay6_apply]
    rfl

end Cert.KernelIdeal.Pay1
-- ==== Proof.SpecSums.lean ====
import proofs.«155385_j62319975465315_2_alg».proof.Proof.Spec

/-!
# Rearranging the sums over rows

The 16384 memory-bank rows are the rows `1024 * (8 * c + i) + r`, and the 4096 feature rows are
the rows `256 * (4 * c + i) + r` together with their partners 2048 rows further.  These are
statements about finite sums in any commutative monoid, so they apply to the extended reals
directly.  Also: the coercion from the reals commutes with finite sums.
-/

namespace Cert.Spec

open scoped BigOperators

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section
variable {M : Type*} [AddCommMonoid M]

/-- `(c, i, r) ↦ 1024 * (8 * c + i) + r` numbers the memory-bank rows once each. -/
theorem mrow_bij : Function.Bijective (fun p : Fin 2 × Fin 8 × Fin 1024 => mrow p.1 p.2.1 p.2.2) := by
  constructor
  · rintro ⟨c, i, r⟩ ⟨c', i', r'⟩ h
    simp only [mrow, Fin.mk.injEq] at h
    refine Prod.ext (Fin.ext ?_) (Prod.ext (Fin.ext ?_) (Fin.ext ?_)) <;> simp only <;> omega
  · intro m
    refine ⟨(⟨m.val / 8192, by omega⟩, ⟨(m.val / 1024) % 8, by omega⟩, ⟨m.val % 1024, by omega⟩), ?_⟩
    apply Fin.ext
    simp only [mrow]
    omega

/-- The two partial sums over eight groups of 1024 rows make up the sum over all memory-bank rows. -/
theorem sum_mrow (f : Fin 16384 → M) :
    (∑ i : Fin 8, ∑ r : Fin 1024, f (mrow 0 i r)) + (∑ i : Fin 8, ∑ r : Fin 1024, f (mrow 1 i r)) = ∑ m, f m := by
  rw [← Fintype.sum_bijective _ mrow_bij (fun p => f (mrow p.1 p.2.1 p.2.2)) f (fun _ => rfl)]
  rw [Fintype.sum_prod_type, Fin.sum_univ_two]
  simp only [Fintype.sum_prod_type]

/-- `(c, i, r) ↦ 256 * (4 * c + i) + r` numbers the first 2048 rows once each. -/
theorem hrow_bij : Function.Bijective (fun p : Fin 2 × Fin 4 × Fin 256 => hrow p.1 p.2.1 p.2.2) := by
  constructor
  · rintro ⟨c, i, r⟩ ⟨c', i', r'⟩ h
    simp only [hrow, Fin.mk.injEq] at h
    refine Prod.ext (Fin.ext ?_) (Prod.ext (Fin.ext ?_) (Fin.ext ?_)) <;> simp only <;> omega
  · intro m
    refine ⟨(⟨m.val / 1024, by omega⟩, ⟨(m.val / 256) % 4, by omega⟩, ⟨m.val % 256, by omega⟩), ?_⟩
    apply Fin.ext
    simp only [hrow]
    omega

theorem sum_hrow (g : Fin 2048 → M) :
    ∑ c : Fin 2, ∑ i : Fin 4, ∑ r : Fin 256, g (hrow c i r) = ∑ n, g n := by
  rw [← Fintype.sum_bijective _ hrow_bij (fun p => g (hrow p.1 p.2.1 p.2.2)) g (fun _ => rfl)]
  simp only [Fintype.sum_prod_type]

/-- A feature row is either one of the first 2048 rows or the partner of one. -/
theorem lohi_bij : Function.Bijective (Sum.elim lo hi : Fin 2048 ⊕ Fin 2048 → Fin 4096) := by
  constructor
  · rintro (a | a) (b | b) h <;> simp only [Sum.elim_inl, Sum.elim_inr, lo, hi, Fin.mk.injEq] at h
    · exact congrArg _ (Fin.ext h)
    · omega
    · omega
    · exact congrArg _ (Fin.ext (by omega))
  · intro n
    by_cases h : n.val < 2048
    · exact ⟨Sum.inl ⟨n.val, h⟩, rfl⟩
    · exact ⟨Sum.inr ⟨n.val - 2048, by omega⟩, Fin.ext (by simp only [Sum.elim_inr, hi]; omega)⟩

theorem sum_lohi (f : Fin 4096 → M) : (∑ n, f (lo n)) + (∑ n, f (hi n)) = ∑ n, f n := by
  rw [← Fintype.sum_bijective _ lohi_bij (fun p => f (Sum.elim lo hi p)) f (fun _ => rfl)]
  rw [Fintype.sum_sum_type]
  rfl

theorem lo_hrow (c : Fin 2) (i : Fin 4) (r : Fin 256) : lo (hrow c i r) = arow c i r := rfl

theorem hi_hrow (c : Fin 2) (i : Fin 4) (r : Fin 256) : hi (hrow c i r) = brow c i r :=
  Fin.ext (by simp only [hi, hrow, brow]; omega)

theorem half_arow (c : Fin 2) (i : Fin 4) (r : Fin 256) : half (arow c i r) = hrow c i r :=
  Fin.ext (by simp only [half, hrow, arow]; omega)

theorem half_brow (c : Fin 2) (i : Fin 4) (r : Fin 256) : half (brow c i r) = hrow c i r :=
  Fin.ext (by simp only [half, hrow, brow]; omega)

/-- The sum over all 4096 rows, arranged as two halves of four groups of 256 rows, each group
    followed by its partners. -/
theorem sum_rows (f : Fin 4096 → M) :
    ∑ c : Fin 2, ∑ i : Fin 4, ((∑ r : Fin 256, f (arow c i r)) + (∑ r : Fin 256, f (brow c i r))) = ∑ n, f n := by
  rw [← sum_lohi f, ← sum_hrow (fun n => f (lo n)), ← sum_hrow (fun n => f (hi n))]
  simp only [Finset.sum_add_distrib, lo_hrow, hi_hrow]

end

end Cert.Spec
-- ==== Proof.Region1Value.lean ====
import proofs.«155385_j62319975465315_2_alg».proof.Proof.Region1Arr
import proofs.«155385_j62319975465315_2_alg».proof.Proof.Pay1Value
import proofs.«155385_j62319975465315_2_alg».proof.Proof.SpecSums

/-!
# The second grid's result over the extended reals

Read with exact arithmetic, row `q` of the second grid's result is, in every lane, the partial total
`partK x mb q` of the plain description: the sum over the four points `4·q + i` of the sweep of the two
sums over the point's 256 rows `r` of `sp (neg − pos)`, once for row `256·(4·q + i) + r` of the features and
once for its partner 2048 rows further.

Three things are put together.  A block read through a window is the array read at the block's rows
(the first window at rows `256·t + r`, the second at `256·(8 + t) + r`, the third the whole row of column
sums).  One step of the body adds the point's two sums to the running row (the payload read at an
index).  And the fold of four such steps from the zero row is the sum of the four terms.
-/

set_option maxRecDepth 16384

open scoped BigOperators

noncomputable section

namespace Cert.KernelIdeal.R1V

open Cert.KernelIdeal Cert.KernelIdeal.Gen Cert.KernelIdeal.R1 Cert.KernelIdeal.Pay1
open Idealize.ShloMosaic Idealize.ShloMosaic.TcCoe Idealize.ShloMosaic.ValueIdx Idealize.SL.Sem

/-! ## The blocks read at an index -/

/-- The first window's block at point `t` is block-row `t`, all columns. -/
theorem lo_index : ∀ t : Fin cfg1.N, win1_0.index t 0 = t.val ∧ win1_0.index t 1 = 0 :=
  (by decide +kernel : ∀ t : Fin grid1.N, win1_0.index t 0 = t.val ∧ win1_0.index t 1 = 0)

/-- The second window's is block-row `8 + t`. -/
theorem hi_index : ∀ t : Fin cfg1.N, win1_1.index t 0 = 8 + t.val ∧ win1_1.index t 1 = 0 :=
  (by decide +kernel : ∀ t : Fin grid1.N, win1_1.index t 0 = 8 + t.val ∧ win1_1.index t 1 = 0)

/-- The third window's is the whole row, at every point. -/
theorem ms_index : ∀ t : Fin cfg1.N, win1_2.index t 0 = 0 ∧ win1_2.index t 1 = 0 :=
  (by decide +kernel : ∀ t : Fin grid1.N, win1_2.index t 0 = 0 ∧ win1_2.index t 1 = 0)

section Blocks
variable {F : FTy → Type} [FloatOps F]

/-- Entry `(r, k)` of the first window's block at point `t` is entry `(256·t + r, k)` of the array. -/
theorem blockLo_apply (c : Dev nD) (X : Buf (Elt F) ((c : Thread nD τ).loc main_arg0)) (t : Fin cfg1.N)
    (r : Fin 256) (k : Fin 1024) (n : Fin 4096) (hn : n.val = 256 * t.val + r.val) :
    blockLo c X t (ix2 r k) = X (ix2 n k) := by
  unfold blockLo
  rw [View.read_apply]
  show X _ = X _
  refine congrArg X (funext fun a => Fin.ext ?_)
  match a with
  | ⟨0, _⟩ => show win1_0.index t 0 * 256 + 1 * r.val = n.val; rw [(lo_index t).1, hn]; omega
  | ⟨1, _⟩ => show win1_0.index t 1 * 1024 + 1 * k.val = k.val; rw [(lo_index t).2]; omega

/-- Entry `(r, k)` of the second window's block at point `t` is entry `(256·(8 + t) + r, k)` of the array. -/
theorem blockHi_apply (c : Dev nD) (X : Buf (Elt F) ((c : Thread nD τ).loc main_arg0)) (t : Fin cfg1.N)
    (r : Fin 256) (k : Fin 1024) (n : Fin 4096) (hn : n.val = 256 * (8 + t.val) + r.val) :
    blockHi c X t (ix2 r k) = X (ix2 n k) := by
  unfold blockHi
  rw [View.read_apply]
  show X _ = X _
  refine congrArg X (funext fun a => Fin.ext ?_)
  match a with
  | ⟨0, _⟩ => show win1_1.index t 0 * 256 + 1 * r.val = n.val; rw [(hi_index t).1, hn]; omega
  | ⟨1, _⟩ => show win1_1.index t 1 * 1024 + 1 * k.val = k.val; rw [(hi_index t).2]; omega

/-- Entry `(0, k)` of the third window's block is entry `(0, k)` of the row of column sums. -/
theorem sumsRow_apply (c : Dev nD) (Ms : Buf (Elt F) ((c : Thread nD τ).loc main_v5)) (t : Fin cfg1.N) (k : Fin 1024) :
    sumsRow c Ms t (ix2 (0 : Fin 1) k) = Ms (ix2 (0 : Fin 1) k) := by
  unfold sumsRow
  rw [View.read_apply]
  show Ms _ = Ms _
  refine congrArg Ms (funext fun a => Fin.ext ?_)
  match a with
  | ⟨0, _⟩ => show win1_2.index t 0 * 1 + 1 * 0 = 0; rw [(ms_index t).1]
  | ⟨1, _⟩ => show win1_2.index t 1 * 1024 + 1 * k.val = k.val; rw [(ms_index t).2]; omega

end Blocks

/-! ## One point's term, and one step of the body -/

/-- What point `n` adds to every lane of the running row (zero for a number that is no point). -/
def term (c : Dev nD) (X : Buf (Elt Ideal) ((c : Thread nD τ).loc main_arg0)) (Ms : Buf (Elt Ideal) ((c : Thread nD τ).loc main_v5))
    (n : ℕ) : EReal :=
  if h : n < cfg1.N then
    (∑ r : Fin 256, Cert.Spec.sp (negA (blockLo c X ⟨n, h⟩) (sumsRow c Ms ⟨n, h⟩) r - pos (blockLo c X ⟨n, h⟩) (blockHi c X ⟨n, h⟩) r))
      + (∑ r : Fin 256, Cert.Spec.sp (negB (blockHi c X ⟨n, h⟩) (sumsRow c Ms ⟨n, h⟩) r - pos (blockLo c X ⟨n, h⟩) (blockHi c X ⟨n, h⟩) r))
  else 0

/-- A later step adds the point's term to every lane. -/
theorem nextAcc_apply (c : Dev nD) (X : Buf (Elt Ideal) ((c : Thread nD τ).loc main_arg0)) (Ms : Buf (Elt Ideal) ((c : Thread nD τ).loc main_v5))
    (n : ℕ) (h : n < cfg1.N) (acc : Vec Ideal S1x1x128 .f32) (j : S1x1x128.Idx) :
    nextAcc c X Ms n h acc j = acc j + term c X Ms n := by
  unfold nextAcc term
  rw [dif_pos h]
  exact pay1_apply _ _ _ _ _

/-- The first step of a sweep adds it to zero. -/
theorem firstAcc_apply (c : Dev nD) (X : Buf (Elt Ideal) ((c : Thread nD τ).loc main_arg0)) (Ms : Buf (Elt Ideal) ((c : Thread nD τ).loc main_v5))
    (n : ℕ) (h : n < cfg1.N) (j : S1x1x128.Idx) :
    firstAcc c X Ms n h j = 0 + term c X Ms n := by
  unfold firstAcc
  rw [nextAcc_apply, pay2_apply]

/-- Row `q` of the result is, in every lane, the sum of the four terms of its sweep. -/
theorem result1_sum (c : Dev nD) (X : Buf (Elt Ideal) ((c : Thread nD τ).loc main_arg0)) (Ms : Buf (Elt Ideal) ((c : Thread nD τ).loc main_v5))
    (q : Fin 2) (l : Fin 128) :
    result1 c X Ms (ix3 q (0 : Fin 1) l) = ∑ i : Fin 4, term c X Ms (4 * q.val + i.val) := by
  have hN : cfg1.N = 8 := N_1
  have hq : q.val < 2 := q.isLt
  rw [result1_apply c X Ms q.val (by omega) (ix3 q (0 : Fin 1) l) rfl l rfl]
  rw [Pipeline.accAt_add_apply (ι := S1x1x128.Idx) (β := EReal) (firstAcc c X Ms) (nextAcc c X Ms) (fun _ => (0 : EReal))
    (fun n _ => term c X Ms n) (4 * q.val) 3
    (fun h i => firstAcc_apply c X Ms _ h i) (fun n h acc i _ _ => nextAcc_apply c X Ms n h acc i) 3 le_rfl _ _]
  rw [zero_add, Finset.sum_range]

/-! ## The point's term in the plain description's words -/

section Rows
variable (c : Dev nD) (X : Buf (Elt Ideal) ((c : Thread nD τ).loc main_arg0)) (Ms : Buf (Elt Ideal) ((c : Thread nD τ).loc main_v5))

/-- Row `r` of the first window's block at point `t` is row `256·t + r` of the features, -/
theorem rowOf_lo (t : Fin cfg1.N) (r : Fin 256) (n : Fin 4096) (hn : n.val = 256 * t.val + r.val) :
    rowOf (blockLo c X t) r = fun k => X (ix2 n k) :=
  funext fun k => blockLo_apply c X t r k n hn

/-- of the second window's block row `256·(8 + t) + r`, -/
theorem rowOf_hi (t : Fin cfg1.N) (r : Fin 256) (n : Fin 4096) (hn : n.val = 256 * (8 + t.val) + r.val) :
    rowOf (blockHi c X t) r = fun k => X (ix2 n k) :=
  funext fun k => blockHi_apply c X t r k n hn

/-- and the third window's block is the row of column sums. -/
theorem msRow_sums (t : Fin cfg1.N) (s : Cert.Spec.Row) (hms : ∀ k : Fin 1024, Ms (ix2 (0 : Fin 1) k) = s k) :
    msRow (sumsRow c Ms t) = s :=
  funext fun k => (sumsRow_apply c Ms t k).trans (hms k)

end Rows

/-- THE SECOND GRID'S RESULT over the extended reals: row `q`, every lane, is the partial total `partK` of the
    feature rows and the memory bank, when the row of column sums read is the memory bank's `msum`. -/
theorem result1_ideal (c : Dev nD) (X : Buf (Elt Ideal) ((c : Thread nD τ).loc main_arg0)) (Ms : Buf (Elt Ideal) ((c : Thread nD τ).loc main_v5))
    (mb : Fin 16384 → Cert.Spec.Row) (hms : ∀ k : Fin 1024, Ms (ix2 (0 : Fin 1) k) = Cert.Spec.msum mb k) (q : Fin 2) (l : Fin 128) :
    result1 c X Ms (ix3 q (0 : Fin 1) l) = Cert.Spec.partK (fun n k => X (ix2 n k)) mb q := by
  have hN : cfg1.N = 8 := N_1
  have hq : q.val < 2 := q.isLt
  rw [result1_sum]
  unfold Cert.Spec.partK
  refine Finset.sum_congr rfl fun i _ => ?_
  have hi : i.val < 4 := i.isLt
  have ht : 4 * q.val + i.val < cfg1.N := by omega
  unfold term
  rw [dif_pos ht]
  have hlo : ∀ r : Fin 256, rowOf (blockLo c X ⟨4 * q.val + i.val, ht⟩) r = fun k => X (ix2 (Cert.Spec.arow q i r) k) :=
    fun r => rowOf_lo c X _ r _ rfl
  have hhi : ∀ r : Fin 256, rowOf (blockHi c X ⟨4 * q.val + i.val, ht⟩) r = fun k => X (ix2 (Cert.Spec.brow q i r) k) :=
    fun r => rowOf_hi c X _ r _ (by show 2048 + (256 * (4 * q.val + i.val) + r.val) = 256 * (8 + (4 * q.val + i.val)) + r.val; omega)
  have hm : msRow (sumsRow c Ms ⟨4 * q.val + i.val, ht⟩) = Cert.Spec.msum mb := msRow_sums c Ms _ _ hms
  have hpos : ∀ r : Fin 256, pos (blockLo c X ⟨4 * q.val + i.val, ht⟩) (blockHi c X ⟨4 * q.val + i.val, ht⟩) r
      = Cert.Spec.posK (fun n k => X (ix2 n k)) (Cert.Spec.hrow q i r) := fun r => by
    unfold pos Cert.Spec.posK
    rw [hlo r, hhi r, Cert.Spec.lo_hrow, Cert.Spec.hi_hrow]
  have hnegA : ∀ r : Fin 256, negA (blockLo c X ⟨4 * q.val + i.val, ht⟩) (sumsRow c Ms ⟨4 * q.val + i.val, ht⟩) r
      = Cert.Spec.negK (fun n k => X (ix2 n k)) mb (Cert.Spec.arow q i r) := fun r => by
    unfold negA Cert.Spec.negK
    rw [hlo r, hm]
  have hnegB : ∀ r : Fin 256, negB (blockHi c X ⟨4 * q.val + i.val, ht⟩) (sumsRow c Ms ⟨4 * q.val + i.val, ht⟩) r
      = Cert.Spec.negK (fun n k => X (ix2 n k)) mb (Cert.Spec.brow q i r) := fun r => by
    unfold negB Cert.Spec.negK
    rw [hhi r, hm]
  refine congrArg₂ (· + ·) (Finset.sum_congr rfl fun r _ => ?_) (Finset.sum_congr rfl fun r _ => ?_)
  · rw [hnegA r, hpos r]
  · rw [hnegB r, hpos r]

end Cert.KernelIdeal.R1V

end
-- ==== Proof.Region0Value.lean ====
import proofs.«155385_j62319975465315_2_alg».proof.Proof.Region0
import proofs.«155385_j62319975465315_2_alg».proof.Proof.Spec
import proofs.«155385_j62319975465315_2_alg».proof.Proof.LibLayout3
import Idealize.ShloMosaic.Lib.ValueIdx
import Idealize.ShloMosaic.Lib.ValueLayout
import Idealize.ShloMosaic.Lib.Pipeline.Value
import Idealize.ShloMosaic.PureOps.Ideal.Laws

/-!
# The first stage's result, read entry by entry

The first stage sweeps the 16384 memory-bank rows in 16 blocks of 1024 rows. Block `t = 8 q + i`
(`q < 2`, `i < 8`) adds to row `q` of a 2 × 1 × 1024 result the column sums of the block after every
one of its rows has been scaled to unit length; the row starts from zero at `i = 0`.

This file reads that result at row `q`, column `d`, over the extended reals:

  `∑ i < 8, ∑ r < 1024, nrm (memory-bank row 1024 (8 q + i) + r) d`.

Three steps: what one block adds to the running row (a pure statement about the step's arithmetic);
which memory-bank entry a block's entry `(r, k)` is (row `1024 t + r`, column `k`); and the eight
additions of a sweep put together.
-/

open scoped BigOperators

noncomputable section

namespace Cert.KernelIdeal.R0V

open Cert.KernelIdeal Cert.KernelIdeal.Gen Idealize.ShloMosaic Idealize.ShloMosaic.TcCoe Idealize.ShloMosaic.ValueIdx Cert.LibLayout3

/-! ## A sum down the rows of a matrix -/

/-- Over [a, b] reduced along its rows, the index above column `j` with coordinate `r` is `(r, j)`. -/
theorem lift_ab_first {a b : ℕ} (h : Shape.Reduces ⟨2, ![a, b]⟩ [0] ⟨1, ![b]⟩) (j : Fin b) (r : Fin a) :
    h.lift (ix1 j) r = ix2 r j := by
  funext x
  match x with
  | ⟨0, _⟩ => exact Fin.ext rfl
  | ⟨1, _⟩ => exact Fin.ext rfl

/-- The sum over the rows of an [a, b] array, at column `j`. -/
theorem sum_ab_first {a b : ℕ} (src : FVec Ideal ⟨2, ![a, b]⟩ .f32)
    (h : Shape.Reduces ⟨2, ![a, b]⟩ [0] ⟨1, ![b]⟩) (hacc : (0x00000000#32 : BitVec 32) = 0x00000000#32) (j : Fin b) :
    multiReduction (s := ⟨2, ![a, b]⟩) .add ([0] : List (Fin 2)) ⟨1, ![b]⟩ src 0x00000000#32 h (.inl rfl) hacc (ix1 j)
      = ∑ r : Fin a, src (ix2 r j) :=
  (Ideal.multiReduction_add_single src 0x00000000#32 h (.inl rfl) hacc (ix1 j)).trans
    (Finset.sum_congr rfl fun r _ => congrArg src (lift_ab_first h j r))

/-! ## What one block adds to the running row -/

/-- The running row starts from zero. -/
theorem pay0_1_apply (y : S1x1x1024.Idx) : k0_pay1 (F := Ideal) y = 0 := by
  unfold k0_pay1
  exact Ideal.ofBits_zero_f32

/-- One step at column `d`: the running row gains the sum, over the block's 1024 rows, of the rows'
entries at `d` after each row has been scaled to unit length. -/
theorem pay0_2_apply (blk : Vec Ideal S1024x1024 .f32) (acc : Vec Ideal S1x1x1024 .f32) (d : Fin 1024) :
    k0_pay2 (F := Ideal) blk acc (ix3 (0 : Fin 1) (0 : Fin 1) d)
      = acc (ix3 (0 : Fin 1) (0 : Fin 1) d) + ∑ r : Fin 1024, Cert.Spec.nrm (fun k => blk (ix2 r k)) d := by
  unfold k0_pay2
  refine (addf_apply _ _ _).trans ?_
  refine congrArg₂ (· + ·) (congrFun (shapeCast_self acc _) _) ?_
  refine (shapeCast_ab_1ab_apply _ _ 0 0 d).trans ?_
  refine (shapeCast_a_1a_apply _ _ 0 d).trans ?_
  refine (sum_ab_first _ _ _ d).trans ?_
  refine Finset.sum_congr rfl fun r _ => ?_
  refine congrArg (Ideal.div (blk (ix2 r d))) ?_
  refine (broadcastTo_a1_ab_apply _ _ r d).trans ?_
  refine congrArg (fun z => max (Ideal.sqrt z) Cert.Spec.eps) ?_
  refine (shapeCast_a_a1_apply _ _ r 0).trans ?_
  exact sum_ab_last _ _ _ r

/-- The same at any index of the row (its first two coordinates are zero). -/
theorem pay0_2_at (blk : Vec Ideal S1024x1024 .f32) (acc : Vec Ideal S1x1x1024 .f32) (y : S1x1x1024.Idx) :
    k0_pay2 (F := Ideal) blk acc y
      = acc y + ∑ r : Fin 1024, Cert.Spec.nrm (fun k => blk (ix2 r k)) (y 2) := by
  have e : y = ix3 (0 : Fin 1) (0 : Fin 1) (y 2) := R0.rowIdx_eq y
  calc k0_pay2 (F := Ideal) blk acc y
      = k0_pay2 (F := Ideal) blk acc (ix3 (0 : Fin 1) (0 : Fin 1) (y 2)) := congrArg _ e
    _ = acc (ix3 (0 : Fin 1) (0 : Fin 1) (y 2)) + ∑ r : Fin 1024, Cert.Spec.nrm (fun k => blk (ix2 r k)) (y 2) :=
        pay0_2_apply blk acc (y 2)
    _ = acc y + ∑ r : Fin 1024, Cert.Spec.nrm (fun k => blk (ix2 r k)) (y 2) :=
        congrArg (fun z => acc z + ∑ r : Fin 1024, Cert.Spec.nrm (fun k => blk (ix2 r k)) (y 2)) e.symm

/-! ## Which memory-bank entry a block's entry is -/

section Block
variable {F : FTy → Type} [FloatOps F]

/-- Block `t` starts at block-row `t` and at column 0. -/
theorem blockIndex : ∀ t : Fin cfg0.N, win0_0.index t 0 = t.val ∧ win0_0.index t 1 = 0 :=
  (by decide +kernel : ∀ t : Fin grid0.N, win0_0.index t 0 = t.val ∧ win0_0.index t 1 = 0)

/-- Entry `(r, k)` of block `t` is the memory bank's entry at row `1024 t + r`, column `k`. -/
theorem bankBlock_apply (c : Dev nD) (M : Buf (Elt F) ((c : Thread nD τ).loc main_arg1)) (t : Fin cfg0.N)
    (r k : Fin 1024) (n : Fin 16384) (hn : n.val = 1024 * t.val + r.val) :
    R0.bankBlock c M t (ix2 r k) = M (ix2 n k) := by
  unfold R0.bankBlock
  rw [View.read_apply]
  show M (((cfg0.win 0).blk t).view.emb (ix2 r k)) = M (ix2 n k)
  refine congrArg M (funext fun a => Fin.ext ?_)
  match a with
  | ⟨0, _⟩ =>
    show win0_0.index t 0 * 1024 + 1 * r.val = n.val
    rw [(blockIndex t).1, hn]; omega
  | ⟨1, _⟩ =>
    show win0_0.index t 1 * 1024 + 1 * k.val = k.val
    rw [(blockIndex t).2]; omega

end Block

/-! ## A sweep's eight additions -/

section Sweep

/-- What block `n` adds to the running row, at an index of the row (zero for a number past the last block). -/
def addend (c : Dev nD) (M : Buf (Elt Ideal) ((c : Thread nD τ).loc main_arg1)) (n : ℕ) (y : S1x1x1024.Idx) : EReal :=
  if h : n < cfg0.N then ∑ r : Fin 1024, Cert.Spec.nrm (fun k => R0.bankBlock c M ⟨n, h⟩ (ix2 r k)) (y 2) else 0

/-- The first block of a sweep leaves zero plus its addend. -/
theorem firstRow_apply (c : Dev nD) (M : Buf (Elt Ideal) ((c : Thread nD τ).loc main_arg1)) (n : ℕ) (h : n < cfg0.N)
    (y : S1x1x1024.Idx) : R0.firstRow c M n h y = 0 + addend c M n y := by
  unfold R0.firstRow addend
  rw [dif_pos h, pay0_2_at, pay0_1_apply]

/-- Every later block leaves what was there plus its addend. -/
theorem nextRow_apply (c : Dev nD) (M : Buf (Elt Ideal) ((c : Thread nD τ).loc main_arg1)) (n : ℕ) (h : n < cfg0.N)
    (acc : Vec Ideal S1x1x1024 .f32) (y : S1x1x1024.Idx) : R0.nextRow c M n h acc y = acc y + addend c M n y := by
  unfold R0.nextRow addend
  rw [dif_pos h, pay0_2_at]

/-- THE FIRST STAGE'S RESULT at row `q`, column `d`: the sum over the sweep's eight blocks and over each
block's 1024 rows of the scaled memory-bank row's entry at `d`. -/
theorem result0_ideal (c : Dev nD) (M : Buf (Elt Ideal) ((c : Thread nD τ).loc main_arg1)) (q : Fin 2) (d : Fin 1024) :
    R0.result0 c M (ix3 q (0 : Fin 1) d)
      = ∑ i : Fin 8, ∑ r : Fin 1024, Cert.Spec.nrm (fun k => M (ix2 (Cert.Spec.mrow q i r) k)) d := by
  have hN : cfg0.N = 16 := N_0
  have hq : q.val < 2 := q.isLt
  have hq7 : 8 * q.val + 7 < cfg0.N := by omega
  refine (R0.result0_apply c M q.val hq7 (ix3 q (0 : Fin 1) d) rfl d rfl).trans ?_
  refine (Pipeline.accAt_add_apply (ι := S1x1x1024.Idx) (β := EReal) (R0.firstRow c M) (R0.nextRow c M) (fun _ => 0)
      (addend c M) (8 * q.val) 7 (fun h y => firstRow_apply c M _ h y)
      (fun n h acc y _ _ => nextRow_apply c M n h acc y) 7 le_rfl hq7 (ix3 (0 : Fin 1) (0 : Fin 1) d)).trans ?_
  rw [zero_add, Finset.sum_range]
  refine Finset.sum_congr rfl fun i _ => ?_
  have hi : i.val < 8 := i.isLt
  have hlt : 8 * q.val + i.val < cfg0.N := by omega
  unfold addend
  rw [dif_pos hlt]
  refine Finset.sum_congr rfl fun r _ => ?_
  refine congrArg (fun a : Cert.Spec.Row => Cert.Spec.nrm a d) (funext fun k => ?_)
  exact bankBlock_apply c M ⟨8 * q.val + i.val, hlt⟩ r k (Cert.Spec.mrow q i r) rfl

end Sweep

end Cert.KernelIdeal.R0V
-- ==== Proof.HostGlue.lean ====
import proofs.«155385_j62319975465315_2_alg».proof.KernelIdeal
import proofs.«155385_j62319975465315_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

/-!
# The program's host operations, read at an index

Between its two regions the program adds rows 0 and 1 of a `[2, 1, 1024]` array into a `[1, 1024]` array;
after the second region it takes lane 0 of the two rows of a `[2, 1, 128]` array, adds them up from zero, negates
and divides by the constant `4096`.  Read at the extended reals these are `a + b` and `-(0 + a + b) / 4096`.
-/

noncomputable section

namespace Cert.KernelIdeal.Glue

open Cert.KernelIdeal Idealize.ShloMosaic Idealize.ShloMosaic.ValueIdx
open scoped BigOperators

variable [Facts]
open Facts₀ Facts

/-- Row 0 plus row 1 of a `[2, 1, 1024]` array, as a `[1, 1024]` array. -/
def mid (O1 : FVec Ideal S2x1x1024 .f32) : FVec Ideal S1x1024 .f32 :=
  addf (shapeCast S1x1024 (extractStridedSlice S1x1x1024 ![0, 0, 0] O1 slices_S2x1x1024_S1x1x1024_0_0_0) shapeCasts_S1x1x1024_S1x1024)
    (shapeCast S1x1024 (extractStridedSlice S1x1x1024 ![1, 0, 0] O1 slices_S2x1x1024_S1x1x1024_1_0_0) shapeCasts_S1x1x1024_S1x1024)

/-- Row 0 of the array, read at a lane. -/
theorem slice0_apply (O1 : FVec Ideal S2x1x1024 .f32) (k : Fin 1024) :
    extractStridedSlice S1x1x1024 ![0, 0, 0] O1 slices_S2x1x1024_S1x1x1024_0_0_0 (ix3 (0 : Fin 1) (0 : Fin 1) k)
      = O1 (ix3 (0 : Fin 2) (0 : Fin 1) k) :=
  extractStridedSlice_apply _ O1 _ _ _ fun a => match a with
    | ⟨0, _⟩ => by show (0 : Nat) = 0 + 0; rfl
    | ⟨1, _⟩ => by show (0 : Nat) = 0 + 0; rfl
    | ⟨2, _⟩ => by show k.val = 0 + k.val; omega

/-- Row 1 of the array, read at a lane. -/
theorem slice1_apply (O1 : FVec Ideal S2x1x1024 .f32) (k : Fin 1024) :
    extractStridedSlice S1x1x1024 ![1, 0, 0] O1 slices_S2x1x1024_S1x1x1024_1_0_0 (ix3 (0 : Fin 1) (0 : Fin 1) k)
      = O1 (ix3 (1 : Fin 2) (0 : Fin 1) k) :=
  extractStridedSlice_apply _ O1 _ _ _ fun a => match a with
    | ⟨0, _⟩ => by show (1 : Nat) = 1 + 0; rfl
    | ⟨1, _⟩ => by show (0 : Nat) = 0 + 0; rfl
    | ⟨2, _⟩ => by show k.val = 0 + k.val; omega

/-- The sum of the two rows at lane `k`. -/
theorem mid_apply (O1 : FVec Ideal S2x1x1024 .f32) (k : Fin 1024) :
    mid O1 (ix2 (0 : Fin 1) k) = O1 (ix3 (0 : Fin 2) (0 : Fin 1) k) + O1 (ix3 (1 : Fin 2) (0 : Fin 1) k) := by
  unfold mid
  rw [addf_apply, shapeCast_1ab_ab_apply, shapeCast_1ab_ab_apply, slice0_apply, slice1_apply]

/-- Minus the sum of lane 0 of the two rows of a `[2, 1, 128]` array, over `4096`. -/
def tail (O3 : FVec Ideal S2x1x128 .f32) : FVec Ideal S_ .f32 :=
  Host.divf (Host.negf (Host.reduceAdd
      (shapeCast S2 (extractStridedSlice S2x1x1 ![0, 0, 0] O3 slices_S2x1x128_S2x1x1_0_0_0) shapeCasts_S2x1x1_S2)
      (constant (F := Ideal) S_ .f32 0x00000000#32) reducesTo_S2_S_d0 h_S_))
    (constant (F := Ideal) S_ .f32 0x45800000#32)

/-- Lane 0 of row `q`. -/
theorem lane0_apply (O3 : FVec Ideal S2x1x128 .f32) (q : Fin 2) :
    extractStridedSlice S2x1x1 ![0, 0, 0] O3 slices_S2x1x128_S2x1x1_0_0_0 (ix3 q (0 : Fin 1) (0 : Fin 1))
      = O3 (ix3 q (0 : Fin 1) (0 : Fin 128)) :=
  extractStridedSlice_apply _ O3 _ _ _ fun a => match a with
    | ⟨0, _⟩ => by show q.val = 0 + q.val; omega
    | ⟨1, _⟩ => by show (0 : Nat) = 0 + 0; rfl
    | ⟨2, _⟩ => by show (0 : Nat) = 0 + 0; rfl

/-- A `[2, 1, 1]` array read as a `[2]` array. -/
theorem cast2_apply (v : FVec Ideal S2x1x1 .f32) (q : Fin 2) :
    shapeCast S2 v shapeCasts_S2x1x1_S2 (ix1 q) = v (ix3 q (0 : Fin 1) (0 : Fin 1)) :=
  shapeCast_apply v _ _ _ (by
    rw [Shape.rowMajor_val_three, Shape.rowMajor_val_one]
    show (q.val * 1 + 0) * 1 + 0 = q.val
    omega)

/-- A rank-1 index is its one coordinate. -/
def idxEquiv1 {n : Nat} : (⟨1, ![n]⟩ : Shape).Idx ≃ Fin n where
  toFun i := i 0
  invFun q := ix1 q
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ q : Fin n, f (ix1 q) := by
  rw [← Equiv.sum_comp (idxEquiv1 (n := n)).symm f]
  rfl

/-- The host sum starts from the zero word, which denotes `0`. -/
theorem tail_apply (O3 : FVec Ideal S2x1x128 .f32) (i : S_.Idx) :
    tail O3 i = Ideal.div (-(O3 (ix3 (0 : Fin 2) (0 : Fin 1) (0 : Fin 128)) + O3 (ix3 (1 : Fin 2) (0 : Fin 1) (0 : Fin 128))))
      Cert.Spec.c4096 := by
  unfold tail
  rw [hostDivf_apply, constant_apply]
  show Ideal.div (-(Host.reduceAdd (F := Ideal) _ _ reducesTo_S2_S_d0 h_S_ i)) Cert.Spec.c4096 = _
  rw [hostReduceAdd_apply, constant_apply, Ideal.ofBits_zero_f32,
    Ideal.hostReduceAdd_total _ (fun b => b.elim0), zero_add, sum_idx1, Fin.sum_univ_two,
    cast2_apply, cast2_apply, lane0_apply, lane0_apply]

/-- If the second region's result holds the two partial totals (in every lane), the program's result is the first total. -/
theorem tail_eq_kernelTotal (x : Fin 4096 → Cert.Spec.Row) (mb : Fin 16384 → Cert.Spec.Row) (O3 : FVec Ideal S2x1x128 .f32)
    (hO : ∀ (q : Fin 2) (l : Fin 128), O3 (ix3 q (0 : Fin 1) l) = Cert.Spec.partK x mb q) :
    tail O3 = fun _ => Cert.Spec.kernelTotal x mb := by
  funext i
  rw [tail_apply, hO, hO]
  rfl

/-- If the first region's result holds the two partial sums of the scaled memory-bank rows, the array handed to the
    second region is their sum over all rows. -/
theorem mid_eq_msum (mb : Fin 16384 → Cert.Spec.Row) (O1 : FVec Ideal S2x1x1024 .f32)
    (hO1 : ∀ (q : Fin 2) (k : Fin 1024), O1 (ix3 q (0 : Fin 1) k)
      = ∑ i : Fin 8, ∑ r : Fin 1024, Cert.Spec.nrm (mb (Cert.Spec.mrow q i r)) k) :
    ∀ k : Fin 1024, mid O1 (ix2 (0 : Fin 1) k) = Cert.Spec.msum mb k := by
  intro k
  rw [mid_apply, hO1, hO1]
  rfl

/-- The same at an arbitrary index of the `[1, 1024]` array. -/
theorem mid_eq_msum_idx (mb : Fin 16384 → Cert.Spec.Row) (O1 : FVec Ideal S2x1x1024 .f32)
    (hO1 : ∀ (q : Fin 2) (k : Fin 1024), O1 (ix3 q (0 : Fin 1) k)
      = ∑ i : Fin 8, ∑ r : Fin 1024, Cert.Spec.nrm (mb (Cert.Spec.mrow q i r)) k)
    (j : S1x1024.Idx) : mid O1 j = Cert.Spec.msum mb ⟨(j 1).val, idx2_lt1 j⟩ := by
  have hj : j = ix2 (0 : Fin 1) (⟨(j 1).val, idx2_lt1 j⟩ : Fin 1024) := by
    funext d
    match d with
    | ⟨0, _⟩ => exact Fin.ext (by have := idx2_lt0 j; show (j 0).val = 0; omega)
    | ⟨1, _⟩ => rfl
  rw [hj]
  exact mid_eq_msum mb O1 hO1 _

end Cert.KernelIdeal.Glue
-- ==== Proof.KernelValue.lean ====
import proofs.«155385_j62319975465315_2_alg».proof.Proof.Run
import proofs.«155385_j62319975465315_2_alg».proof.Proof.Region1Arr
import proofs.«155385_j62319975465315_2_alg».proof.Proof.Region1Value
import proofs.«155385_j62319975465315_2_alg».proof.Proof.Region0Value
import proofs.«155385_j62319975465315_2_alg».proof.Proof.HostGlue
import Idealize.ShloMosaic.Lib.StableHlo.Run

/-!
# The program's result is the first total of its two argument arrays

The result buffer after the last host operations is `-(a + b) / 4096` of lane 0 of the second region's two result
rows; those rows hold the two partial totals when the row handed to the second region is the summed memory bank; and
that row is the sum of the first region's two result rows, which hold the two partial sums of the scaled memory-bank
rows.
-/

set_option maxRecDepth 16384

noncomputable section

namespace Cert.KernelIdeal.KV

open Cert.KernelIdeal Cert.KernelIdeal.Gen Cert.KernelIdeal.Run
open Idealize.ShloMosaic Idealize.ShloMosaic.TcCoe Idealize.ShloMosaic.ValueIdx Idealize.ShloMosaic.StableHlo
open Idealize.SL.Sem
open scoped BigOperators

variable (m : (ℓ : Loc nD τ sig) → Buf (Elt Ideal) ℓ)

/-- The result buffer at the end, from the second region's result array. -/
theorem W4_v11 (c : Dev nD) : W4 m c main_v11 = Glue.tail (W3 m c main_v6) := by
  show StableHlo.after hostOps2 (W3 m c) (Proc.devRef .tc main_v11) = _
  after_results
  rfl

/-- The row handed to the second region, from the first region's result array. -/
theorem W2_v5 (c : Dev nD) : W2 m c main_v5 = Glue.mid (W1 m c main_v0) := by
  show StableHlo.after hostOps1 (W1 m c) (Proc.devRef .tc main_v5) = _
  after_results
  rfl

/-- The second region's result array as a function of the two arrays it reads. -/
theorem res1_eq (c : Dev nD) : res1 m c = R1.result1 c (E2 m c main_arg0) (E2 m c main_v5) := R1.arr1_3 (E2 m) c

/-- The first region's result array as a function of the memory bank. -/
theorem res0_eq (c : Dev nD) : res0 m c = R0.result0 c (E0 m c main_arg1) := R0.arr0_1 (E0 m) c

/-- The feature array is as launched when the second region reads it. -/
theorem E2_arg0 (c : Dev nD) : E2 m c main_arg0 = m ((c : Thread nD τ).loc main_arg0) :=
  (W2_of m c main_arg0 (by decide)).trans ((W1_of m c main_arg0 (by decide)).trans rfl)

/-- The feature rows of a launch memory. -/
abbrev xOf (c : Dev nD) : Fin 4096 → Cert.Spec.Row := fun n k => m ((c : Thread nD τ).loc main_arg0) (ix2 n k)
/-- The memory-bank rows of a launch memory. -/
abbrev mbOf (c : Dev nD) : Fin 16384 → Cert.Spec.Row := fun r k => m ((c : Thread nD τ).loc main_arg1) (ix2 r k)

/-- The result, given what the first region's result array holds at each index. -/
theorem value_of
    (hR0 : ∀ (c : Dev nD) (M : Buf (Elt Ideal) ((c : Thread nD τ).loc main_arg1)) (q : Fin 2) (d : Fin 1024),
      R0.result0 c M (ix3 q (0 : Fin 1) d)
        = ∑ i : Fin 8, ∑ r : Fin 1024, Cert.Spec.nrm (fun k => M (ix2 (Cert.Spec.mrow q i r) k)) d)
    (c : Dev nD) :
    W4 m c main_v11 = fun _ => Cert.Spec.kernelTotal (xOf m c) (mbOf m c) := by
  have hms : ∀ k : Fin 1024, E2 m c main_v5 (ix2 (0 : Fin 1) k) = Cert.Spec.msum (mbOf m c) k := by
    intro k
    show W2 m c main_v5 (ix2 (0 : Fin 1) k) = _
    rw [W2_v5, W1_v0, res0_eq]
    exact Glue.mid_eq_msum (mbOf m c) _ (fun q d => hR0 c _ q d) k
  rw [W4_v11, W3_v6, res1_eq]
  refine Glue.tail_eq_kernelTotal (xOf m c) (mbOf m c) _ (fun q l => ?_)
  have h := R1V.result1_ideal c (E2 m c main_arg0) (E2 m c main_v5) (mbOf m c) hms q l
  rw [h, E2_arg0]

/-- THE PROGRAM'S RESULT: the first total of the two argument arrays as launched. -/
theorem value (c : Dev nD) :
    W4 m c main_v11 = fun _ => Cert.Spec.kernelTotal
      (fun n k => (m ((c.tc : Thread nD τ).loc main_arg0)) (ix2 n k))
      (fun r k => (m ((c.tc : Thread nD τ).loc main_arg1)) (ix2 r k)) :=
  value_of m R0V.result0_ideal c

end Cert.KernelIdeal.KV
-- ==== Proof.RefValue.lean ====
import proofs.«155385_j62319975465315_2_alg».proof.Defs
import proofs.«155385_j62319975465315_2_alg».proof.Proof.Gen.Pre_finite_inputs
import proofs.«155385_j62319975465315_2_alg».proof.Proof.ReadPatched
import proofs.«155385_j62319975465315_2_alg».proof.Proof.Spec
import Idealize.ShloMosaic.Lib.ValueIdx
import Idealize.ShloMosaic.Lib.Pipeline.Value
import Idealize.ShloMosaic.PureOps.Ideal.Laws

/-!
# The reference program's result is the second total of the specification

The reference scales the rows of both arrays, takes for every feature row its inner product
with its partner row (the positive logit; the 2048 values are laid end to end twice) and the
sum over all memory-bank rows of the inner products (the negative logit), both over the
temperature, puts the two logits side by side, takes the log-softmax of each pair, and
returns minus the mean of the first log-probability.  Stage by stage, each read at an index
built from its coordinates, this is Cert.Spec.refTotal at the rows of the two arrays.
Three steps of the reference leave no trace in the specification: adding a sum to the
number zero, folding the maximum of a pair from -∞, and taking one more maximum with -∞.
-/

noncomputable section

namespace Cert.ReferenceIdeal.RefValue

open Cert.ReferenceIdeal Cert.ReferenceIdeal.Gen Cert.ReferenceIdeal.ReadP
open Idealize.ShloMosaic Idealize.ShloMosaic.ValueIdx Idealize.ShloMosaic.TcCoe Idealize.SL.Sem
open scoped BigOperators

/-- The feature array as 4096 rows. -/
abbrev rows0 (a0 : FVec Ideal S4096x1024 .f32) : Fin 4096 → Cert.Spec.Row := fun n k => a0 (ix2 n k)
/-- The memory-bank array as 16384 rows. -/
abbrev rows1 (a1 : FVec Ideal S16384x1024 .f32) : Fin 16384 → Cert.Spec.Row := fun m k => a1 (ix2 m k)

/-- The printed zero word is the number zero. -/
theorem zero_word : (FloatOps.ofBits (F := Ideal) .f32 0x00000000#32 : EReal) = 0 := Ideal.ofBits_zero_f32

/-! ### Scaling the rows -/

theorem idx_sq0 (n : Fin 4096) (d k : Fin 1024) :
    idx_main_call0_v1 (idx_main_call0_v2 (idx_main_v3 (ix2 n d))) k = ix2 n k :=
  funext fun a => Fin.ext (by match a with | ⟨0, _⟩ => rfl | ⟨1, _⟩ => rfl)

/-- Entry (n, d) of the scaled feature array is entry d of the scaled row n. -/
theorem nrm0 (a0 : FVec Ideal S4096x1024 .f32) (n : Fin 4096) (d : Fin 1024) :
    val_main_v4 (F := Ideal) a0 (ix2 n d) = Cert.Spec.nrm (rows0 a0 n) d := by
  rw [val_main_v4_apply, val_main_v3_apply, val_main_v2_apply, val_main_v0_apply, val_main_call0_v2_apply,
    val_main_call0_v1_apply, val_main_v1_apply, val_main_cst_apply, val_main_call0_cst_apply, zero_word, zero_add]
  rw [Finset.sum_congr rfl (fun k _ => (val_main_call0_v0_apply a0 _).trans
    (by rw [idx_sq0 n d k]; rfl : _ = a0 (ix2 n k) * a0 (ix2 n k)))]
  rfl

theorem idx_sq1 (m : Fin 16384) (d k : Fin 1024) :
    idx_main_call1_v1 (idx_main_call1_v2 (idx_main_v8 (ix2 m d))) k = ix2 m k :=
  funext fun a => Fin.ext (by match a with | ⟨0, _⟩ => rfl | ⟨1, _⟩ => rfl)

/-- Entry (m, d) of the scaled memory bank is entry d of the scaled row m. -/
theorem nrm1 (a1 : FVec Ideal S16384x1024 .f32) (m : Fin 16384) (d : Fin 1024) :
    val_main_v9 (F := Ideal) a1 (ix2 m d) = Cert.Spec.nrm (rows1 a1 m) d := by
  rw [val_main_v9_apply, val_main_v8_apply, val_main_v7_apply, val_main_v5_apply, val_main_call1_v2_apply,
    val_main_call1_v1_apply, val_main_v6_apply, val_main_cst_0_apply, val_main_call1_cst_apply, zero_word, zero_add]
  rw [Finset.sum_congr rfl (fun k _ => (val_main_call1_v0_apply a1 _).trans
    (by rw [idx_sq1 m d k]; rfl : _ = a1 (ix2 m k) * a1 (ix2 m k)))]
  rfl

/-! ### The positive logit -/

theorem idx_lo (n : Fin 2048) (k : Fin 1024) :
    idx_main_v10 (idx_main_v13 (ix1 n) k) = ix2 (Cert.Spec.lo n) k :=
  funext fun a => Fin.ext (by match a with | ⟨0, _⟩ => rfl | ⟨1, _⟩ => rfl)

theorem idx_hi (n : Fin 2048) (k : Fin 1024) :
    idx_main_v11 (idx_main_v13 (ix1 n) k) = ix2 (Cert.Spec.hi n) k :=
  funext fun a => Fin.ext (by
    match a with
    | ⟨0, _⟩ => exact Nat.add_comm 2048 n.val
    | ⟨1, _⟩ => rfl)

/-- Before the two halves are joined: entry n is the inner product of scaled row n with its
    scaled partner, over the temperature. -/
theorem pos_half (a0 : FVec Ideal S4096x1024 .f32) (n : Fin 2048) :
    val_main_v15 (F := Ideal) a0 (ix1 n) = Cert.Spec.posK (rows0 a0) n := by
  rw [val_main_v15_apply, val_main_v13_apply, val_main_v14_apply, val_main_cst_2_apply, val_main_cst_1_apply,
    zero_word, zero_add]
  have e : ∀ k : Fin 1024, val_main_v12 (F := Ideal) a0 (idx_main_v13 (ix1 n) k)
      = Cert.Spec.nrm (rows0 a0 (Cert.Spec.lo n)) k * Cert.Spec.nrm (rows0 a0 (Cert.Spec.hi n)) k := fun k => by
    rw [val_main_v12_apply, val_main_v10_apply, val_main_v11_apply, idx_lo n k, idx_hi n k, nrm0, nrm0]
    rfl
  rw [Finset.sum_congr rfl (fun k _ => e k)]
  rfl

/-- After the join entry n (of 4096) is the entry of its row number modulo 2048. -/
theorem pos_at (a0 : FVec Ideal S4096x1024 .f32) (n : Fin 4096) :
    val_main_v16 (F := Ideal) a0 (ix1 n) = Cert.Spec.posR (rows0 a0) n := by
  unfold val_main_v16 Cert.Spec.posR
  by_cases h : n.val < 2048
  · have e := concatenate_pair_apply_left (t := S4096) (s₁ := S2048) (s₂ := S2048) (0 : Fin 1)
      (val_main_v15 (F := Ideal) a0) (val_main_v15 (F := Ideal) a0) concatenates_S2048_S2048_S4096_d0 (ix1 n) rfl
      (ix1 (⟨n.val, h⟩ : Fin 2048)) (fun b => by match b with | ⟨0, _⟩ => rfl)
    refine e.trans ?_
    rw [pos_half]
    exact congrArg _ (Fin.ext (Nat.mod_eq_of_lt h).symm)
  · have h2 : n.val - 2048 < 2048 := by have := n.isLt; omega
    have e := concatenate_pair_apply_right (t := S4096) (s₁ := S2048) (s₂ := S2048) (0 : Fin 1)
      (val_main_v15 (F := Ideal) a0) (val_main_v15 (F := Ideal) a0) concatenates_S2048_S2048_S4096_d0 (ix1 n) rfl rfl
      (ix1 (⟨n.val - 2048, h2⟩ : Fin 2048))
      (fun b hb => absurd (Fin.ext (by have hb1 : b.val < 1 := b.isLt; show b.val = 0; omega)) hb)
      (by show n.val - 2048 + 2048 = n.val; omega)
    refine e.trans ?_
    rw [pos_half]
    refine congrArg _ (Fin.ext ?_)
    show n.val - 2048 = n.val % 2048
    have := n.isLt; omega

/-! ### The negative logit -/

theorem idx_l17 (n : Fin 4096) (m : Fin 16384) (k : Fin 1024) :
    lidx_main_v17 (idx_main_v18 (ix1 n) m) k = ix2 n k :=
  funext fun a => Fin.ext (by match a with | ⟨0, _⟩ => rfl | ⟨1, _⟩ => rfl)

theorem idx_r17 (n : Fin 4096) (m : Fin 16384) (k : Fin 1024) :
    ridx_main_v17 (idx_main_v18 (ix1 n) m) k = ix2 m k :=
  funext fun a => Fin.ext (by match a with | ⟨0, _⟩ => rfl | ⟨1, _⟩ => rfl)

/-- Entry n is the sum over all memory-bank rows of the inner products with scaled row n, over
    the temperature. -/
theorem neg_at (a0 : FVec Ideal S4096x1024 .f32) (a1 : FVec Ideal S16384x1024 .f32) (n : Fin 4096) :
    val_main_v20 (F := Ideal) a0 a1 (ix1 n) = Cert.Spec.negR (rows0 a0) (rows1 a1) n := by
  rw [val_main_v20_apply, val_main_v18_apply, val_main_v19_apply, val_main_cst_4_apply, val_main_cst_3_apply,
    zero_word, zero_add]
  have e : ∀ m : Fin 16384, val_main_v17 (F := Ideal) a0 a1 (idx_main_v18 (ix1 n) m)
      = ∑ k : Fin 1024, Cert.Spec.nrm (rows0 a0 n) k * Cert.Spec.nrm (rows1 a1 m) k := fun m => by
    rw [val_main_v17_apply]
    exact Finset.sum_congr rfl (fun k _ => by rw [idx_l17 n m k, idx_r17 n m k, nrm0, nrm1])
  rw [Finset.sum_congr rfl (fun m _ => e m)]
  rfl

/-! ### The two logits side by side -/

theorem idx_21 (n : Fin 4096) (c : Fin 1) : idx_main_v21 (ix2 n c) = ix1 n :=
  funext fun a => Fin.ext (by match a with | ⟨0, _⟩ => rfl)

theorem idx_22 (n : Fin 4096) (c : Fin 1) : idx_main_v22 (ix2 n c) = ix1 n :=
  funext fun a => Fin.ext (by match a with | ⟨0, _⟩ => rfl)

/-- Column 0 of the logits is the positive logit. -/
theorem logit0 (a0 : FVec Ideal S4096x1024 .f32) (a1 : FVec Ideal S16384x1024 .f32) (n : Fin 4096) :
    val_main_v23 (F := Ideal) a0 a1 (ix2 n (0 : Fin 2)) = Cert.Spec.posR (rows0 a0) n := by
  unfold val_main_v23
  have e := concatenate_pair_apply_left (t := S4096x2) (s₁ := S4096x1) (s₂ := S4096x1) (1 : Fin 2)
    (val_main_v21 (F := Ideal) a0) (val_main_v22 (F := Ideal) a0 a1) concatenates_S4096x1_S4096x1_S4096x2_d1
    (ix2 n (0 : Fin 2)) rfl (ix2 n (0 : Fin 1)) (fun b => by match b with | ⟨0, _⟩ => rfl | ⟨1, _⟩ => rfl)
  refine e.trans ?_
  rw [val_main_v21_apply, idx_21, pos_at]

/-- Column 1 of the logits is the negative logit. -/
theorem logit1 (a0 : FVec Ideal S4096x1024 .f32) (a1 : FVec Ideal S16384x1024 .f32) (n : Fin 4096) :
    val_main_v23 (F := Ideal) a0 a1 (ix2 n (1 : Fin 2)) = Cert.Spec.negR (rows0 a0) (rows1 a1) n := by
  unfold val_main_v23
  have e := concatenate_pair_apply_right (t := S4096x2) (s₁ := S4096x1) (s₂ := S4096x1) (1 : Fin 2)
    (val_main_v21 (F := Ideal) a0) (val_main_v22 (F := Ideal) a0 a1) concatenates_S4096x1_S4096x1_S4096x2_d1
    (ix2 n (1 : Fin 2)) rfl rfl (ix2 n (0 : Fin 1))
    (fun b hb => by
      match b, hb with
      | ⟨0, _⟩, _ => rfl
      | ⟨1, _⟩, hb => exact absurd rfl hb)
    rfl
  refine e.trans ?_
  rw [val_main_v22_apply, idx_22, neg_at]

/-! ### The row maximum -/

/-- A fold over two entries. -/
theorem fold_pair {α : Type} (op : α → α → α) [Std.Commutative op] [Std.Associative op] (b : α) (f : Fin 2 → α) :
    (Finset.univ : Finset (Fin 2)).fold op b f = op (f 0) (op (f 1) b) := by
  rw [show (Finset.univ : Finset (Fin 2)) = insert 0 {1} from rfl,
    Finset.fold_insert (by decide), Finset.fold_singleton]

/-- Putting column k back into the reduced index n gives (n, k). -/
theorem lift_pair (h : S4096x2.Reduces [1] S4096) (n : Fin 4096) (k : Fin (S4096x2.size 1)) :
    h.lift (ix1 n) k = ix2 n (⟨k.val, k.isLt⟩ : Fin 2) := by
  funext c; apply Fin.ext
  fin_cases c <;> rfl

/-- A maximum over the two columns of a 4096 × 2 array, row by row. -/
theorem max_pair (x : FVec Ideal S4096x2 .f32) (init : FVec Ideal S_ .f32) (h' : S4096x2.ReducesTo [1] S4096)
    (hu : 0 < S_.numel) (n : Fin 4096) :
    Host.reduce FloatOps.maximumf x init h' hu (ix1 n)
      = max (x (ix2 n (0 : Fin 2))) (max (x (ix2 n (1 : Fin 2))) (init (Shape.Idx.first hu))) := by
  have h : S4096x2.Reduces [1] S4096 := by decide
  rw [Host.reduce_eq_fold_single FloatOps.maximumf x init h' h hu]
  have hf : (x ∘ h.lift (ix1 n)) = fun k : Fin 2 => x (ix2 n k) := funext fun k => congrArg x (lift_pair h n k)
  refine Eq.trans ?_ (fold_pair (max : EReal → EReal → EReal) (init (Shape.Idx.first hu)) (fun k : Fin 2 => x (ix2 n k)))
  exact congrArg (fun f => Finset.fold max (init (Shape.Idx.first hu)) f (Finset.univ : Finset (Fin 2))) hf

/-- The pattern 0xFF800000 is -∞, the least extended real. -/
theorem neg_inf_word : (FloatOps.ofBits (F := Ideal) .f32 0xFF800000#32 : EReal) = ⊥ := by
  show Ideal.ofBits .f32 0xFF800000#32 = ⊥
  simp [Ideal.ofBits, Ideal.ieee]

/-- The maximum the log-softmax subtracts is the larger of the two logits: starting the
    fold from -∞ and taking one more maximum with -∞ change nothing. -/
theorem rowmax (a0 : FVec Ideal S4096x1024 .f32) (a1 : FVec Ideal S16384x1024 .f32) (n : Fin 4096) :
    val_main_call2_v2 (F := Ideal) a0 a1 (ix1 n)
      = max (Cert.Spec.posR (rows0 a0) n) (Cert.Spec.negR (rows0 a0) (rows1 a1) n) := by
  rw [val_main_call2_v2_apply, val_main_call2_v1_apply, val_main_call2_cst_0_apply]
  unfold val_main_call2_v0
  rw [max_pair, val_main_call2_cst_apply, logit0, logit1, neg_inf_word]
  show max ⊥ (max _ (max _ ⊥)) = _
  rw [max_bot_right, max_bot_left]

/-! ### The log-softmax, column 0 -/

theorem idx_c34 (n : Fin 4096) (c : Fin 2) : idx_main_call2_v3 (idx_main_call2_v4 (ix2 n c)) = ix1 n :=
  funext fun a => Fin.ext (by match a with | ⟨0, _⟩ => rfl)

theorem idx_c810 (n : Fin 4096) (c : Fin 2) : idx_main_call2_v8 (idx_main_call2_v10 (ix2 n c)) = ix1 n :=
  funext fun a => Fin.ext (by match a with | ⟨0, _⟩ => rfl)

theorem idx_c7 (n : Fin 4096) (k : Fin 2) : idx_main_call2_v7 (ix1 n) k = ix2 n k :=
  funext fun a => Fin.ext (by match a with | ⟨0, _⟩ => rfl | ⟨1, _⟩ => rfl)

theorem idx_2526 (n : Fin 4096) : idx_main_v25 (idx_main_v26 (ix1 n)) = ix2 n (0 : Fin 2) :=
  funext fun a => Fin.ext (by
    match a with
    | ⟨0, _⟩ => exact Nat.div_one n.val
    | ⟨1, _⟩ => rfl)

/-- A logit minus the row maximum. -/
theorem shifted (a0 : FVec Ideal S4096x1024 .f32) (a1 : FVec Ideal S16384x1024 .f32) (n : Fin 4096) (c : Fin 2) :
    val_main_call2_v5 (F := Ideal) a0 a1 (ix2 n c)
      = val_main_v23 (F := Ideal) a0 a1 (ix2 n c)
        - max (Cert.Spec.posR (rows0 a0) n) (Cert.Spec.negR (rows0 a0) (rows1 a1) n) := by
  rw [val_main_call2_v5_apply, val_main_call2_v4_apply, val_main_call2_v3_apply, idx_c34, rowmax]
  rfl

/-- Entry n of the first log-probability column. -/
theorem logp0 (a0 : FVec Ideal S4096x1024 .f32) (a1 : FVec Ideal S16384x1024 .f32) (n : Fin 4096) :
    val_main_v26 (F := Ideal) a0 a1 (ix1 n)
      = Cert.Spec.lsm0 (Cert.Spec.posR (rows0 a0) n) (Cert.Spec.negR (rows0 a0) (rows1 a1) n) := by
  rw [val_main_v26_apply, val_main_v25_apply, idx_2526, val_main_v24_apply, val_main_call2_v10_apply,
    val_main_call2_v9_apply, val_main_call2_v8_apply, idx_c810, val_main_call2_v7_apply,
    val_main_call2_cst_1_apply, zero_word, zero_add, Fin.sum_univ_two,
    val_main_call2_v6_apply, val_main_call2_v6_apply, idx_c7, idx_c7, shifted, shifted, logit0, logit1]
  rfl

/-! ### The mean -/

/-- A rank-one index is its coordinate. -/
def idx1Equiv : S4096.Idx ≃ Fin 4096 where
  toFun j := j 0
  invFun n := ix1 n
  left_inv j := (eq_ix1 j).symm
  right_inv _ := rfl

/-- The reference's result, as a function of the two argument arrays, is the second total of the
    specification at the arrays' rows. -/
theorem ref_value (a0 : FVec Ideal S4096x1024 .f32) (a1 : FVec Ideal S16384x1024 .f32) :
    val_main_v29 (F := Ideal) a0 a1
      = fun _ => Cert.Spec.refTotal (fun n k => a0 (ix2 n k)) (fun m k => a1 (ix2 m k)) := by
  funext i
  rw [val_main_v29_apply, val_main_v28_apply, val_main_v27_apply, val_main_cst_6_apply, val_main_cst_5_apply,
    zero_word, zero_add]
  rw [Fintype.sum_equiv idx1Equiv _
    (fun n => Cert.Spec.lsm0 (Cert.Spec.posR (rows0 a0) n) (Cert.Spec.negR (rows0 a0) (rows1 a1) n))
    (fun j => (congrArg (val_main_v26 (F := Ideal) a0 a1) (eq_ix1 j)).trans (logp0 a0 a1 (j 0)))]
  rfl

/-- The same, for the term the run of the reference states for its result. -/
theorem ref_result (m : (ℓ : Loc nD τ sig) → Buf (Elt Ideal) ℓ) (c : Dev nD) :
    Cert.ReferenceIdeal.ValueP.res_main_v29 (F := Ideal) m c
      = fun _ => Cert.Spec.refTotal
          (fun n k => m ((c.tc : Thread nD τ).loc main_arg0) (ix2 n k))
          (fun j k => m ((c.tc : Thread nD τ).loc main_arg1) (ix2 j k)) :=
  (val_main_v29_eq m c).trans (ref_value _ _)

/-! ### The reference's frame -/

/-- The reference terminates without a fault and leaves its arguments as they were: its run
    with the statement about the result dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

end Cert.ReferenceIdeal.RefValue

end
-- ==== Proof.Finite.lean ====
import proofs.«155385_j62319975465315_2_alg».proof.Proof.Gen.Pre_finite_inputs
import Idealize.ShloMosaic.Lib.ReduceAll
import Idealize.ShloMosaic.Lib.ValueIdx
import Idealize.ShloMosaic.PureOps.Ideal

/-!
# Finite inputs are real numbers

The precondition compares the absolute value of every entry of both argument arrays with
the bit pattern of +∞ and asks that all comparisons hold.  Read at the extended reals this
says that max x (-x) is strictly below ⊤ for every entry x, which rules out both infinities,
so every entry is the coercion of a real number.
-/

noncomputable section

namespace Cert.Finite

open Idealize.ShloMosaic Idealize.ShloMosaic.ValueIdx Cert.Pre_finite_inputs

instance : Subsingleton S_.Idx := ⟨fun a b => funext fun d => d.elim0⟩

/-- The pattern 0x7F800000 is +∞. -/
theorem inf_bits : Ideal.ofBits .f32 0x7F800000#32 = (⊤ : EReal) := by
  simp [Ideal.ofBits, Ideal.ieee]

/-- An extended real whose absolute value compares strictly below +∞ is a real number. -/
theorem real_of_lt_inf (x : EReal)
    (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | coe r => exact ⟨r, rfl⟩
  | top => simp [Ideal.cmp] at h

variable [Facts]

/-- Under the generated precondition every entry of both argument arrays is a real number. -/
theorem real_of_pre (a0 : FVec Ideal S4096x1024 .f32) (a1 : FVec Ideal S16384x1024 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ix0
  dsimp only [Cert.Pre_finite_inputs.fn, andi] at h0
  obtain ⟨hA, hB⟩ := IntOp.andi_eq_one.1 h0
  refine ⟨fun i => ?_, fun i => ?_⟩
  · have e := Host.reduce_andi_all _ _ _ _ _ hA i
    exact real_of_lt_inf (a0 i) e
  · have e := Host.reduce_andi_all _ _ _ _ _ hB i
    exact real_of_lt_inf (a1 i) e

end Cert.Finite

end
-- ==== Proof.SpecLit.lean ====
import proofs.«155385_j62319975465315_2_alg».proof.Proof.Spec

/-!
# The three float constants are positive reals

Each binary32 word denotes `(2^23 + fraction) * 2^(exponent - 150)`; only positivity and
finiteness are used afterwards.
-/

namespace Cert.Spec

open Idealize.ShloMosaic

theorem eps_eq : eps = ((11258999 * (2 ^ 50)⁻¹ : ℝ) : EReal) := by
  simp [eps, Ideal.ofBits, Ideal.ieee]

theorem temp_eq : temp = ((13421773 * (2 ^ 27)⁻¹ : ℝ) : EReal) := by
  simp [temp, Ideal.ofBits, Ideal.ieee]

theorem c4096_eq : c4096 = ((8388608 * (2 ^ 11)⁻¹ : ℝ) : EReal) := by
  simp [c4096, Ideal.ofBits, Ideal.ieee]

theorem eps_real : ∃ e : ℝ, 0 < e ∧ eps = (e : EReal) := ⟨_, by positivity, eps_eq⟩
theorem temp_real : ∃ e : ℝ, 0 < e ∧ temp = (e : EReal) := ⟨_, by positivity, temp_eq⟩
theorem c4096_real : ∃ e : ℝ, 0 < e ∧ c4096 = (e : EReal) := ⟨_, by positivity, c4096_eq⟩

end Cert.Spec
-- ==== Proof.SpecReal.lean ====
import proofs.«155385_j62319975465315_2_alg».proof.Proof.Spec
import proofs.«155385_j62319975465315_2_alg».proof.Proof.SpecLit
import proofs.«155385_j62319975465315_2_alg».proof.Proof.SpecSums

/-!
# Real inputs give real values

A row of reals scaled to unit length is a row of reals (the denominator is at least `eps > 0`),
and on reals minus the softplus of `q - p` is the first component of the log-softmax of `(p, q)`:
with `M = max p q`, `(p - M) - log (exp (p - M) + exp (q - M)) = -(max (q - p) 0 + log (1 + exp (-|q - p|)))`,
by cases on `p ≤ q`.
-/

namespace Cert.Spec

open Idealize.ShloMosaic
open scoped BigOperators

/-- The coercion from the reals commutes with `max`. -/
theorem coe_max (a b : ℝ) : ((max a b : ℝ) : EReal) = max (a : EReal) (b : EReal) :=
  EReal.coe_strictMono.monotone.map_max

/-- A real row scaled to unit length is a real row. -/
theorem nrm_real (α : Fin 1024 → ℝ) :
    ∃ β : Fin 1024 → ℝ, nrm (fun k => (α k : EReal)) = fun d => (β d : EReal) := by
  obtain ⟨e, he, hee⟩ := eps_real
  have hs : (0 : ℝ) ≤ ∑ k, α k * α k := Finset.sum_nonneg fun k _ => mul_self_nonneg _
  have hy : max (Real.sqrt (∑ k, α k * α k)) e ≠ 0 := (lt_of_lt_of_le he (le_max_right _ _)).ne'
  refine ⟨fun d => α d * (1 / max (Real.sqrt (∑ k, α k * α k)) e), ?_⟩
  funext d
  have h1 : (∑ k : Fin 1024, (α k : EReal) * (α k : EReal)) = ((∑ k, α k * α k : ℝ) : EReal) := by
    rw [coe_sum]; simp only [EReal.coe_mul]
  simp only [nrm]
  rw [hee, h1, Ideal.sqrt_coe, if_neg (not_lt.2 hs), ← coe_max, Ideal.div_coe hy, ← EReal.coe_mul]

/-- Minus the softplus at a real. -/
theorem sp_coe (d : ℝ) :
    sp (d : EReal) = ((-(max d 0 + Real.log (1 + Real.exp (-|d|))) : ℝ) : EReal) := by
  have hpos : ¬ (1 + Real.exp (-|d|) ≤ 0) := by have := Real.exp_pos (-|d|); linarith
  have h1 : max (d : EReal) (-(d : EReal)) = ((|d| : ℝ) : EReal) := by
    rw [← EReal.coe_neg, ← coe_max, abs_eq_max_neg]
  have h2 : (0 : EReal) - ((|d| : ℝ) : EReal) = ((-|d| : ℝ) : EReal) := by
    rw [zero_sub, EReal.coe_neg]
  have h3 : max (d : EReal) 0 = ((max d 0 : ℝ) : EReal) := by rw [coe_max, EReal.coe_zero]
  simp only [sp, Ideal.log1p]
  rw [h1, h2, h3, Ideal.exp_coe, ← EReal.coe_one, ← EReal.coe_add, Ideal.log_coe, if_neg hpos, ← EReal.coe_add,
    zero_sub, ← EReal.coe_neg]

/-- The first log-softmax component at a pair of reals. -/
theorem lsm0_coe (p q : ℝ) : lsm0 (p : EReal) (q : EReal)
    = (((p - max p q) - Real.log (Real.exp (p - max p q) + Real.exp (q - max p q)) : ℝ) : EReal) := by
  have hpos : ¬ (Real.exp (p - max p q) + Real.exp (q - max p q) ≤ 0) := by
    have := Real.exp_pos (p - max p q); have := Real.exp_pos (q - max p q); linarith
  simp only [lsm0]
  rw [← coe_max, ← EReal.coe_sub, ← EReal.coe_sub, Ideal.exp_coe, Ideal.exp_coe, ← EReal.coe_add, Ideal.log_coe,
    if_neg hpos, ← EReal.coe_sub]

/-- The two closed forms agree on the reals. -/
theorem softplus_id (p q : ℝ) :
    (p - max p q) - Real.log (Real.exp (p - max p q) + Real.exp (q - max p q))
      = -(max (q - p) 0 + Real.log (1 + Real.exp (-|q - p|))) := by
  rcases le_total p q with h | h
  · rw [max_eq_right h, max_eq_left (sub_nonneg.2 h), abs_of_nonneg (sub_nonneg.2 h), sub_self, Real.exp_zero,
      neg_sub, add_comm (Real.exp (p - q)) 1]
    ring
  · rw [max_eq_left h, max_eq_right (sub_nonpos.2 h), abs_of_nonpos (sub_nonpos.2 h), sub_self, Real.exp_zero,
      neg_neg]
    ring

theorem sp_sub_eq_lsm0 (p q : ℝ) : sp ((q : EReal) - (p : EReal)) = lsm0 (p : EReal) (q : EReal) := by
  rw [← EReal.coe_sub, sp_coe, lsm0_coe, softplus_id]

end Cert.Spec
-- ==== Proof.SpecMain.lean ====
import proofs.«155385_j62319975465315_2_alg».proof.Proof.SpecReal

/-!
# The two totals agree on real inputs
-/

namespace Cert.Spec

open Idealize.ShloMosaic
open scoped BigOperators

/-- The summed memory bank is the sum over all 16384 scaled rows. -/
theorem msum_eq (mb : Fin 16384 → Row) (k : Fin 1024) : msum mb k = ∑ m, nrm (mb m) k :=
  sum_mrow (fun m => nrm (mb m) k)

/-- A real over the temperature is a real. -/
theorem div_temp_real (s : ℝ) : ∃ r : ℝ, Ideal.div (s : EReal) temp = (r : EReal) := by
  obtain ⟨t, ht, hte⟩ := temp_real
  exact ⟨s * (1 / t), by rw [hte, Ideal.div_coe ht.ne', ← EReal.coe_mul]⟩

/-- "Every scaled row of `x` is real". -/
def RealRows {N : ℕ} (x : Fin N → Row) : Prop :=
  ∀ n, ∃ β : Fin 1024 → ℝ, nrm (x n) = fun k => (β k : EReal)

theorem realRows_of_real {N : ℕ} (x : Fin N → Row) (hx : ∀ n k, ∃ r : ℝ, x n k = (r : EReal)) : RealRows x := by
  choose X hX using hx
  intro n
  have : x n = fun k => (X n k : EReal) := funext (hX n)
  rw [this]
  exact nrm_real _

theorem posK_real (x : Fin 4096 → Row) (hx : RealRows x) (n : Fin 2048) : ∃ p : ℝ, posK x n = (p : EReal) := by
  obtain ⟨a, ha⟩ := hx (lo n)
  obtain ⟨b, hb⟩ := hx (hi n)
  simp only [posK, ha, hb, ← EReal.coe_mul, ← coe_sum]
  exact div_temp_real _

theorem negR_real (x : Fin 4096 → Row) (mb : Fin 16384 → Row) (hx : RealRows x) (hm : RealRows mb) (n : Fin 4096) :
    ∃ q : ℝ, negR x mb n = (q : EReal) := by
  obtain ⟨a, ha⟩ := hx n
  choose B hB using hm
  simp only [negR, ha, hB, ← EReal.coe_mul, ← coe_sum]
  exact div_temp_real _

/-- Summing the memory bank first and then taking the inner product is the sum of the inner products. -/
theorem negK_eq_negR (x : Fin 4096 → Row) (mb : Fin 16384 → Row) (hx : RealRows x) (hm : RealRows mb) (n : Fin 4096) :
    negK x mb n = negR x mb n := by
  obtain ⟨a, ha⟩ := hx n
  choose B hB using hm
  simp only [negK, negR, msum_eq, ha, hB, ← EReal.coe_mul, ← coe_sum]
  have h : (∑ k, a k * ∑ m, B m k) = ∑ m, ∑ k, a k * B m k := by
    rw [Finset.sum_comm]
    exact Finset.sum_congr rfl fun k _ => Finset.mul_sum _ _ _
  rw [h]

theorem kernelTotal_eq_refTotal (x : Fin 4096 → Row) (mb : Fin 16384 → Row)
    (hx : ∀ n k, ∃ r : ℝ, x n k = (r : EReal)) (hm : ∀ m k, ∃ r : ℝ, mb m k = (r : EReal)) :
    kernelTotal x mb = refTotal x mb := by
  have hxr := realRows_of_real x hx
  have hmr := realRows_of_real mb hm
  have hterm : ∀ n, sp (negK x mb n - posR x n) = lsm0 (posR x n) (negR x mb n) := by
    intro n
    obtain ⟨p, hp⟩ := posK_real x hxr (half n)
    obtain ⟨q, hq⟩ := negR_real x mb hxr hmr n
    rw [negK_eq_negR x mb hxr hmr n, posR, hp, hq, sp_sub_eq_lsm0]
  have hparts : partK x mb 0 + partK x mb 1 = ∑ n, lsm0 (posR x n) (negR x mb n) := by
    rw [← sum_rows (fun n => lsm0 (posR x n) (negR x mb n)), Fin.sum_univ_two]
    simp only [← hterm]
    simp only [partK, posR, half_arow, half_brow]
  obtain ⟨c, hc, hce⟩ := c4096_real
  rw [kernelTotal, refTotal, hparts, hce, Ideal.div_coe hc.ne', Ideal.div_coe hc.ne', neg_mul]

end Cert.Spec
-- ==== Proof.lean ====
/-
  The claim's five conjuncts. The two kernel programs (the word-level one and its idealization are the same text)
  run to the end with their argument arrays unchanged: that is the run of the four items of @main (two kernel regions
  among two stretches of host operations) with its clause about the result dropped. The reference's run is the
  composition of its host operations. The idealization rewrote nothing, so there is nothing to preserve. At the ideal
  instance both programs end at the same extended real: the kernel sums the normalised rows of the memory bank once
  and multiplies that one row into each normalised image row, the reference multiplies with every bank row and sums
  afterwards (equal for finite inputs, where every normalised entry is a real number); the kernel's stable softplus
  form  -(max(d,0) + log(1 + exp(-|d|)))  of the two-way log-softmax at d = neg - pos is the reference's
  (p - max(p,q)) - log(exp(p - max) + exp(q - max)); and the 4096 rows are visited by the kernel as two halves of
  eight blocks of 256 rows.
-/
import proofs.«155385_j62319975465315_2_alg».proof.Defs
import proofs.«155385_j62319975465315_2_alg».proof.Proof.Gen.Kernel
import proofs.«155385_j62319975465315_2_alg».proof.Proof.Gen.KernelIdeal
import proofs.«155385_j62319975465315_2_alg».proof.Proof.Gen.ReferenceIdeal
import proofs.«155385_j62319975465315_2_alg».proof.Proof.Gen.Pre_finite_inputs
import proofs.«155385_j62319975465315_2_alg».proof.Proof.KRun
import proofs.«155385_j62319975465315_2_alg».proof.Proof.Run
import proofs.«155385_j62319975465315_2_alg».proof.Proof.KernelValue
import proofs.«155385_j62319975465315_2_alg».proof.Proof.RefValue
import proofs.«155385_j62319975465315_2_alg».proof.Proof.Finite
import proofs.«155385_j62319975465315_2_alg».proof.Proof.SpecMain
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ =>
  (θ_run Cert.Kernel.defs _ _).mono (fun _ h c => (h c).2) (Cert.Kernel.Run.run (F := Bits) m ρ)

/-- So does its idealization. -/
theorem frame_ki : Cert.frame_KernelIdeal := fun m ρ _ =>
  (θ_run Cert.KernelIdeal.defs _ _).mono (fun _ h c => (h c).2) (Cert.KernelIdeal.Run.run (F := Ideal) m ρ)

/-- And the reference. -/
theorem frame_ri : Cert.frame_ReferenceIdeal := Cert.ReferenceIdeal.RefValue.frame_ri

/-- The ideal pass rewrote no operation. -/
theorem preserves : Cert.preserves_Kernel_KernelIdeal := trivial

/-- Both idealized programs end at the same extended real. -/
theorem algebraic : Cert.algebraic_KernelIdeal_ReferenceIdeal := by
  intro m ρ m' ρ' hpre hagree
  refine ⟨fun c => fun _ => Cert.Spec.kernelTotal
      (fun n k => (m ((c.tc : Thread Cert.KernelIdeal.nD Cert.KernelIdeal.τ).loc Cert.KernelIdeal.main_arg0)) (ValueIdx.ix2 n k))
      (fun r k => (m ((c.tc : Thread Cert.KernelIdeal.nD Cert.KernelIdeal.τ).loc Cert.KernelIdeal.main_arg1)) (ValueIdx.ix2 r k)), ?_, ?_⟩
  · exact (θ_run Cert.KernelIdeal.defs _ _).mono (fun _ h c => ⟨(h c).1.trans (Cert.KernelIdeal.KV.value m c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1⟩ := Cert.Finite.real_of_pre _ _ (hpre c)
    rw [Cert.ReferenceIdeal.RefValue.ref_result, (hagree c).1, (hagree c).2]
    funext _
    exact (Cert.Spec.kernelTotal_eq_refTotal _ _ (fun n k => h0 _) (fun r k => h1 _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
